-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v81)) (v1 : (c : Dev Cert.KernelIdeal.nD) → Buf (Elt Ideal) ((c.tc : Thread Cert.KernelIdeal.nD Cert.KernelIdeal.τ).loc Cert.KernelIdeal.main_v161)) (v2 : (c : Dev Cert.KernelIdeal.nD) → Buf (Elt Ideal) ((c.tc : Thread Cert.KernelIdeal.nD Cert.KernelIdeal.τ).loc Cert.KernelIdeal.main_cst_36)) (v3 : (c : Dev Cert.KernelIdeal.nD) → Buf (Elt Ideal) ((c.tc : Thread Cert.KernelIdeal.nD Cert.KernelIdeal.τ).loc Cert.KernelIdeal.main_v162)) (v4 : (c : Dev Cert.KernelIdeal.nD) → Buf (Elt Ideal) ((c.tc : Thread Cert.KernelIdeal.nD Cert.KernelIdeal.τ).loc Cert.KernelIdeal.main_v164)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_v161) = v1 c
          ∧ r.2.mem ((c.tc : Thread Cert.KernelIdeal.nD Cert.KernelIdeal.τ).loc Cert.KernelIdeal.main_cst_36) = v2 c
          ∧ r.2.mem ((c.tc : Thread Cert.KernelIdeal.nD Cert.KernelIdeal.τ).loc Cert.KernelIdeal.main_v162) = v3 c
          ∧ r.2.mem ((c.tc : Thread Cert.KernelIdeal.nD Cert.KernelIdeal.τ).loc Cert.KernelIdeal.main_v164) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_v264) = v1 c
          ∧ r.2.mem ((c.tc : Thread Cert.ReferenceIdeal.nD Cert.ReferenceIdeal.τ).loc Cert.ReferenceIdeal.main_cst_48) = v2 c
          ∧ r.2.mem ((c.tc : Thread Cert.ReferenceIdeal.nD Cert.ReferenceIdeal.τ).loc Cert.ReferenceIdeal.main_v265) = v3 c
          ∧ r.2.mem ((c.tc : Thread Cert.ReferenceIdeal.nD Cert.ReferenceIdeal.τ).loc Cert.ReferenceIdeal.main_v128) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S450000 : Shape := ⟨1, ![450000]⟩
abbrev S2x128x64 : Shape := ⟨3, ![2, 128, 64]⟩
abbrev S2x64 : Shape := ⟨2, ![2, 64]⟩
abbrev S2x64x1 : Shape := ⟨3, ![2, 64, 1]⟩
abbrev S2x1 : Shape := ⟨2, ![2, 1]⟩
abbrev S2x64x64 : Shape := ⟨3, ![2, 64, 64]⟩
abbrev S2x800000 : Shape := ⟨2, ![2, 800000]⟩
abbrev S2x50000x1 : Shape := ⟨3, ![2, 50000, 1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S450000 : S_.BroadcastsInDim S450000 (![] : Fin 0 → Fin S450000.rank)
  reducesTo_S450000_S_d0 : S450000.ReducesTo [0] S_
  bcast_S_S2x128x64 : S_.BroadcastsInDim S2x128x64 (![] : Fin 0 → Fin S2x128x64.rank)
  reducesTo_S2x128x64_S_d0_1_2 : S2x128x64.ReducesTo [0, 1, 2] S_
  bcast_S_S2x64 : S_.BroadcastsInDim S2x64 (![] : Fin 0 → Fin S2x64.rank)
  reducesTo_S2x64_S_d0_1 : S2x64.ReducesTo [0, 1] S_
  bcast_S_S2x64x1 : S_.BroadcastsInDim S2x64x1 (![] : Fin 0 → Fin S2x64x1.rank)
  reducesTo_S2x64x1_S_d0_1_2 : S2x64x1.ReducesTo [0, 1, 2] S_
  bcast_S_S2x1 : S_.BroadcastsInDim S2x1 (![] : Fin 0 → Fin S2x1.rank)
  reducesTo_S2x1_S_d0_1 : S2x1.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2x800000 : S_.BroadcastsInDim S2x800000 (![] : Fin 0 → Fin S2x800000.rank)
  reducesTo_S2x800000_S_d0_1 : S2x800000.ReducesTo [0, 1] S_
  bcast_S_S2x50000x1 : S_.BroadcastsInDim S2x50000x1 (![] : Fin 0 → Fin S2x50000x1.rank)
  reducesTo_S2x50000x1_S_d0_1_2 : S2x50000x1.ReducesTo [0, 1, 2] S_

variable [Facts]

def fn_part3 {F : FTy → Type} [FloatOps F] (main_arg11 : FVec F S2x800000 .f32) (main_arg12 : FVec F S2x50000x1 .f32) (main_v48 : IVec S_ 1) (main_v49 : FVec F S2x1 .f32) (main_v50 : FVec F S2x1 .f32) : IVec S_ 1 :=
  let main_v51 : IVec S2x1 1 := cmpf .olt main_v49 main_v50
  let main_c_19 : IVec S_ 1 := constantI S_ 1 1#1
  let main_v52 : IVec S_ 1 := (fun x v => Host.reduce IntOp.andi x v reducesTo_S2x1_S_d0_1 h_S_) main_v51 main_c_19
  let main_v53 : IVec S_ 1 := andi main_v48 main_v52
  let main_v54 : FVec F S2x800000 .f32 := Host.absf main_arg11
  let main_cst_20 : FVec F S_ .f32 := constant S_ .f32 0x7F800000#32
  let main_v55 : FVec F S2x800000 .f32 := broadcastInDim S2x800000 ![] bcast_S_S2x800000 main_cst_20
  let main_v56 : IVec S2x800000 1 := cmpf .olt main_v54 main_v55
  let main_c_21 : IVec S_ 1 := constantI S_ 1 1#1
  let main_v57 : IVec S_ 1 := (fun x v => Host.reduce IntOp.andi x v reducesTo_S2x800000_S_d0_1 h_S_) main_v56 main_c_21
  let main_v58 : IVec S_ 1 := andi main_v53 main_v57
  let main_v59 : FVec F S2x50000x1 .f32 := Host.absf main_arg12
  let main_cst_22 : FVec F S_ .f32 := constant S_ .f32 0x7F800000#32
  let main_v60 : FVec F S2x50000x1 .f32 := broadcastInDim S2x50000x1 ![] bcast_S_S2x50000x1 main_cst_22
  let main_v61 : IVec S2x50000x1 1 := cmpf .olt main_v59 main_v60
  let main_c_23 : IVec S_ 1 := constantI S_ 1 1#1
  let main_v62 : IVec S_ 1 := (fun x v => Host.reduce IntOp.andi x v reducesTo_S2x50000x1_S_d0_1_2 h_S_) main_v61 main_c_23
  let main_v63 : IVec S_ 1 := andi main_v58 main_v62
  main_v63

def fn_part2 {F : FTy → Type} [FloatOps F] (main_arg7 : FVec F S2x64x64 .f32) (main_arg8 : FVec F S2x64 .f32) (main_arg9 : FVec F S2x64x1 .f32) (main_arg10 : FVec F S2x1 .f32) (main_arg11 : FVec F S2x800000 .f32) (main_arg12 : FVec F S2x50000x1 .f32) (main_v33 : IVec S_ 1) : IVec S_ 1 :=
  let main_v34 : FVec F S2x64x64 .f32 := Host.absf main_arg7
  let main_cst_12 : FVec F S_ .f32 := constant S_ .f32 0x7F800000#32
  let main_v35 : FVec F S2x64x64 .f32 := broadcastInDim S2x64x64 ![] bcast_S_S2x64x64 main_cst_12
  let main_v36 : IVec S2x64x64 1 := cmpf .olt main_v34 main_v35
  let main_c_13 : IVec S_ 1 := constantI S_ 1 1#1
  let main_v37 : IVec S_ 1 := (fun x v => Host.reduce IntOp.andi x v reducesTo_S2x64x64_S_d0_1_2 h_S_) main_v36 main_c_13
  let main_v38 : IVec S_ 1 := andi main_v33 main_v37
  let main_v39 : FVec F S2x64 .f32 := Host.absf main_arg8
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_v44 : FVec F S2x64x1 .f32 := Host.absf main_arg9
  let main_cst_16 : FVec F S_ .f32 := constant S_ .f32 0x7F800000#32
  let main_v45 : FVec F S2x64x1 .f32 := broadcastInDim S2x64x1 ![] bcast_S_S2x64x1 main_cst_16
  let main_v46 : IVec S2x64x1 1 := cmpf .olt main_v44 main_v45
  let main_c_17 : IVec S_ 1 := constantI S_ 1 1#1
  let main_v47 : IVec S_ 1 := (fun x v => Host.reduce IntOp.andi x v reducesTo_S2x64x1_S_d0_1_2 h_S_) main_v46 main_c_17
  let main_v48 : IVec S_ 1 := andi main_v43 main_v47
  let main_v49 : FVec F S2x1 .f32 := Host.absf main_arg10
  let main_cst_18 : FVec F S_ .f32 := constant S_ .f32 0x7F800000#32
  let main_v50 : FVec F S2x1 .f32 := broadcastInDim S2x1 ![] bcast_S_S2x1 main_cst_18
  fn_part3 (F := F) main_arg11 main_arg12 main_v48 main_v49 main_v50

def fn_part1 {F : FTy → Type} [FloatOps F] (main_arg4 : FVec F S2x64 .f32) (main_arg5 : FVec F S2x64x1 .f32) (main_arg6 : FVec F S2x1 .f32) (main_arg7 : FVec F S2x64x64 .f32) (main_arg8 : FVec F S2x64 .f32) (main_arg9 : FVec F S2x64x1 .f32) (main_arg10 : FVec F S2x1 .f32) (main_arg11 : FVec F S2x800000 .f32) (main_arg12 : FVec F S2x50000x1 .f32) (main_v13 : IVec S_ 1) (main_v16 : IVec S2x128x64 1) : IVec S_ 1 :=
  let main_c_5 : IVec S_ 1 := constantI S_ 1 1#1
  let main_v17 : IVec S_ 1 := (fun x v => Host.reduce IntOp.andi x v reducesTo_S2x128x64_S_d0_1_2 h_S_) main_v16 main_c_5
  let main_v18 : IVec S_ 1 := andi main_v13 main_v17
  let main_v19 : FVec F S2x64 .f32 := Host.absf main_arg4
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2x64x1 .f32 := Host.absf main_arg5
  let main_cst_8 : FVec F S_ .f32 := constant S_ .f32 0x7F800000#32
  let main_v25 : FVec F S2x64x1 .f32 := broadcastInDim S2x64x1 ![] bcast_S_S2x64x1 main_cst_8
  let main_v26 : IVec S2x64x1 1 := cmpf .olt main_v24 main_v25
  let main_c_9 : IVec S_ 1 := constantI S_ 1 1#1
  let main_v27 : IVec S_ 1 := (fun x v => Host.reduce IntOp.andi x v reducesTo_S2x64x1_S_d0_1_2 h_S_) main_v26 main_c_9
  let main_v28 : IVec S_ 1 := andi main_v23 main_v27
  let main_v29 : FVec F S2x1 .f32 := Host.absf main_arg6
  let main_cst_10 : FVec F S_ .f32 := constant S_ .f32 0x7F800000#32
  let main_v30 : FVec F S2x1 .f32 := broadcastInDim S2x1 ![] bcast_S_S2x1 main_cst_10
  let main_v31 : IVec S2x1 1 := cmpf .olt main_v29 main_v30
  let main_c_11 : IVec S_ 1 := constantI S_ 1 1#1
  let main_v32 : IVec S_ 1 := (fun x v => Host.reduce IntOp.andi x v reducesTo_S2x1_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S50000x64 .f32) (main_arg1 : FVec F S800000 .f32) (main_arg2 : FVec F S450000 .f32) (main_arg3 : FVec F S2x128x64 .f32) (main_arg4 : FVec F S2x64 .f32) (main_arg5 : FVec F S2x64x1 .f32) (main_arg6 : FVec F S2x1 .f32) (main_arg7 : FVec F S2x64x64 .f32) (main_arg8 : FVec F S2x64 .f32) (main_arg9 : FVec F S2x64x1 .f32) (main_arg10 : FVec F S2x1 .f32) (main_arg11 : FVec F S2x800000 .f32) (main_arg12 : FVec F S2x50000x1 .f32) (main_arg13 : IVec S800000 32) (main_arg14 : IVec S800000 32) (main_arg15 : IVec S450000 32) (main_arg16 : IVec S450000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S450000 .f32 := Host.absf main_arg2
  let main_cst_2 : FVec F S_ .f32 := constant S_ .f32 0x7F800000#32
  let main_v10 : FVec F S450000 .f32 := broadcastInDim S450000 ![] bcast_S_S450000 main_cst_2
  let main_v11 : IVec S450000 1 := cmpf .olt main_v9 main_v10
  let main_c_3 : IVec S_ 1 := constantI S_ 1 1#1
  let main_v12 : IVec S_ 1 := (fun x v => Host.reduce IntOp.andi x v reducesTo_S450000_S_d0 h_S_) main_v11 main_c_3
  let main_v13 : IVec S_ 1 := andi main_v8 main_v12
  let main_v14 : FVec F S2x128x64 .f32 := Host.absf main_arg3
  let main_cst_4 : FVec F S_ .f32 := constant S_ .f32 0x7F800000#32
  let main_v15 : FVec F S2x128x64 .f32 := broadcastInDim S2x128x64 ![] bcast_S_S2x128x64 main_cst_4
  let main_v16 : IVec S2x128x64 1 := cmpf .olt main_v14 main_v15
  fn_part1 (F := F) main_arg4 main_arg5 main_arg6 main_arg7 main_arg8 main_arg9 main_arg10 main_arg11 main_arg12 main_v13 main_v16
-- ==== Kernel.lean ====
abbrev S50000x64 : Shape := ⟨2, ![50000, 64]⟩
abbrev S800000 : Shape := ⟨1, ![800000]⟩
abbrev S450000 : Shape := ⟨1, ![450000]⟩
abbrev S2x128x64 : Shape := ⟨3, ![2, 128, 64]⟩
abbrev S2x64 : Shape := ⟨2, ![2, 64]⟩
abbrev S2x64x1 : Shape := ⟨3, ![2, 64, 1]⟩
abbrev S2x1 : Shape := ⟨2, ![2, 1]⟩
abbrev S2x64x64 : Shape := ⟨3, ![2, 64, 64]⟩
abbrev S2x800000 : Shape := ⟨2, ![2, 800000]⟩
abbrev S2x50000x1 : Shape := ⟨3, ![2, 50000, 1]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S6400x128 : Shape := ⟨2, ![6400, 128]⟩
abbrev S2x6400 : Shape := ⟨2, ![2, 6400]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S1x64x1 : Shape := ⟨3, ![1, 64, 1]⟩
abbrev S64x1 : Shape := ⟨2, ![64, 1]⟩
abbrev S1x1 : Shape := ⟨2, ![1, 1]⟩
abbrev S1 : Shape := ⟨1, ![1]⟩
abbrev S6400x64 : Shape := ⟨2, ![6400, 64]⟩
abbrev S6400x1 : Shape := ⟨2, ![6400, 1]⟩
abbrev S1x6400 : Shape := ⟨2, ![1, 6400]⟩
abbrev S6400 : Shape := ⟨1, ![6400]⟩
abbrev S1x50000x64 : Shape := ⟨3, ![1, 50000, 64]⟩
abbrev S2x50000x64 : Shape := ⟨3, ![2, 50000, 64]⟩
abbrev S2x5000x64 : Shape := ⟨3, ![2, 5000, 64]⟩
abbrev S2x5000x1 : Shape := ⟨3, ![2, 5000, 1]⟩
abbrev S1x5000x64 : Shape := ⟨3, ![1, 5000, 64]⟩
abbrev S5000x64 : Shape := ⟨2, ![5000, 64]⟩
abbrev S1x64x64 : Shape := ⟨3, ![1, 64, 64]⟩
abbrev S64x64 : Shape := ⟨2, ![64, 64]⟩
abbrev S5000x1 : Shape := ⟨2, ![5000, 1]⟩
abbrev S1x5000x1 : Shape := ⟨3, ![1, 5000, 1]⟩
abbrev S1x800000 : Shape := ⟨2, ![1, 800000]⟩
abbrev S450000x1 : Shape := ⟨2, ![450000, 1]⟩
abbrev S450000x64 : Shape := ⟨2, ![450000, 64]⟩
abbrev S1x50000x1 : Shape := ⟨3, ![1, 50000, 1]⟩
abbrev S50000x1 : Shape := ⟨2, ![50000, 1]⟩

abbrev nBuf : Space → Nat
  | .hbm => 221
  | .vmem => 20
  | .smem => 0
  | _ => 0

abbrev hbmTy0_0 (i : Nat) : BufTy := match i % 128 with
  | 0 => ⟨S50000x64, .f32⟩
  | 1 => ⟨S800000, .f32⟩
  | 2 => ⟨S450000, .f32⟩
  | 3 => ⟨S2x128x64, .f32⟩
  | 4 => ⟨S2x64, .f32⟩
  | 5 => ⟨S2x64x1, .f32⟩
  | 6 => ⟨S2x1, .f32⟩
  | 7 => ⟨S2x64x64, .f32⟩
  | 8 => ⟨S2x64, .f32⟩
  | 9 => ⟨S2x64x1, .f32⟩
  | 10 => ⟨S2x1, .f32⟩
  | 11 => ⟨S2x800000, .f32⟩
  | 12 => ⟨S2x50000x1, .f32⟩
  | 13 => ⟨S800000, .i32⟩
  | 14 => ⟨S800000, .i32⟩
  | 15 => ⟨S450000, .i32⟩
  | 16 => ⟨S450000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x64, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x64, .f32⟩
  | 35 => ⟨S800000x128, .f32⟩
  | 36 => ⟨S2x800000, .f32⟩
  | 37 => ⟨S800000x1, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x64, .f32⟩
  | 47 => ⟨S800000x64, .f32⟩
  | 48 => ⟨S800000x64, .f32⟩
  | 49 => ⟨S_, .f32⟩
  | 50 => ⟨S50000x64, .f32⟩
  | 51 => ⟨S800000x1, .i32⟩
  | 52 => ⟨S50000x64, .f32⟩
  | 53 => ⟨S800000x1, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x64, .f32⟩
  | 63 => ⟨S800000x64, .f32⟩
  | 64 => ⟨S800000x64, .f32⟩
  | 65 => ⟨S_, .f32⟩
  | 66 => ⟨S50000x64, .f32⟩
  | 67 => ⟨S800000x1, .i32⟩
  | 68 => ⟨S50000x64, .f32⟩
  | 69 => ⟨S1x50000x64, .f32⟩
  | 70 => ⟨S1x50000x64, .f32⟩
  | 71 => ⟨S2x50000x64, .f32⟩
  | 72 => ⟨S2x50000x1, .f32⟩
  | 73 => ⟨S1x800000, .f32⟩
  | 74 => ⟨S800000, .f32⟩
  | 75 => ⟨S800000, .f32⟩
  | 76 => ⟨S800000x1, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x64, .f32⟩
  | 86 => ⟨S800000x64, .f32⟩
  | 87 => ⟨S800000x64, .f32⟩
  | 88 => ⟨S_, .f32⟩
  | 89 => ⟨S50000x64, .f32⟩
  | 90 => ⟨S800000x1, .i32⟩
  | 91 => ⟨S50000x64, .f32⟩
  | 92 => ⟨S50000x64, .f32⟩
  | 93 => ⟨S1x800000, .f32⟩
  | 94 => ⟨S800000, .f32⟩
  | 95 => ⟨S800000, .f32⟩
  | 96 => ⟨S800000x1, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x64, .f32⟩
  | 106 => ⟨S800000x64, .f32⟩
  | 107 => ⟨S800000x64, .f32⟩
  | 108 => ⟨S_, .f32⟩
  | 109 => ⟨S50000x64, .f32⟩
  | 110 => ⟨S800000x1, .i32⟩
  | 111 => ⟨S50000x64, .f32⟩
  | 112 => ⟨S50000x64, .f32⟩
  | 113 => ⟨S_, .f32⟩
  | 114 => ⟨S50000x64, .f32⟩
  | 115 => ⟨S50000x64, .f32⟩
  | 116 => ⟨S450000x1, .f32⟩
  | 117 => ⟨S_, .i32⟩
  | 118 => ⟨S450000, .i32⟩
  | 119 => ⟨S450000, .i1⟩
  | 120 => ⟨S_, .i32⟩
  | 121 => ⟨S450000, .i32⟩
  | 122 => ⟨S450000, .i32⟩
  | 123 => ⟨S450000, .i32⟩
  | 124 => ⟨S450000x1, .i32⟩
  | 125 => ⟨S450000x64, .f32⟩
  | 126 => ⟨S450000x64, .f32⟩
  | 127 => ⟨S450000x64, .f32⟩
  | _ => ⟨S50000x64, .f32⟩

abbrev hbmTy0_1 (i : Nat) : BufTy := match i % 128 with
  | 0 => ⟨S_, .f32⟩
  | 1 => ⟨S50000x64, .f32⟩
  | 2 => ⟨S450000x1, .i32⟩
  | 3 => ⟨S50000x64, .f32⟩
  | 4 => ⟨S1x50000x1, .f32⟩
  | 5 => ⟨S50000x1, .f32⟩
  | 6 => ⟨S50000x64, .f32⟩
  | 7 => ⟨S50000x64, .f32⟩
  | 8 => ⟨S_, .f32⟩
  | 9 => ⟨S50000x1, .f32⟩
  | 10 => ⟨S50000x1, .f32⟩
  | 11 => ⟨S50000x64, .f32⟩
  | 12 => ⟨S50000x64, .f32⟩
  | 13 => ⟨S50000x64, .f32⟩
  | 14 => ⟨S800000x1, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x64, .f32⟩
  | 24 => ⟨S800000x64, .f32⟩
  | 25 => ⟨S800000x64, .f32⟩
  | 26 => ⟨S_, .f32⟩
  | 27 => ⟨S50000x64, .f32⟩
  | 28 => ⟨S800000x1, .i32⟩
  | 29 => ⟨S50000x64, .f32⟩
  | 30 => ⟨S50000x64, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S450000x1, .f32⟩
  | 38 => ⟨S_, .i32⟩
  | 39 => ⟨S450000, .i32⟩
  | 40 => ⟨S450000, .i1⟩
  | 41 => ⟨S_, .i32⟩
  | 42 => ⟨S450000, .i32⟩
  | 43 => ⟨S450000, .i32⟩
  | 44 => ⟨S450000, .i32⟩
  | 45 => ⟨S450000x1, .i32⟩
  | 46 => ⟨S450000x64, .f32⟩
  | 47 => ⟨S450000x64, .f32⟩
  | 48 => ⟨S450000x64, .f32⟩
  | 49 => ⟨S_, .f32⟩
  | 50 => ⟨S50000x64, .f32⟩
  | 51 => ⟨S450000x1, .i32⟩
  | 52 => ⟨S50000x64, .f32⟩
  | 53 => ⟨S1x50000x1, .f32⟩
  | 54 => ⟨S50000x1, .f32⟩
  | 55 => ⟨S50000x64, .f32⟩
  | 56 => ⟨S50000x64, .f32⟩
  | 57 => ⟨S_, .f32⟩
  | 58 => ⟨S50000x1, .f32⟩
  | 59 => ⟨S50000x1, .f32⟩
  | 60 => ⟨S50000x64, .f32⟩
  | 61 => ⟨S50000x64, .f32⟩
  | 62 => ⟨S50000x64, .f32⟩
  | 63 => ⟨S800000x1, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x64, .f32⟩
  | 73 => ⟨S800000x64, .f32⟩
  | 74 => ⟨S800000x64, .f32⟩
  | 75 => ⟨S_, .f32⟩
  | 76 => ⟨S50000x64, .f32⟩
  | 77 => ⟨S800000x1, .i32⟩
  | 78 => ⟨S50000x64, .f32⟩
  | 79 => ⟨S50000x64, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S50000x64, .f32⟩
  | 87 => ⟨S50000x64, .f32⟩
  | 88 => ⟨S_, .f32⟩
  | 89 => ⟨S_, .f32⟩
  | 90 => ⟨S1x800000, .f32⟩
  | 91 => ⟨S800000, .f32⟩
  | 92 => ⟨S_, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S6400x128, .f32⟩
  | .local _ .vmem, ⟨1, _⟩ => ⟨S6400x128, .f32⟩
  | .local _ .vmem, ⟨2, _⟩ => ⟨S2x128x64, .f32⟩
  | .local _ .vmem, ⟨3, _⟩ => ⟨S2x64, .f32⟩
  | .local _ .vmem, ⟨4, _⟩ => ⟨S2x64x1, .f32⟩
  | .local _ .vmem, ⟨5, _⟩ => ⟨S2x1, .f32⟩
  | .local _ .vmem, ⟨6, _⟩ => ⟨S2x6400, .f32⟩
  | .local _ .vmem, ⟨7, _⟩ => ⟨S2x6400, .f32⟩
  | .local _ .vmem, ⟨8, _⟩ => ⟨S2x6400, .f32⟩
  | .local _ .vmem, ⟨9, _⟩ => ⟨S2x6400, .f32⟩
  | .local _ .vmem, ⟨10, _⟩ => ⟨S2x5000x64, .f32⟩
  | .local _ .vmem, ⟨11, _⟩ => ⟨S2x5000x64, .f32⟩
  | .local _ .vmem, ⟨12, _⟩ => ⟨S2x64x64, .f32⟩
  | .local _ .vmem, ⟨13, _⟩ => ⟨S2x64, .f32⟩
  | .local _ .vmem, ⟨14, _⟩ => ⟨S2x64x1, .f32⟩
  | .local _ .vmem, ⟨15, _⟩ => ⟨S2x1, .f32⟩
  | .local _ .vmem, ⟨16, _⟩ => ⟨S2x5000x1, .f32⟩
  | .local _ .vmem, ⟨17, _⟩ => ⟨S2x5000x1, .f32⟩
  | .local _ .vmem, ⟨18, _⟩ => ⟨S2x5000x1, .f32⟩
  | .local _ .vmem, ⟨19, _⟩ => ⟨S2x5000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_8 : Ref sig .tc := ⟨.hbm, 77, rfl⟩
abbrev main_v50 : Ref sig .tc := ⟨.hbm, 78, rfl⟩
abbrev main_v51 : Ref sig .tc := ⟨.hbm, 79, rfl⟩
abbrev main_c_9 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_10 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_11 : Ref sig .tc := ⟨.hbm, 97, rfl⟩
abbrev main_v67 : Ref sig .tc := ⟨.hbm, 98, rfl⟩
abbrev main_v68 : Ref sig .tc := ⟨.hbm, 99, rfl⟩
abbrev main_c_12 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_13 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_14 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_15 : Ref sig .tc := ⟨.hbm, 117, rfl⟩
abbrev main_v83 : Ref sig .tc := ⟨.hbm, 118, rfl⟩
abbrev main_v84 : Ref sig .tc := ⟨.hbm, 119, rfl⟩
abbrev main_c_16 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_17 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_18 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_c_19 : Ref sig .tc := ⟨.hbm, 143, rfl⟩
abbrev main_v105 : Ref sig .tc := ⟨.hbm, 144, rfl⟩
abbrev main_v106 : Ref sig .tc := ⟨.hbm, 145, rfl⟩
abbrev main_c_20 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_21 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_22 : Ref sig .tc := ⟨.hbm, 159, rfl⟩
abbrev main_v118 : Ref sig .tc := ⟨.hbm, 160, rfl⟩
abbrev main_cst_23 : Ref sig .tc := ⟨.hbm, 161, rfl⟩
abbrev main_v119 : Ref sig .tc := ⟨.hbm, 162, rfl⟩
abbrev main_cst_24 : Ref sig .tc := ⟨.hbm, 163, rfl⟩
abbrev main_v120 : Ref sig .tc := ⟨.hbm, 164, rfl⟩
abbrev main_v121 : Ref sig .tc := ⟨.hbm, 165, rfl⟩
abbrev main_c_25 : Ref sig .tc := ⟨.hbm, 166, rfl⟩
abbrev main_v122 : Ref sig .tc := ⟨.hbm, 167, rfl⟩
abbrev main_v123 : Ref sig .tc := ⟨.hbm, 168, rfl⟩
abbrev main_c_26 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_cst_27 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_cst_28 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_c_29 : Ref sig .tc := ⟨.hbm, 192, rfl⟩
abbrev main_v144 : Ref sig .tc := ⟨.hbm, 193, rfl⟩
abbrev main_v145 : Ref sig .tc := ⟨.hbm, 194, rfl⟩
abbrev main_c_30 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_cst_31 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_cst_32 : Ref sig .tc := ⟨.hbm, 208, rfl⟩
abbrev main_v157 : Ref sig .tc := ⟨.hbm, 209, rfl⟩
abbrev main_cst_33 : Ref sig .tc := ⟨.hbm, 210, rfl⟩
abbrev main_v158 : Ref sig .tc := ⟨.hbm, 211, rfl⟩
abbrev main_v159 : Ref sig .tc := ⟨.hbm, 212, rfl⟩
abbrev main_cst_34 : Ref sig .tc := ⟨.hbm, 213, rfl⟩
abbrev main_v160 : Ref sig .tc := ⟨.hbm, 214, rfl⟩
abbrev main_v161 : Ref sig .tc := ⟨.hbm, 215, rfl⟩
abbrev main_cst_35 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_cst_36 : Ref sig .tc := ⟨.hbm, 220, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x6400 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x6400 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S2x5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2x5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2x5000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bitsLt_bf16_f32 : FTy.bits .bf16 < FTy.bits .f32
  inb_S2x128x64_S1x128x64_0_0_0 : ∀ a, (![0, 0, 0] : Fin 3 → Nat) a + S1x128x64.size a ≤ S2x128x64.size a
  h_S1x128x64 : 0 < S1x128x64.numel
  shapeCasts_S1x128x64_S128x64 : S1x128x64.ShapeCasts S128x64
  inb_S2x64_S1x64_0_0 : ∀ a, (![0, 0] : Fin 2 → Nat) a + S1x64.size a ≤ S2x64.size a
  h_S1x64 : 0 < S1x64.numel
  shapeCasts_S1x64_S64 : S1x64.ShapeCasts S64
  inb_S2x64x1_S1x64x1_0_0_0 : ∀ a, (![0, 0, 0] : Fin 3 → Nat) a + S1x64x1.size a ≤ S2x64x1.size a
  h_S1x64x1 : 0 < S1x64x1.numel
  shapeCasts_S1x64x1_S64x1 : S1x64x1.ShapeCasts S64x1
  inb_S2x1_S1x1_0_0 : ∀ a, (![0, 0] : Fin 2 → Nat) a + S1x1.size a ≤ S2x1.size a
  h_S1x1 : 0 < S1x1.numel
  shapeCasts_S1x1_S1 : S1x1.ShapeCasts S1
  shapeCasts_S64_S1x64 : S64.ShapeCasts S1x64
  broadcasts_S1x64_S6400x64 : S1x64.Broadcasts S6400x64
  shapeCasts_S1_S1x1 : S1.ShapeCasts S1x1
  broadcasts_S1x1_S6400x1 : S1x1.Broadcasts S6400x1
  inb_S2x6400_S1x6400_0_0 : ∀ a, (![0, 0] : Fin 2 → Nat) a + S1x6400.size a ≤ S2x6400.size a
  h_S1x6400 : 0 < S1x6400.numel
  shapeCasts_S1x6400_S6400 : S1x6400.ShapeCasts S6400
  shapeCasts_S6400_S6400x1 : S6400.ShapeCasts S6400x1
  shapeCasts_S6400x1_S6400 : S6400x1.ShapeCasts S6400
  shapeCasts_S6400_S1x6400 : S6400.ShapeCasts S1x6400
  inb_S2x128x64_S1x128x64_1_0_0 : ∀ a, (![1, 0, 0] : Fin 3 → Nat) a + S1x128x64.size a ≤ S2x128x64.size a
  inb_S2x64_S1x64_1_0 : ∀ a, (![1, 0] : Fin 2 → Nat) a + S1x64.size a ≤ S2x64.size a
  inb_S2x64x1_S1x64x1_1_0_0 : ∀ a, (![1, 0, 0] : Fin 3 → Nat) a + S1x64x1.size a ≤ S2x64x1.size a
  inb_S2x1_S1x1_1_0 : ∀ a, (![1, 0] : Fin 2 → Nat) a + S1x1.size a ≤ S2x1.size a
  inb_S2x6400_S1x6400_1_0 : ∀ a, (![1, 0] : Fin 2 → Nat) a + S1x6400.size a ≤ S2x6400.size a
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x64_S1x50000x64_1_2 : S50000x64.BroadcastsInDim S1x50000x64 (![1, 2] : Fin 2 → Fin S1x50000x64.rank)
  concatenates_S1x50000x64_S1x50000x64_S2x50000x64_d0 : Shape.Concatenates [S1x50000x64, S1x50000x64] S2x50000x64 0
  inb_S2x5000x64_S1x5000x64_0_0_0 : ∀ a, (![0, 0, 0] : Fin 3 → Nat) a + S1x5000x64.size a ≤ S2x5000x64.size a
  h_S1x5000x64 : 0 < S1x5000x64.numel
  shapeCasts_S1x5000x64_S5000x64 : S1x5000x64.ShapeCasts S5000x64
  inb_S2x64x64_S1x64x64_0_0_0 : ∀ a, (![0, 0, 0] : Fin 3 → Nat) a + S1x64x64.size a ≤ S2x64x64.size a
  h_S1x64x64 : 0 < S1x64x64.numel
  shapeCasts_S1x64x64_S64x64 : S1x64x64.ShapeCasts S64x64
  broadcasts_S1x64_S5000x64 : S1x64.Broadcasts S5000x64
  broadcasts_S1x1_S5000x1 : S1x1.Broadcasts S5000x1
  inb_S2x5000x1_S1x5000x1_0_0_0 : ∀ a, (![0, 0, 0] : Fin 3 → Nat) a + S1x5000x1.size a ≤ S2x5000x1.size a
  h_S1x5000x1 : 0 < S1x5000x1.numel
  shapeCasts_S1x5000x1_S5000x1 : S1x5000x1.ShapeCasts S5000x1
  shapeCasts_S5000x1_S1x5000x1 : S5000x1.ShapeCasts S1x5000x1
  inb_S2x5000x64_S1x5000x64_1_0_0 : ∀ a, (![1, 0, 0] : Fin 3 → Nat) a + S1x5000x64.size a ≤ S2x5000x64.size a
  inb_S2x64x64_S1x64x64_1_0_0 : ∀ a, (![1, 0, 0] : Fin 3 → Nat) a + S1x64x64.size a ≤ S2x64x64.size a
  inb_S2x5000x1_S1x5000x1_1_0_0 : ∀ a, (![1, 0, 0] : Fin 3 → Nat) a + S1x5000x1.size a ≤ S2x5000x1.size a
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S450000_S450000x1_0 : S450000.BroadcastsInDim S450000x1 (![0] : Fin 1 → Fin S450000x1.rank)
  bcast_S_S450000 : S_.BroadcastsInDim S450000 (![] : Fin 0 → Fin S450000.rank)
  bcast_S450000x1_S450000x64_0_1 : S450000x1.BroadcastsInDim S450000x64 (![0, 1] : Fin 2 → Fin S450000x64.rank)
  slices_S2x50000x1_S1x50000x1_0_0_0 : S2x50000x1.Slices ![0, 0, 0] S1x50000x1
  shapeCasts_S1x50000x1_S50000x1 : S1x50000x1.ShapeCasts S50000x1
  bcast_S50000x1_S50000x64_0_1 : S50000x1.BroadcastsInDim S50000x64 (![0, 1] : Fin 2 → Fin S50000x64.rank)
  bcast_S_S50000x1 : S_.BroadcastsInDim S50000x1 (![] : Fin 0 → Fin S50000x1.rank)
  reducesTo_S50000x1_S_d0_1 : S50000x1.ReducesTo [0, 1] S_
  h_S_ : 0 < S_.numel
  slices_S2x50000x1_S1x50000x1_1_0_0 : S2x50000x1.Slices ![1, 0, 0] S1x50000x1
  gather_S50000x64_S800000x1_S800000x64_1_0_n_n_0_1_164_wf : GatherDims.WF S50000x64 S800000x1 S800000x64 [1] [0] [] [0] [] 1 ![1, 64]
  dot_S6400x128_S128x64_S6400x64_1_0_0_1_n_n_wf : DotDims.WF S6400x128 S128x64 S6400x64 [1] [0] [0] [1] [] []
  dot_S6400x64_S64x1_S6400x1_1_0_0_1_n_n_wf : DotDims.WF S6400x64 S64x1 S6400x1 [1] [0] [0] [1] [] []
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  gather_S50000x64_S450000x1_S450000x64_1_0_n_n_0_1_164_wf : GatherDims.WF S50000x64 S450000x1 S450000x64 [1] [0] [] [0] [] 1 ![1, 64]
  scatter_S50000x64_S450000x1_S450000x64_1_0_0_1_wf : ScatterDims.WF S50000x64 S450000x1 S450000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .f32 = 32 ∨ (Rect.block (s := S800000x128) S6400x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128x64.size a ≤ S2x128x64.size a
  hwx0_1 : ∀ i : grid0.Coords, EltTy.bits .f32 = 32 ∨ (Rect.block (s := S2x128x64) S2x128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x64.size a ≤ S2x64.size a
  hwx0_2 : ∀ i : grid0.Coords, EltTy.bits .f32 = 32 ∨ (Rect.block (s := S2x64) S2x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x64x1.size a ≤ S2x64x1.size a
  hwx0_3 : ∀ i : grid0.Coords, EltTy.bits .f32 = 32 ∨ (Rect.block (s := S2x64x1) S2x64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x1.size a ≤ S2x1.size a
  hwx0_4 : ∀ i : grid0.Coords, EltTy.bits .f32 = 32 ∨ (Rect.block (s := S2x1) S2x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x6400.size a ≤ S2x800000.size a
  hwx0_5 : ∀ i : grid0.Coords, EltTy.bits .f32 = 32 ∨ (Rect.block (s := S2x800000) S2x6400.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x6400.size a ≤ S2x800000.size a
  hwx0_6 : ∀ i : grid0.Coords, EltTy.bits .f32 = 32 ∨ (Rect.block (s := S2x800000) S2x6400.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x5000x64.size a ≤ S2x50000x64.size a
  hwx1_0 : ∀ i : grid1.Coords, EltTy.bits .f32 = 32 ∨ (Rect.block (s := S2x50000x64) S2x5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x64x64.size a ≤ S2x64x64.size a
  hwx1_1 : ∀ i : grid1.Coords, EltTy.bits .f32 = 32 ∨ (Rect.block (s := S2x64x64) S2x64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x64.size a ≤ S2x64.size a
  hwx1_2 : ∀ i : grid1.Coords, EltTy.bits .f32 = 32 ∨ (Rect.block (s := S2x64) S2x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x64x1.size a ≤ S2x64x1.size a
  hwx1_3 : ∀ i : grid1.Coords, EltTy.bits .f32 = 32 ∨ (Rect.block (s := S2x64x1) S2x64x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2x1.size a ≤ S2x1.size a
  hwx1_4 : ∀ i : grid1.Coords, EltTy.bits .f32 = 32 ∨ (Rect.block (s := S2x1) S2x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2x5000x1.size a ≤ S2x50000x1.size a
  hwx1_5 : ∀ i : grid1.Coords, EltTy.bits .f32 = 32 ∨ (Rect.block (s := S2x50000x1) S2x5000x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2x5000x1.size a ≤ S2x50000x1.size a
  hwx1_6 : ∀ i : grid1.Coords, EltTy.bits .f32 = 32 ∨ (Rect.block (s := S2x50000x1) S2x5000x1.size (cc1_transform_6 i) (hinb1_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S6400x128_S128x64_S6400x64_1_0_0_1_n_n : DotDims S6400x128 S128x64 S6400x64 where
  lhsContracting := [1]
  rhsContracting := [0]
  lhsNonContracting := [0]
  rhsNonContracting := [1]
  lhsBatch := []
  rhsBatch := []
  wf := dot_S6400x128_S128x64_S6400x64_1_0_0_1_n_n_wf
def dot_S6400x64_S64x1_S6400x1_1_0_0_1_n_n : DotDims S6400x64 S64x1 S6400x1 where
  lhsContracting := [1]
  rhsContracting := [0]
  lhsNonContracting := [0]
  rhsNonContracting := [1]
  lhsBatch := []
  rhsBatch := []
  wf := dot_S6400x64_S64x1_S6400x1_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def gather_S50000x64_S450000x1_S450000x64_1_0_n_n_0_1_164 : GatherDims S50000x64 S450000x1 S450000x64 where
  offsetDims := [1]
  collapsedSliceDims := [0]
  operandBatchingDims := []
  startIndicesBatchingDims := []
  startIndexMap := [0]
  indexVectorDim := 1
  sliceSizes := ![1, 64]
  wf := gather_S50000x64_S450000x1_S450000x64_1_0_n_n_0_1_164_wf
def scatter_S50000x64_S450000x1_S450000x64_1_0_0_1 : ScatterDims S50000x64 S450000x1 S450000x64 where
  updateWindowDims := [1]
  insertedWindowDims := [0]
  scatterDimsToOperandDims := [0]
  indexVectorDim := 1
  wf := scatter_S50000x64_S450000x1_S450000x64_1_0_0_1_wf

abbrev win0_0 : Pipeline.Window sig grid0 :=
  Pipeline.Window.ofSpec (Memref.whole main_v14) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2x128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S2x64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S2x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg11) S2x6400.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15) S2x6400.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v44) S2x5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S2x64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S2x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S2x64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S2x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S2x5000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v45) S2x5000x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000 : Shape := ⟨1, ![800000]⟩
abbrev S450000 : Shape := ⟨1, ![450000]⟩
abbrev S2x128x64 : Shape := ⟨3, ![2, 128, 64]⟩
abbrev S2x64 : Shape := ⟨2, ![2, 64]⟩
abbrev S2x64x1 : Shape := ⟨3, ![2, 64, 1]⟩
abbrev S2x1 : Shape := ⟨2, ![2, 1]⟩
abbrev S2x64x64 : Shape := ⟨3, ![2, 64, 64]⟩
abbrev S2x800000 : Shape := ⟨2, ![2, 800000]⟩
abbrev S2x50000x1 : Shape := ⟨3, ![2, 50000, 1]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S1x64x1 : Shape := ⟨3, ![1, 64, 1]⟩
abbrev S64x1 : Shape := ⟨2, ![64, 1]⟩
abbrev S1x1 : Shape := ⟨2, ![1, 1]⟩
abbrev S1 : Shape := ⟨1, ![1]⟩
abbrev S1x800000 : Shape := ⟨2, ![1, 800000]⟩
abbrev S1x64x64 : Shape := ⟨3, ![1, 64, 64]⟩
abbrev S64x64 : Shape := ⟨2, ![64, 64]⟩
abbrev S50000x1 : Shape := ⟨2, ![50000, 1]⟩
abbrev S1x50000x1 : Shape := ⟨3, ![1, 50000, 1]⟩
abbrev S450000x1 : Shape := ⟨2, ![450000, 1]⟩
abbrev S450000x64 : Shape := ⟨2, ![450000, 64]⟩

abbrev nBuf : Space → Nat
  | .hbm => 342
  | .vmem => 0
  | .smem => 0
  | _ => 0

abbrev hbmTy0_0 (i : Nat) : BufTy := match i % 128 with
  | 0 => ⟨S50000x64, .f32⟩
  | 1 => ⟨S800000, .f32⟩
  | 2 => ⟨S450000, .f32⟩
  | 3 => ⟨S2x128x64, .f32⟩
  | 4 => ⟨S2x64, .f32⟩
  | 5 => ⟨S2x64x1, .f32⟩
  | 6 => ⟨S2x1, .f32⟩
  | 7 => ⟨S2x64x64, .f32⟩
  | 8 => ⟨S2x64, .f32⟩
  | 9 => ⟨S2x64x1, .f32⟩
  | 10 => ⟨S2x1, .f32⟩
  | 11 => ⟨S2x800000, .f32⟩
  | 12 => ⟨S2x50000x1, .f32⟩
  | 13 => ⟨S800000, .i32⟩
  | 14 => ⟨S800000, .i32⟩
  | 15 => ⟨S450000, .i32⟩
  | 16 => ⟨S450000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x64, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x64, .f32⟩
  | 35 => ⟨S800000x128, .f32⟩
  | 36 => ⟨S800000x1, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x64, .f32⟩
  | 46 => ⟨S800000x64, .f32⟩
  | 47 => ⟨S800000x64, .f32⟩
  | 48 => ⟨S_, .f32⟩
  | 49 => ⟨S50000x64, .f32⟩
  | 50 => ⟨S800000x1, .i32⟩
  | 51 => ⟨S50000x64, .f32⟩
  | 52 => ⟨S1x128x64, .f32⟩
  | 53 => ⟨S128x64, .f32⟩
  | 54 => ⟨S800000x64, .f32⟩
  | 55 => ⟨S1x64, .f32⟩
  | 56 => ⟨S64, .f32⟩
  | 57 => ⟨S1x64, .f32⟩
  | 58 => ⟨S800000x64, .f32⟩
  | 59 => ⟨S800000x64, .f32⟩
  | 60 => ⟨S_, .f32⟩
  | 61 => ⟨S800000x64, .f32⟩
  | 62 => ⟨S800000x64, .f32⟩
  | 63 => ⟨S1x64x1, .f32⟩
  | 64 => ⟨S64x1, .f32⟩
  | 65 => ⟨S800000x1, .f32⟩
  | 66 => ⟨S1x1, .f32⟩
  | 67 => ⟨S1, .f32⟩
  | 68 => ⟨S1x1, .f32⟩
  | 69 => ⟨S800000x1, .f32⟩
  | 70 => ⟨S800000x1, .f32⟩
  | 71 => ⟨S1x800000, .f32⟩
  | 72 => ⟨S800000, .f32⟩
  | 73 => ⟨S800000x1, .f32⟩
  | 74 => ⟨S800000x1, .f32⟩
  | 75 => ⟨S_, .f32⟩
  | 76 => ⟨S800000x1, .f32⟩
  | 77 => ⟨S800000x1, .f32⟩
  | 78 => ⟨S800000x1, .f32⟩
  | 79 => ⟨S800000x1, .f32⟩
  | 80 => ⟨S_, .f32⟩
  | 81 => ⟨S800000x1, .f32⟩
  | 82 => ⟨S800000x1, .f32⟩
  | 83 => ⟨S_, .f32⟩
  | 84 => ⟨S800000x1, .f32⟩
  | 85 => ⟨S800000x1, .f32⟩
  | 86 => ⟨S800000, .f32⟩
  | 87 => ⟨S1x64x64, .f32⟩
  | 88 => ⟨S64x64, .f32⟩
  | 89 => ⟨S50000x64, .f32⟩
  | 90 => ⟨S1x64, .f32⟩
  | 91 => ⟨S64, .f32⟩
  | 92 => ⟨S1x64, .f32⟩
  | 93 => ⟨S50000x64, .f32⟩
  | 94 => ⟨S50000x64, .f32⟩
  | 95 => ⟨S_, .f32⟩
  | 96 => ⟨S50000x64, .f32⟩
  | 97 => ⟨S50000x64, .f32⟩
  | 98 => ⟨S1x64x1, .f32⟩
  | 99 => ⟨S64x1, .f32⟩
  | 100 => ⟨S50000x1, .f32⟩
  | 101 => ⟨S1x1, .f32⟩
  | 102 => ⟨S1, .f32⟩
  | 103 => ⟨S1x1, .f32⟩
  | 104 => ⟨S50000x1, .f32⟩
  | 105 => ⟨S50000x1, .f32⟩
  | 106 => ⟨S1x50000x1, .f32⟩
  | 107 => ⟨S50000x1, .f32⟩
  | 108 => ⟨S50000x1, .f32⟩
  | 109 => ⟨S_, .f32⟩
  | 110 => ⟨S50000x1, .f32⟩
  | 111 => ⟨S50000x1, .f32⟩
  | 112 => ⟨S50000x1, .f32⟩
  | 113 => ⟨S50000x1, .f32⟩
  | 114 => ⟨S_, .f32⟩
  | 115 => ⟨S50000x1, .f32⟩
  | 116 => ⟨S50000x1, .f32⟩
  | 117 => ⟨S_, .f32⟩
  | 118 => ⟨S50000x1, .f32⟩
  | 119 => ⟨S50000x1, .f32⟩
  | 120 => ⟨S800000x1, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x64, .f32⟩

abbrev hbmTy0_1 (i : Nat) : BufTy := match i % 128 with
  | 0 => ⟨S800000x1, .i32⟩
  | 1 => ⟨S800000x64, .f32⟩
  | 2 => ⟨S800000x64, .f32⟩
  | 3 => ⟨S800000x64, .f32⟩
  | 4 => ⟨S_, .f32⟩
  | 5 => ⟨S50000x64, .f32⟩
  | 6 => ⟨S800000x1, .i32⟩
  | 7 => ⟨S50000x64, .f32⟩
  | 8 => ⟨S1x128x64, .f32⟩
  | 9 => ⟨S128x64, .f32⟩
  | 10 => ⟨S800000x64, .f32⟩
  | 11 => ⟨S1x64, .f32⟩
  | 12 => ⟨S64, .f32⟩
  | 13 => ⟨S1x64, .f32⟩
  | 14 => ⟨S800000x64, .f32⟩
  | 15 => ⟨S800000x64, .f32⟩
  | 16 => ⟨S_, .f32⟩
  | 17 => ⟨S800000x64, .f32⟩
  | 18 => ⟨S800000x64, .f32⟩
  | 19 => ⟨S1x64x1, .f32⟩
  | 20 => ⟨S64x1, .f32⟩
  | 21 => ⟨S800000x1, .f32⟩
  | 22 => ⟨S1x1, .f32⟩
  | 23 => ⟨S1, .f32⟩
  | 24 => ⟨S1x1, .f32⟩
  | 25 => ⟨S800000x1, .f32⟩
  | 26 => ⟨S800000x1, .f32⟩
  | 27 => ⟨S1x800000, .f32⟩
  | 28 => ⟨S800000, .f32⟩
  | 29 => ⟨S800000x1, .f32⟩
  | 30 => ⟨S800000x1, .f32⟩
  | 31 => ⟨S_, .f32⟩
  | 32 => ⟨S800000x1, .f32⟩
  | 33 => ⟨S800000x1, .f32⟩
  | 34 => ⟨S800000x1, .f32⟩
  | 35 => ⟨S800000x1, .f32⟩
  | 36 => ⟨S_, .f32⟩
  | 37 => ⟨S800000x1, .f32⟩
  | 38 => ⟨S800000x1, .f32⟩
  | 39 => ⟨S_, .f32⟩
  | 40 => ⟨S800000x1, .f32⟩
  | 41 => ⟨S800000x1, .f32⟩
  | 42 => ⟨S800000, .f32⟩
  | 43 => ⟨S1x64x64, .f32⟩
  | 44 => ⟨S64x64, .f32⟩
  | 45 => ⟨S50000x64, .f32⟩
  | 46 => ⟨S1x64, .f32⟩
  | 47 => ⟨S64, .f32⟩
  | 48 => ⟨S1x64, .f32⟩
  | 49 => ⟨S50000x64, .f32⟩
  | 50 => ⟨S50000x64, .f32⟩
  | 51 => ⟨S_, .f32⟩
  | 52 => ⟨S50000x64, .f32⟩
  | 53 => ⟨S50000x64, .f32⟩
  | 54 => ⟨S1x64x1, .f32⟩
  | 55 => ⟨S64x1, .f32⟩
  | 56 => ⟨S50000x1, .f32⟩
  | 57 => ⟨S1x1, .f32⟩
  | 58 => ⟨S1, .f32⟩
  | 59 => ⟨S1x1, .f32⟩
  | 60 => ⟨S50000x1, .f32⟩
  | 61 => ⟨S50000x1, .f32⟩
  | 62 => ⟨S1x50000x1, .f32⟩
  | 63 => ⟨S50000x1, .f32⟩
  | 64 => ⟨S50000x1, .f32⟩
  | 65 => ⟨S_, .f32⟩
  | 66 => ⟨S50000x1, .f32⟩
  | 67 => ⟨S50000x1, .f32⟩
  | 68 => ⟨S50000x1, .f32⟩
  | 69 => ⟨S50000x1, .f32⟩
  | 70 => ⟨S_, .f32⟩
  | 71 => ⟨S50000x1, .f32⟩
  | 72 => ⟨S50000x1, .f32⟩
  | 73 => ⟨S_, .f32⟩
  | 74 => ⟨S50000x1, .f32⟩
  | 75 => ⟨S50000x1, .f32⟩
  | 76 => ⟨S800000, .f32⟩
  | 77 => ⟨S800000x1, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x64, .f32⟩
  | 87 => ⟨S800000x64, .f32⟩
  | 88 => ⟨S800000x64, .f32⟩
  | 89 => ⟨S_, .f32⟩
  | 90 => ⟨S50000x64, .f32⟩
  | 91 => ⟨S800000x1, .i32⟩
  | 92 => ⟨S50000x64, .f32⟩
  | 93 => ⟨S50000x64, .f32⟩
  | 94 => ⟨S800000, .f32⟩
  | 95 => ⟨S800000x1, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x64, .f32⟩
  | 105 => ⟨S800000x64, .f32⟩
  | 106 => ⟨S800000x64, .f32⟩
  | 107 => ⟨S_, .f32⟩
  | 108 => ⟨S50000x64, .f32⟩
  | 109 => ⟨S800000x1, .i32⟩
  | 110 => ⟨S50000x64, .f32⟩
  | 111 => ⟨S50000x64, .f32⟩
  | 112 => ⟨S_, .f32⟩
  | 113 => ⟨S50000x64, .f32⟩
  | 114 => ⟨S50000x64, .f32⟩
  | 115 => ⟨S450000x1, .f32⟩
  | 116 => ⟨S_, .i32⟩
  | 117 => ⟨S450000, .i32⟩
  | 118 => ⟨S450000, .i1⟩
  | 119 => ⟨S_, .i32⟩
  | 120 => ⟨S450000, .i32⟩
  | 121 => ⟨S450000, .i32⟩
  | 122 => ⟨S450000, .i32⟩
  | 123 => ⟨S450000x1, .i32⟩
  | 124 => ⟨S450000x64, .f32⟩
  | 125 => ⟨S450000x64, .f32⟩
  | 126 => ⟨S450000x64, .f32⟩
  | 127 => ⟨S_, .f32⟩
  | _ => ⟨S50000x64, .f32⟩

abbrev hbmTy0_2 (i : Nat) : BufTy := match i % 128 with
  | 0 => ⟨S50000x64, .f32⟩
  | 1 => ⟨S450000x1, .i32⟩
  | 2 => ⟨S50000x64, .f32⟩
  | 3 => ⟨S50000x64, .f32⟩
  | 4 => ⟨S50000x64, .f32⟩
  | 5 => ⟨S_, .f32⟩
  | 6 => ⟨S50000x1, .f32⟩
  | 7 => ⟨S50000x1, .f32⟩
  | 8 => ⟨S50000x64, .f32⟩
  | 9 => ⟨S50000x64, .f32⟩
  | 10 => ⟨S50000x64, .f32⟩
  | 11 => ⟨S800000x1, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x64, .f32⟩
  | 21 => ⟨S800000x64, .f32⟩
  | 22 => ⟨S800000x64, .f32⟩
  | 23 => ⟨S_, .f32⟩
  | 24 => ⟨S50000x64, .f32⟩
  | 25 => ⟨S800000x1, .i32⟩
  | 26 => ⟨S50000x64, .f32⟩
  | 27 => ⟨S50000x64, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S450000x1, .f32⟩
  | 35 => ⟨S_, .i32⟩
  | 36 => ⟨S450000, .i32⟩
  | 37 => ⟨S450000, .i1⟩
  | 38 => ⟨S_, .i32⟩
  | 39 => ⟨S450000, .i32⟩
  | 40 => ⟨S450000, .i32⟩
  | 41 => ⟨S450000, .i32⟩
  | 42 => ⟨S450000x1, .i32⟩
  | 43 => ⟨S450000x64, .f32⟩
  | 44 => ⟨S450000x64, .f32⟩
  | 45 => ⟨S450000x64, .f32⟩
  | 46 => ⟨S_, .f32⟩
  | 47 => ⟨S50000x64, .f32⟩
  | 48 => ⟨S450000x1, .i32⟩
  | 49 => ⟨S50000x64, .f32⟩
  | 50 => ⟨S50000x64, .f32⟩
  | 51 => ⟨S50000x64, .f32⟩
  | 52 => ⟨S_, .f32⟩
  | 53 => ⟨S50000x1, .f32⟩
  | 54 => ⟨S50000x1, .f32⟩
  | 55 => ⟨S50000x64, .f32⟩
  | 56 => ⟨S50000x64, .f32⟩
  | 57 => ⟨S50000x64, .f32⟩
  | 58 => ⟨S800000x1, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x64, .f32⟩
  | 68 => ⟨S800000x64, .f32⟩
  | 69 => ⟨S800000x64, .f32⟩
  | 70 => ⟨S_, .f32⟩
  | 71 => ⟨S50000x64, .f32⟩
  | 72 => ⟨S800000x1, .i32⟩
  | 73 => ⟨S50000x64, .f32⟩
  | 74 => ⟨S50000x64, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S50000x64, .f32⟩
  | 82 => ⟨S50000x64, .f32⟩
  | 83 => ⟨S_, .f32⟩
  | 84 => ⟨S_, .f32⟩
  | 85 => ⟨S_, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_3 : Ref sig .tc := ⟨.hbm, 37, rfl⟩
abbrev main_v16 : Ref sig .tc := ⟨.hbm, 38, rfl⟩
abbrev main_v17 : Ref sig .tc := ⟨.hbm, 39, rfl⟩
abbrev main_c_4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_call0_cst : Ref sig .tc := ⟨.hbm, 60, rfl⟩
abbrev main_call0_v0 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_5 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_6 : Ref sig .tc := ⟨.hbm, 80, rfl⟩
abbrev main_v53 : Ref sig .tc := ⟨.hbm, 81, rfl⟩
abbrev main_v54 : Ref sig .tc := ⟨.hbm, 82, rfl⟩
abbrev main_cst_7 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_call1_cst : Ref sig .tc := ⟨.hbm, 95, rfl⟩
abbrev main_call1_v0 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_8 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_9 : Ref sig .tc := ⟨.hbm, 114, rfl⟩
abbrev main_v82 : Ref sig .tc := ⟨.hbm, 115, rfl⟩
abbrev main_v83 : Ref sig .tc := ⟨.hbm, 116, rfl⟩
abbrev main_cst_10 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_c_11 : Ref sig .tc := ⟨.hbm, 121, rfl⟩
abbrev main_v87 : Ref sig .tc := ⟨.hbm, 122, rfl⟩
abbrev main_v88 : Ref sig .tc := ⟨.hbm, 123, rfl⟩
abbrev main_c_12 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_13 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_call2_cst : Ref sig .tc := ⟨.hbm, 144, rfl⟩
abbrev main_call2_v0 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_14 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_cst_15 : Ref sig .tc := ⟨.hbm, 164, rfl⟩
abbrev main_v124 : Ref sig .tc := ⟨.hbm, 165, rfl⟩
abbrev main_v125 : Ref sig .tc := ⟨.hbm, 166, rfl⟩
abbrev main_cst_16 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_call3_cst : Ref sig .tc := ⟨.hbm, 179, rfl⟩
abbrev main_call3_v0 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_cst_17 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_cst_18 : Ref sig .tc := ⟨.hbm, 198, rfl⟩
abbrev main_v153 : Ref sig .tc := ⟨.hbm, 199, rfl⟩
abbrev main_v154 : Ref sig .tc := ⟨.hbm, 200, rfl⟩
abbrev main_cst_19 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_c_20 : Ref sig .tc := ⟨.hbm, 206, rfl⟩
abbrev main_v159 : Ref sig .tc := ⟨.hbm, 207, rfl⟩
abbrev main_v160 : Ref sig .tc := ⟨.hbm, 208, rfl⟩
abbrev main_c_21 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_cst_22 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_c_23 : Ref sig .tc := ⟨.hbm, 224, rfl⟩
abbrev main_v174 : Ref sig .tc := ⟨.hbm, 225, rfl⟩
abbrev main_v175 : Ref sig .tc := ⟨.hbm, 226, rfl⟩
abbrev main_c_24 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_cst_25 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_cst_26 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_c_27 : Ref sig .tc := ⟨.hbm, 244, rfl⟩
abbrev main_v190 : Ref sig .tc := ⟨.hbm, 245, rfl⟩
abbrev main_v191 : Ref sig .tc := ⟨.hbm, 246, rfl⟩
abbrev main_c_28 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_cst_29 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_cst_30 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_c_31 : Ref sig .tc := ⟨.hbm, 268, rfl⟩
abbrev main_v210 : Ref sig .tc := ⟨.hbm, 269, rfl⟩
abbrev main_v211 : Ref sig .tc := ⟨.hbm, 270, rfl⟩
abbrev main_c_32 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_cst_33 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_cst_34 : Ref sig .tc := ⟨.hbm, 284, rfl⟩
abbrev main_v223 : Ref sig .tc := ⟨.hbm, 285, rfl⟩
abbrev main_cst_35 : Ref sig .tc := ⟨.hbm, 286, rfl⟩
abbrev main_v224 : Ref sig .tc := ⟨.hbm, 287, rfl⟩
abbrev main_cst_36 : Ref sig .tc := ⟨.hbm, 288, rfl⟩
abbrev main_v225 : Ref sig .tc := ⟨.hbm, 289, rfl⟩
abbrev main_v226 : Ref sig .tc := ⟨.hbm, 290, rfl⟩
abbrev main_c_37 : Ref sig .tc := ⟨.hbm, 291, rfl⟩
abbrev main_v227 : Ref sig .tc := ⟨.hbm, 292, rfl⟩
abbrev main_v228 : Ref sig .tc := ⟨.hbm, 293, rfl⟩
abbrev main_c_38 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_v232 : Ref sig .tc := ⟨.hbm, 298, rfl⟩
abbrev main_v233 : Ref sig .tc := ⟨.hbm, 299, rfl⟩
abbrev main_v234 : Ref sig .tc := ⟨.hbm, 300, rfl⟩
abbrev main_v235 : Ref sig .tc := ⟨.hbm, 301, rfl⟩
abbrev main_cst_39 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_cst_40 : Ref sig .tc := ⟨.hbm, 308, rfl⟩
abbrev main_v241 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_v246 : Ref sig .tc := ⟨.hbm, 314, rfl⟩
abbrev main_c_41 : Ref sig .tc := ⟨.hbm, 315, rfl⟩
abbrev main_v247 : Ref sig .tc := ⟨.hbm, 316, rfl⟩
abbrev main_v248 : Ref sig .tc := ⟨.hbm, 317, rfl⟩
abbrev main_c_42 : Ref sig .tc := ⟨.hbm, 318, rfl⟩
abbrev main_v249 : Ref sig .tc := ⟨.hbm, 319, rfl⟩
abbrev main_v250 : Ref sig .tc := ⟨.hbm, 320, rfl⟩
abbrev main_v251 : Ref sig .tc := ⟨.hbm, 321, rfl⟩
abbrev main_v252 : Ref sig .tc := ⟨.hbm, 322, rfl⟩
abbrev main_v253 : Ref sig .tc := ⟨.hbm, 323, rfl⟩
abbrev main_v254 : Ref sig .tc := ⟨.hbm, 324, rfl⟩
abbrev main_v255 : Ref sig .tc := ⟨.hbm, 325, rfl⟩
abbrev main_cst_43 : Ref sig .tc := ⟨.hbm, 326, rfl⟩
abbrev main_v256 : Ref sig .tc := ⟨.hbm, 327, rfl⟩
abbrev main_v257 : Ref sig .tc := ⟨.hbm, 328, rfl⟩
abbrev main_v258 : Ref sig .tc := ⟨.hbm, 329, rfl⟩
abbrev main_v259 : Ref sig .tc := ⟨.hbm, 330, rfl⟩
abbrev main_cst_44 : Ref sig .tc := ⟨.hbm, 331, rfl⟩
abbrev main_v260 : Ref sig .tc := ⟨.hbm, 332, rfl⟩
abbrev main_cst_45 : Ref sig .tc := ⟨.hbm, 333, rfl⟩
abbrev main_v261 : Ref sig .tc := ⟨.hbm, 334, rfl⟩
abbrev main_v262 : Ref sig .tc := ⟨.hbm, 335, rfl⟩
abbrev main_cst_46 : Ref sig .tc := ⟨.hbm, 336, rfl⟩
abbrev main_v263 : Ref sig .tc := ⟨.hbm, 337, rfl⟩
abbrev main_v264 : Ref sig .tc := ⟨.hbm, 338, rfl⟩
abbrev main_cst_47 : Ref sig .tc := ⟨.hbm, 339, rfl⟩
abbrev main_v265 : Ref sig .tc := ⟨.hbm, 340, rfl⟩
abbrev main_cst_48 : Ref sig .tc := ⟨.hbm, 341, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S2x128x64_S1x128x64_0_0_0 : S2x128x64.Slices ![0, 0, 0] S1x128x64
  shapeCasts_S1x128x64_S128x64 : S1x128x64.ShapeCasts S128x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  slices_S2x64x1_S1x64x1_0_0_0 : S2x64x1.Slices ![0, 0, 0] S1x64x1
  shapeCasts_S1x64x1_S64x1 : S1x64x1.ShapeCasts S64x1
  slices_S2x1_S1x1_0_0 : S2x1.Slices ![0, 0] S1x1
  shapeCasts_S1x1_S1 : S1x1.ShapeCasts S1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  slices_S2x800000_S1x800000_0_0 : S2x800000.Slices ![0, 0] S1x800000
  shapeCasts_S1x800000_S800000 : S1x800000.ShapeCasts S800000
  bcast_S_S800000x1 : S_.BroadcastsInDim S800000x1 (![] : Fin 0 → Fin S800000x1.rank)
  shapeCasts_S800000x1_S800000 : S800000x1.ShapeCasts S800000
  slices_S2x64x64_S1x64x64_0_0_0 : S2x64x64.Slices ![0, 0, 0] S1x64x64
  shapeCasts_S1x64x64_S64x64 : S1x64x64.ShapeCasts S64x64
  bcast_S1x64_S50000x64_0_1 : S1x64.BroadcastsInDim S50000x64 (![0, 1] : Fin 2 → Fin S50000x64.rank)
  bcast_S1x1_S50000x1_0_1 : S1x1.BroadcastsInDim S50000x1 (![0, 1] : Fin 2 → Fin S50000x1.rank)
  slices_S2x50000x1_S1x50000x1_0_0_0 : S2x50000x1.Slices ![0, 0, 0] S1x50000x1
  shapeCasts_S1x50000x1_S50000x1 : S1x50000x1.ShapeCasts S50000x1
  bcast_S_S50000x1 : S_.BroadcastsInDim S50000x1 (![] : Fin 0 → Fin S50000x1.rank)
  slices_S2x128x64_S1x128x64_1_0_0 : S2x128x64.Slices ![1, 0, 0] S1x128x64
  slices_S2x64_S1x64_1_0 : S2x64.Slices ![1, 0] S1x64
  slices_S2x64x1_S1x64x1_1_0_0 : S2x64x1.Slices ![1, 0, 0] S1x64x1
  slices_S2x1_S1x1_1_0 : S2x1.Slices ![1, 0] S1x1
  slices_S2x800000_S1x800000_1_0 : S2x800000.Slices ![1, 0] S1x800000
  slices_S2x64x64_S1x64x64_1_0_0 : S2x64x64.Slices ![1, 0, 0] S1x64x64
  slices_S2x50000x1_S1x50000x1_1_0_0 : S2x50000x1.Slices ![1, 0, 0] S1x50000x1
  bcast_S450000_S450000x1_0 : S450000.BroadcastsInDim S450000x1 (![0] : Fin 1 → Fin S450000x1.rank)
  bcast_S_S450000 : S_.BroadcastsInDim S450000 (![] : Fin 0 → Fin S450000.rank)
  bcast_S450000x1_S450000x64_0_1 : S450000x1.BroadcastsInDim S450000x64 (![0, 1] : Fin 2 → Fin S450000x64.rank)
  bcast_S50000x1_S50000x64_0_1 : S50000x1.BroadcastsInDim S50000x64 (![0, 1] : Fin 2 → Fin S50000x64.rank)
  reducesTo_S50000x1_S_d0_1 : S50000x1.ReducesTo [0, 1] S_
  h_S_ : 0 < S_.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S800000x128_S128x64_S800000x64_1_0_0_1_n_n_wf : DotDims.WF S800000x128 S128x64 S800000x64 [1] [0] [0] [1] [] []
  dot_S800000x64_S64x1_S800000x1_1_0_0_1_n_n_wf : DotDims.WF S800000x64 S64x1 S800000x1 [1] [0] [0] [1] [] []
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []
  gather_S50000x64_S450000x1_S450000x64_1_0_n_n_0_1_164_wf : GatherDims.WF S50000x64 S450000x1 S450000x64 [1] [0] [] [0] [] 1 ![1, 64]
  scatter_S50000x64_S450000x1_S450000x64_1_0_0_1_wf : ScatterDims.WF S50000x64 S450000x1 S450000x64 [1] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def gather_S50000x64_S450000x1_S450000x64_1_0_n_n_0_1_164 : GatherDims S50000x64 S450000x1 S450000x64 where
  offsetDims := [1]
  collapsedSliceDims := [0]
  operandBatchingDims := []
  startIndicesBatchingDims := []
  startIndexMap := [0]
  indexVectorDim := 1
  sliceSizes := ![1, 64]
  wf := gather_S50000x64_S450000x1_S450000x64_1_0_n_n_0_1_164_wf
def scatter_S50000x64_S450000x1_S450000x64_1_0_0_1 : ScatterDims S50000x64 S450000x1 S450000x64 where
  updateWindowDims := [1]
  insertedWindowDims := [0]
  scatterDimsToOperandDims := [0]
  indexVectorDim := 1
  wf := scatter_S50000x64_S450000x1_S450000x64_1_0_0_1_wf

class Facts : Prop extends Facts₀ where

variable [Facts]
-- ==== Proof.KernelRun.lean ====
/-
  The idealized kernel's run with its result buffers named.

  @main is five segments: host operations, the edge-gate region, host operations, the node-gate region, host
  operations. Every weakly fair execution of it terminates without a fault, and in the final state every unscoped
  buffer holds the contents of the last segment boundary: the host operations after the second region applied to
  what that region leaves. Read at the five result buffers this names the results; read at the arguments it says they
  are unchanged.
-/
import proofs.«175160_j75557064671961_1_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; each result buffer ends at the last segment
    boundary's contents, and each argument as launched. -/
theorem run : θ_run defs (onTc (τ := τ) (main (F := F))) ⟨m, fun _ => 0, ρ⟩ (fun r => ∀ c : Dev nD,
      r.2.mem ((c.tc : Thread nD τ).loc main_v81) = W5 m ρ c (Proc.devRef .tc main_v81)
      ∧       r.2.mem ((c.tc : Thread nD τ).loc main_v161) = W5 m ρ c (Proc.devRef .tc main_v161)
      ∧       r.2.mem ((c.tc : Thread nD τ).loc main_cst_36) = W5 m ρ c (Proc.devRef .tc main_cst_36)
      ∧       r.2.mem ((c.tc : Thread nD τ).loc main_v162) = W5 m ρ c (Proc.devRef .tc main_v162)
      ∧       r.2.mem ((c.tc : Thread nD τ).loc main_v164) = W5 m ρ c (Proc.devRef .tc main_v164)
      ∧       r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)
      ∧       r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v81 (by decide)),
       h c _ (mem_uc main_v161 (by decide)),
       h c _ (mem_uc main_cst_36 (by decide)),
       h c _ (mem_uc main_v162 (by decide)),
       h c _ (mem_uc main_v164 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c)⟩)

end Cert.KernelIdeal.RunNamed

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«175160_j75557064671961_1_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.LibDense.lean ====
/-
  A dense layer read at an entry, over the extended reals.

  A dense layer is a plain matrix product plus a bias vector added to every row. On the matrix unit it is written as the
  product into a zero accumulator plus the bias, held as a one-row matrix, broadcast over the rows; on the host as the
  dot_general plus the bias vector broadcast first to one row and then over the rows. Either way the entry (p, q) is
  the row-by-column sum Σ_k A (p, k) · B (k, q) plus the bias at q. The extents and the operands' float formats are
  arbitrary.
-/
import proofs.«175160_j75557064671961_1_alg».proof.Proof.LibMatmulPlain
import proofs.«175160_j75557064671961_1_alg».proof.Proof.LibHostDotPlain
import Idealize.ShloMosaic.Lib.ValueLayout
import Idealize.ShloMosaic.Lib.Pipeline.Value

noncomputable section

open scoped BigOperators

namespace Idealize.ShloMosaic.Dense

open Idealize.ShloMosaic Idealize.ShloMosaic.ValueIdx

variable {M K N : Nat}

/-- The matrix unit's dense layer at an entry: the product into the zero accumulator, plus the one-row bias broadcast
    over the rows. -/
theorem matmul_bias_apply {φ₁ φ₂ : FTy} (A : FVec Ideal ⟨2, ![M, K]⟩ φ₁) (B : FVec Ideal ⟨2, ![K, N]⟩ φ₂)
    (c : FVec Ideal ⟨2, ![1, N]⟩ .f32) (h : (⟨2, ![1, N]⟩ : Shape).Broadcasts ⟨2, ![M, N]⟩) (p : Fin M) (q : Fin N) :
    addf (matmul (DotDims.plain M K N) none A B (constant (F := Ideal) ⟨2, ![M, N]⟩ .f32 0x00000000#32))
        (broadcastTo ⟨2, ![M, N]⟩ c h) (ix2 p q)
      = ∑ k : Fin K, A (ix2 p k) * B (ix2 k q) + c (ix2 (0 : Fin 1) q) := by
  show matmul (DotDims.plain M K N) none A B (constant (F := Ideal) ⟨2, ![M, N]⟩ .f32 0x00000000#32) (ix2 p q)
      + broadcastTo ⟨2, ![M, N]⟩ c h (ix2 p q) = _
  rw [MatmulPlain.matmul_zero_apply, broadcastTo_1b_ab_apply]
  rfl

/-- A bias vector broadcast to one row and then over the rows, at an entry: the bias at the column. -/
theorem bias_rows_apply (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  have hq : (if N = 1 then 0 else q.val) = q.val := by
    split
    · have := q.isLt; omega
    · rfl
  refine (broadcastInDim_apply ![0, 1] h2 _ (ix2 p q) (ix2 (0 : Fin 1) q) fun ax => ?_).trans ?_
  · match ax with
    | ⟨0, _⟩ => rfl
    | ⟨1, _⟩ => exact hq.symm
  · refine broadcastInDim_apply ![1] h1 b (ix2 (0 : Fin 1) q) (ix1 q) fun ax => ?_
    match ax with
    | ⟨0, _⟩ => exact hq.symm

/-- The host's dense layer at an entry: the dot_general plus the bias vector broadcast over the rows. -/
theorem dot_bias_apply {φ₁ φ₂ : FTy} (A : FVec Ideal ⟨2, ![M, K]⟩ φ₁) (B : FVec Ideal ⟨2, ![K, N]⟩ φ₂)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (F := Ideal) (DotDims.plain M K N) none A B)
        (broadcastInDim ⟨2, ![M, N]⟩ ![0, 1] h2 (broadcastInDim ⟨2, ![1, N]⟩ ![1] h1 b)) (ix2 p q)
      = ∑ k : Fin K, A (ix2 p k) * B (ix2 k q) + b (ix1 q) := by
  show Host.dotGeneral (F := Ideal) (DotDims.plain M K N) none A B (ix2 p q)
      + broadcastInDim ⟨2, ![M, N]⟩ ![0, 1] h2 (broadcastInDim ⟨2, ![1, N]⟩ ![1] h1 b) (ix2 p q) = _
  rw [HostDotPlain.dotGeneral_apply, bias_rows_apply]
  rfl

end Idealize.ShloMosaic.Dense

end
-- ==== Proof.LibRealArray.lean ====
/-
  Arrays of reals read as arrays of extended reals, for kernels whose arithmetic is +, - and × on finite inputs.

  At the ideal instance a float is an extended real, and the laws a polynomial identity needs (distributivity,
  cancelling a term) fail at ±∞. When every input is finite, every intermediate array of such a kernel is the image
  of an array of REALS under the coercion ℝ → EReal, and the extended reals' sum, difference and product of two such
  arrays are the images of the reals' (`addf_cv`, `subf_cv`, `mulf_cv`). Rewriting with these three turns an equation
  between arrays of extended reals into one between arrays of reals (`cv_congr`), where `ring` applies. Any shape.
  Also here: the float words 0, 1, 2 and 4 as reals, and a splat of 1 or 2 as a constant real-valued array.
-/
import Idealize.ShloMosaic.PureOps.Ideal
import Idealize.ShloMosaic.PureOps.Ideal.Laws
import Idealize.ShloMosaic.Lib.ValueIdx

noncomputable section

namespace Cert.RealArray

open Idealize.ShloMosaic Idealize.ShloMosaic.ValueIdx

variable {s : Shape}

/-- An array of reals read as an array of (finite) extended reals. -/
def cv (f : s.Idx → ℝ) : FVec Ideal s .f32 := fun i => ((f i : ℝ) : EReal)

/-- Its entry at an index is the real entry, coerced. -/
theorem cv_apply (f : s.Idx → ℝ) (i : s.Idx) : cv f i = ((f i : ℝ) : EReal) := rfl

/-- Two real-valued arrays that agree entry by entry have the same image. -/
theorem cv_congr {f g : s.Idx → ℝ} (h : ∀ i, f i = g i) : cv f = cv g := by
  funext i; rw [cv_apply, cv_apply, h i]

/-- On finite values the extended reals' product is the reals'. -/
theorem mulf_cv (f g : s.Idx → ℝ) : mulf (cv f) (cv g) = cv (fun i => f i * g i) := by
  funext i; rw [mulf_apply, cv_apply, cv_apply, cv_apply, EReal.coe_mul]

/-- On finite values the extended reals' sum is the reals'. -/
theorem addf_cv (f g : s.Idx → ℝ) : addf (cv f) (cv g) = cv (fun i => f i + g i) := by
  funext i; rw [addf_apply, cv_apply, cv_apply, cv_apply, EReal.coe_add]

/-- On finite values the extended reals' difference is the reals'. -/
theorem subf_cv (f g : s.Idx → ℝ) : subf (cv f) (cv g) = cv (fun i => f i - g i) := by
  funext i; rw [subf_apply, cv_apply, cv_apply, cv_apply, EReal.coe_sub]

/-! ## Float words as reals -/

/-- The f32 word of 1.0 is the real 1. -/
theorem word_one : Ideal.ofBits .f32 0x3F800000#32 = ((1 : ℝ) : EReal) := by
  simp [Ideal.ofBits, Ideal.ieee, -EReal.coe_mul]; norm_num

/-- The f32 word of 2.0 is the real 2. -/
theorem word_two : Ideal.ofBits .f32 0x40000000#32 = ((2 : ℝ) : EReal) := by
  simp [Ideal.ofBits, Ideal.ieee, -EReal.coe_mul]; norm_num

/-- The f32 word of 4.0 is the real 4. -/
theorem word_four : Ideal.ofBits .f32 0x40800000#32 = ((4 : ℝ) : EReal) := by
  simp [Ideal.ofBits, Ideal.ieee, -EReal.coe_mul]; norm_num

/-- The f32 word of +0.0 is the real 0. -/
theorem word_zero : Ideal.ofBits .f32 0x00000000#32 = ((0 : ℝ) : EReal) := by
  rw [Ideal.ofBits_zero_f32]; rfl

/-- A kernel's splat of 1.0 is the constant real-valued array 1. -/
theorem broadcast_one : broadcast s (Scalar.ofBits (F := Ideal) .f32 0x3F800000#32) = cv (fun _ => (1 : ℝ)) := by
  funext i; exact word_one

/-- A kernel's splat of 2.0 is the constant real-valued array 2. -/
theorem broadcast_two : broadcast s (Scalar.ofBits (F := Ideal) .f32 0x40000000#32) = cv (fun _ => (2 : ℝ)) := by
  funext i; exact word_two

end Cert.RealArray

end
-- ==== Proof.LibGateSpec.lean ====
/-
  The concrete gate of one row, over the extended reals, and the arrays of such gates.

  A row a (of J features) is sent through a two-layer perceptron with a rectified hidden layer of K units,
  a noise term is added to the resulting logit, the sum is divided by the temperature 1/2, and the logistic
  function is applied:

      gate a = logistic ((noise + (Σ_k max (Σ_j a_j · W1_{j,k} + b1_k) 0 · W2_k + b2)) / (1/2)).

  The edge gates apply it, for each of two layers l, to row e of one [E, J] matrix with the l-th slab of the
  weights; the node gates apply it to row n of the l-th slab of an [2, N, J] array.  Nothing here needs the
  entries to be real numbers: every identity used later is between the same expression spelt twice.
-/
import Idealize.ShloMosaic.PureOps.Ideal
import Idealize.ShloMosaic.PureOps.Ideal.Laws
import Idealize.ShloMosaic.Lib.ValueIdx

noncomputable section

open scoped BigOperators

namespace Cert.Gate

open Idealize.ShloMosaic Idealize.ShloMosaic.ValueIdx

/-- The gate of one row: the two-layer rectified perceptron's logit plus the noise, over the temperature 1/2
    (kept as its f32 word, the same on both sides), through the logistic function. -/
def gate {J K : Nat} (a : Fin J → EReal) (W1 : Fin J → Fin K → EReal) (b1 : Fin K → EReal) (W2 : Fin K → EReal)
    (b2 nz : EReal) : EReal :=
  Ideal.logistic (Ideal.div (nz + ((∑ k : Fin K, max ((∑ j : Fin J, a j * W1 j k) + b1 k) 0 * W2 k) + b2))
    (Ideal.ofBits .f32 0x3F000000#32))

/-- The gate depends on its arguments entry by entry. -/
theorem gate_congr {J K : Nat} {a a' : Fin J → EReal} {W1 W1' : Fin J → Fin K → EReal} {b1 b1' : Fin K → EReal}
    {W2 W2' : Fin K → EReal} {b2 b2' nz nz' : EReal} (ha : ∀ j, a j = a' j) (hW1 : ∀ j k, W1 j k = W1' j k)
    (hb1 : ∀ k, b1 k = b1' k) (hW2 : ∀ k, W2 k = W2' k) (hb2 : b2 = b2') (hnz : nz = nz') :
    gate a W1 b1 W2 b2 nz = gate a' W1' b1' W2' b2' nz' := by
  obtain rfl : a = a' := funext ha
  obtain rfl : W1 = W1' := funext fun j => funext (hW1 j)
  obtain rfl : b1 = b1' := funext hb1
  obtain rfl : W2 = W2' := funext hW2
  rw [hb2, hnz]

/-- The logistic function is 1 / (1 + e^(-x)), with the extended reals' conventions at the infinities. -/
theorem logistic_eq (x : EReal) : Ideal.div 1 (1 + Ideal.exp (-x)) = Ideal.logistic x := rfl

/-- The gate of edge e at layer l: row e of the edge features, the l-th slab of each weight, the noise at (l, e). -/
def edgeGateAt {E : Nat} (X : (⟨2, ![E, 128]⟩ : Shape).Idx → EReal) (W1 : (⟨3, ![2, 128, 64]⟩ : Shape).Idx → EReal)
    (b1 : (⟨2, ![2, 64]⟩ : Shape).Idx → EReal) (W2 : (⟨3, ![2, 64, 1]⟩ : Shape).Idx → EReal)
    (b2 : (⟨2, ![2, 1]⟩ : Shape).Idx → EReal) (nz : (⟨2, ![2, E]⟩ : Shape).Idx → EReal) (l : Fin 2) (e : Fin E) : EReal :=
  gate (fun j : Fin 128 => X (ix2 e j)) (fun (j : Fin 128) (k : Fin 64) => W1 (ix3 l j k)) (fun k : Fin 64 => b1 (ix2 l k))
    (fun k : Fin 64 => W2 (ix3 l k (0 : Fin 1))) (b2 (ix2 l (0 : Fin 1))) (nz (ix2 l e))

/-- The [2, E] array of edge gates. -/
def edgeGates {E : Nat} (X : (⟨2, ![E, 128]⟩ : Shape).Idx → EReal) (W1 : (⟨3, ![2, 128, 64]⟩ : Shape).Idx → EReal)
    (b1 : (⟨2, ![2, 64]⟩ : Shape).Idx → EReal) (W2 : (⟨3, ![2, 64, 1]⟩ : Shape).Idx → EReal)
    (b2 : (⟨2, ![2, 1]⟩ : Shape).Idx → EReal) (nz : (⟨2, ![2, E]⟩ : Shape).Idx → EReal) :
    (⟨2, ![2, E]⟩ : Shape).Idx → EReal :=
  fun i => edgeGateAt X W1 b1 W2 b2 nz (i 0) (i 1)

theorem edgeGates_apply {E : Nat} (X : (⟨2, ![E, 128]⟩ : Shape).Idx → EReal) (W1 : (⟨3, ![2, 128, 64]⟩ : Shape).Idx → EReal)
    (b1 : (⟨2, ![2, 64]⟩ : Shape).Idx → EReal) (W2 : (⟨3, ![2, 64, 1]⟩ : Shape).Idx → EReal)
    (b2 : (⟨2, ![2, 1]⟩ : Shape).Idx → EReal) (nz : (⟨2, ![2, E]⟩ : Shape).Idx → EReal) (l : Fin 2) (e : Fin E) :
    edgeGates X W1 b1 W2 b2 nz (ix2 l e) = edgeGateAt X W1 b1 W2 b2 nz l e := rfl

/-- The gate of node n at layer l: row n of the l-th slab of the node states, the l-th slab of each weight, the
    noise at (l, n, 0). -/
def nodeGateAt {N : Nat} (X : (⟨3, ![2, N, 64]⟩ : Shape).Idx → EReal) (W1 : (⟨3, ![2, 64, 64]⟩ : Shape).Idx → EReal)
    (b1 : (⟨2, ![2, 64]⟩ : Shape).Idx → EReal) (W2 : (⟨3, ![2, 64, 1]⟩ : Shape).Idx → EReal)
    (b2 : (⟨2, ![2, 1]⟩ : Shape).Idx → EReal) (nz : (⟨3, ![2, N, 1]⟩ : Shape).Idx → EReal) (l : Fin 2) (n : Fin N) : EReal :=
  gate (fun j : Fin 64 => X (ix3 l n j)) (fun (j : Fin 64) (k : Fin 64) => W1 (ix3 l j k)) (fun k : Fin 64 => b1 (ix2 l k))
    (fun k : Fin 64 => W2 (ix3 l k (0 : Fin 1))) (b2 (ix2 l (0 : Fin 1))) (nz (ix3 l n (0 : Fin 1)))

/-- The [2, N, 1] array of node gates. -/
def nodeGates {N : Nat} (X : (⟨3, ![2, N, 64]⟩ : Shape).Idx → EReal) (W1 : (⟨3, ![2, 64, 64]⟩ : Shape).Idx → EReal)
    (b1 : (⟨2, ![2, 64]⟩ : Shape).Idx → EReal) (W2 : (⟨3, ![2, 64, 1]⟩ : Shape).Idx → EReal)
    (b2 : (⟨2, ![2, 1]⟩ : Shape).Idx → EReal) (nz : (⟨3, ![2, N, 1]⟩ : Shape).Idx → EReal) :
    (⟨3, ![2, N, 1]⟩ : Shape).Idx → EReal :=
  fun i => nodeGateAt X W1 b1 W2 b2 nz (i 0) (i 1)

theorem nodeGates_apply {N : Nat} (X : (⟨3, ![2, N, 64]⟩ : Shape).Idx → EReal) (W1 : (⟨3, ![2, 64, 64]⟩ : Shape).Idx → EReal)
    (b1 : (⟨2, ![2, 64]⟩ : Shape).Idx → EReal) (W2 : (⟨3, ![2, 64, 1]⟩ : Shape).Idx → EReal)
    (b2 : (⟨2, ![2, 1]⟩ : Shape).Idx → EReal) (nz : (⟨3, ![2, N, 1]⟩ : Shape).Idx → EReal) (l : Fin 2) (n : Fin N) (u : Fin 1) :
    nodeGates X W1 b1 W2 b2 nz (ix3 l n u) = nodeGateAt X W1 b1 W2 b2 nz l n := rfl

end Cert.Gate

end
-- ==== Proof.LibGateLayers.lean ====
/-
  The two layers of the gate read at an entry, in the matrix unit's spelling and in the host's, and the small
  changes of layout around them.

  Hidden layer, entry (r, k):  max (Σ_j A (r, j) · B (j, k) + bias k) 0.
  Gate, entry (r, 0):          logistic ((n (r, 0) + (Σ_k H (r, k) · B2 (k, 0) + bias2)) / (1/2)),
  which the host spells 1 / (1 + exp (-(...))).
  All for arbitrary extents; nothing asks the entries to be real numbers.
-/
import proofs.«175160_j75557064671961_1_alg».proof.Proof.LibDense
import proofs.«175160_j75557064671961_1_alg».proof.Proof.LibRealArray
import proofs.«175160_j75557064671961_1_alg».proof.Proof.LibGateSpec

noncomputable section

open scoped BigOperators

namespace Cert.Gate

open Idealize.ShloMosaic Idealize.ShloMosaic.ValueIdx

variable {α : Type} {R J K : Nat}

/-! ## Columns, scalars and stacks -/

/-- A length-a vector cast to the column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] cast to the length-a vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A scalar broadcast to any shape reads the scalar everywhere. -/
theorem bcast_scalar_apply {t : Shape} (x : (⟨0, ![]⟩ : Shape).Idx → α) (h : (⟨0, ![]⟩ : Shape).BroadcastsInDim t ![])
    (j : t.Idx) : broadcastInDim t ![] h x j = x ix0 :=
  broadcastInDim_apply ![] h x j ix0 fun ax => ax.elim0

/-- A length-a vector broadcast along axis 0 to the column [a, 1] reads, at (i, u), the vector at i. -/
theorem bcast_a_a1_apply {a : ℕ} (x : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-! ## The hidden layer -/

/-- The matrix unit's hidden layer at an entry. -/
theorem hidden_unit {φ₁ φ₂ : FTy} (A : FVec Ideal ⟨2, ![R, J]⟩ φ₁) (B : FVec Ideal ⟨2, ![J, K]⟩ φ₂)
    (c : FVec Ideal ⟨2, ![1, K]⟩ .f32) (h : (⟨2, ![1, K]⟩ : Shape).Broadcasts ⟨2, ![R, K]⟩) (r : Fin R) (k : Fin K) :
    maximumf (addf (matmul (DotDims.plain R J K) none A B (constant (F := Ideal) ⟨2, ![R, K]⟩ .f32 0x00000000#32))
        (broadcastTo ⟨2, ![R, K]⟩ c h)) (broadcast ⟨2, ![R, K]⟩ (Scalar.ofBits (F := Ideal) .f32 0x00000000#32)) (ix2 r k)
      = max ((∑ j : Fin J, A (ix2 r j) * B (ix2 j k)) + c (ix2 (0 : Fin 1) k)) 0 := by
  show max (addf (matmul (DotDims.plain R J K) none A B (constant (F := Ideal) ⟨2, ![R, K]⟩ .f32 0x00000000#32))
        (broadcastTo ⟨2, ![R, K]⟩ c h) (ix2 r k)) (Ideal.ofBits .f32 0x00000000#32) = _
  rw [Dense.matmul_bias_apply, Ideal.ofBits_zero_f32]

/-- The host's hidden layer at an entry. -/
theorem hidden_host {φ₁ φ₂ : FTy} (A : FVec Ideal ⟨2, ![R, J]⟩ φ₁) (B : FVec Ideal ⟨2, ![J, K]⟩ φ₂)
    (b : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![R, K]⟩ ![0, 1])
    (h0 : (⟨0, ![]⟩ : Shape).BroadcastsInDim ⟨2, ![R, K]⟩ ![]) (r : Fin R) (k : Fin K) :
    maximumf (addf (Host.dotGeneral (F := Ideal) (DotDims.plain R J K) none A B)
        (broadcastInDim ⟨2, ![R, K]⟩ ![0, 1] h2 (broadcastInDim ⟨2, ![1, K]⟩ ![1] h1 b)))
        (broadcastInDim ⟨2, ![R, K]⟩ ![] h0 (constant (F := Ideal) ⟨0, ![]⟩ .f32 0x00000000#32)) (ix2 r k)
      = max ((∑ j : Fin J, A (ix2 r j) * B (ix2 j k)) + b (ix1 k)) 0 := by
  show max (addf (Host.dotGeneral (F := Ideal) (DotDims.plain R J K) none A B)
        (broadcastInDim ⟨2, ![R, K]⟩ ![0, 1] h2 (broadcastInDim ⟨2, ![1, K]⟩ ![1] h1 b)) (ix2 r k))
      (broadcastInDim ⟨2, ![R, K]⟩ ![] h0 (constant (F := Ideal) ⟨0, ![]⟩ .f32 0x00000000#32) (ix2 r k)) = _
  rw [Dense.dot_bias_apply, bcast_scalar_apply]
  show max _ (Ideal.ofBits .f32 0x00000000#32) = _
  rw [Ideal.ofBits_zero_f32]

/-! ## The gate -/

/-- The matrix unit's gate at an entry of the column. -/
theorem gate_unit {φ₁ φ₂ : FTy} (H : FVec Ideal ⟨2, ![R, K]⟩ φ₁) (B2 : FVec Ideal ⟨2, ![K, 1]⟩ φ₂)
    (c2 : FVec Ideal ⟨2, ![1, 1]⟩ .f32) (n : FVec Ideal ⟨2, ![R, 1]⟩ .f32)
    (h : (⟨2, ![1, 1]⟩ : Shape).Broadcasts ⟨2, ![R, 1]⟩) (r : Fin R) :
    logistic (divf (addf n (addf (matmul (DotDims.plain R K 1) none H B2 (constant (F := Ideal) ⟨2, ![R, 1]⟩ .f32 0x00000000#32))
        (broadcastTo ⟨2, ![R, 1]⟩ c2 h))) (broadcast ⟨2, ![R, 1]⟩ (Scalar.ofBits (F := Ideal) .f32 0x3F000000#32))) (ix2 r (0 : Fin 1))
      = Ideal.logistic (Ideal.div (n (ix2 r (0 : Fin 1)) + ((∑ k : Fin K, H (ix2 r k) * B2 (ix2 k (0 : Fin 1))) + c2 (ix2 (0 : Fin 1) (0 : Fin 1))))
          (Ideal.ofBits .f32 0x3F000000#32)) := by
  show Ideal.logistic (Ideal.div (n (ix2 r (0 : Fin 1)) + addf (matmul (DotDims.plain R K 1) none H B2 (constant (F := Ideal) ⟨2, ![R, 1]⟩ .f32 0x00000000#32))
        (broadcastTo ⟨2, ![R, 1]⟩ c2 h) (ix2 r (0 : Fin 1))) (Ideal.ofBits .f32 0x3F000000#32)) = _
  rw [Dense.matmul_bias_apply]

/-- The host's gate at an entry of the column: 1 / (1 + exp (-x)) is the logistic function of x. -/
theorem gate_host {φ₁ φ₂ : FTy} (H : FVec Ideal ⟨2, ![R, K]⟩ φ₁) (B2 : FVec Ideal ⟨2, ![K, 1]⟩ φ₂)
    (b2 : FVec Ideal ⟨1, ![1]⟩ .f32) (n : FVec Ideal ⟨2, ![R, 1]⟩ .f32)
    (h1 : (⟨1, ![1]⟩ : Shape).BroadcastsInDim ⟨2, ![1, 1]⟩ ![1])
    (h2 : (⟨2, ![1, 1]⟩ : Shape).BroadcastsInDim ⟨2, ![R, 1]⟩ ![0, 1])
    (h0 : (⟨0, ![]⟩ : Shape).BroadcastsInDim ⟨2, ![R, 1]⟩ ![]) (r : Fin R) :
    Host.divf (broadcastInDim ⟨2, ![R, 1]⟩ ![] h0 (constant (F := Ideal) ⟨0, ![]⟩ .f32 0x3F800000#32))
      (addf (broadcastInDim ⟨2, ![R, 1]⟩ ![] h0 (constant (F := Ideal) ⟨0, ![]⟩ .f32 0x3F800000#32))
        (Host.exp (Host.negf (Host.divf (addf n (addf (Host.dotGeneral (F := Ideal) (DotDims.plain R K 1) none H B2)
            (broadcastInDim ⟨2, ![R, 1]⟩ ![0, 1] h2 (broadcastInDim ⟨2, ![1, 1]⟩ ![1] h1 b2))))
          (broadcastInDim ⟨2, ![R, 1]⟩ ![] h0 (constant (F := Ideal) ⟨0, ![]⟩ .f32 0x3F000000#32)))))) (ix2 r (0 : Fin 1))
      = Ideal.logistic (Ideal.div (n (ix2 r (0 : Fin 1)) + ((∑ k : Fin K, H (ix2 r k) * B2 (ix2 k (0 : Fin 1))) + b2 (ix1 (0 : Fin 1))))
          (Ideal.ofBits .f32 0x3F000000#32)) := by
  show Ideal.div (broadcastInDim ⟨2, ![R, 1]⟩ ![] h0 (constant (F := Ideal) ⟨0, ![]⟩ .f32 0x3F800000#32) (ix2 r (0 : Fin 1)))
      (broadcastInDim ⟨2, ![R, 1]⟩ ![] h0 (constant (F := Ideal) ⟨0, ![]⟩ .f32 0x3F800000#32) (ix2 r (0 : Fin 1))
        + Ideal.exp (-(Ideal.div (n (ix2 r (0 : Fin 1)) + addf (Host.dotGeneral (F := Ideal) (DotDims.plain R K 1) none H B2)
            (broadcastInDim ⟨2, ![R, 1]⟩ ![0, 1] h2 (broadcastInDim ⟨2, ![1, 1]⟩ ![1] h1 b2)) (ix2 r (0 : Fin 1)))
          (broadcastInDim ⟨2, ![R, 1]⟩ ![] h0 (constant (F := Ideal) ⟨0, ![]⟩ .f32 0x3F000000#32) (ix2 r (0 : Fin 1)))))) = _
  rw [Dense.dot_bias_apply, bcast_scalar_apply, bcast_scalar_apply]
  show Ideal.div (Ideal.ofBits .f32 0x3F800000#32) (Ideal.ofBits .f32 0x3F800000#32 + Ideal.exp (-(Ideal.div _ (Ideal.ofBits .f32 0x3F000000#32)))) = _
  rw [Cert.RealArray.word_one, EReal.coe_one]
  rfl

end Cert.Gate

end
-- ==== Proof.EdgeValue.lean ====
/-
  What the edge-gate region leaves in its output array.

  At a grid point the body reads a block of 6400 rows of the edge features, the whole weights, and the block's 6400
  columns of the noise, and stores, for each of the two layers l, the row l of the [2, 6400] output block: the gate
  of each of the block's rows under the l-th slab of the weights.  So the block is the array of edge gates of the
  block's rows; block t sits at rows 6400·t … 6400·t + 6399, the 125 blocks tile the 800000 edges, and the output
  array ends as the array of edge gates of the whole edge-feature matrix.
-/
import proofs.«175160_j75557064671961_1_alg».proof.Proof.Gen.KernelIdeal.Frame
import proofs.«175160_j75557064671961_1_alg».proof.Proof.LibGateLayers
import Idealize.ShloMosaic.Lib.ValueLayout
import Idealize.ShloMosaic.Lib.Pipeline.Value

set_option maxRecDepth 16384

noncomputable section

open scoped BigOperators

namespace Cert.KernelIdeal.EdgeValue

open Cert.KernelIdeal Cert.KernelIdeal.Gen Cert.Gate
open Idealize.ShloMosaic Idealize.ShloMosaic.ValueIdx Idealize.ShloMosaic.TcCoe

/-! ## One stored row: the gates of the block's rows under one slab of the weights -/

/-- The rounding of the feature block to bf16 on its way into the matrix unit changes nothing over the extended reals. -/
theorem feat_apply (v0 : Vec Ideal S6400x128 .f32) (i : S6400x128.Idx) : k0_pay2 (F := Ideal) v0 i = v0 i := by
  unfold k0_pay2
  rw [shapeCast_self]
  rfl

/-- A stored row, from the feature block already rounded: entry r is the gate of row r. -/
theorem row_of_rounded (A : FVec Ideal S6400x128 .bf16) (v3 : Vec Ideal S1x128x64 .f32) (v6 : Vec Ideal S1x64 .f32)
    (v8 : Vec Ideal S1x64x1 .f32) (v11 : Vec Ideal S1x1 .f32) (v24 : Vec Ideal S1x6400 .f32) (r : Fin 6400) :
    k0_pay1 (F := Ideal) A v3 v6 v8 v11 v24 (ix2 (0 : Fin 1) r)
      = gate (fun j : Fin 128 => A (ix2 r j)) (fun (j : Fin 128) (k : Fin 64) => v3 (ix3 (0 : Fin 1) j k))
          (fun k : Fin 64 => v6 (ix2 (0 : Fin 1) k)) (fun k : Fin 64 => v8 (ix3 (0 : Fin 1) k (0 : Fin 1)))
          (v11 (ix2 (0 : Fin 1) (0 : Fin 1))) (v24 (ix2 (0 : Fin 1) r)) := by
  unfold k0_pay1
  refine (shapeCast_a_1a_apply _ _ (0 : Fin 1) r).trans ?_
  refine (shapeCast_a1_a_apply _ _ r).trans ?_
  refine (gate_unit _ _ _ _ _ r).trans ?_
  unfold gate
  refine congrArg Ideal.logistic (congrArg (fun z => Ideal.div z _) ?_)
  refine congrArg₂ (· + ·) ?_ (congrArg₂ (· + ·) (Finset.sum_congr rfl fun k _ => congrArg₂ (· * ·) ?_ ?_) ?_)
  · exact (shapeCast_a_a1_apply _ _ r (0 : Fin 1)).trans (shapeCast_1a_a_apply _ _ r)
  · refine (hidden_unit _ _ _ _ r k).trans ?_
    refine congrArg (fun z => max z 0) (congrArg₂ (· + ·) (Finset.sum_congr rfl fun j _ => congrArg₂ (· * ·) rfl ?_) ?_)
    · exact shapeCast_1ab_ab_apply _ _ j k
    · exact (shapeCast_a_1a_apply _ _ (0 : Fin 1) k).trans (shapeCast_1a_a_apply _ _ k)
  · exact shapeCast_1ab_ab_apply _ _ k (0 : Fin 1)
  · exact (shapeCast_a_1a_apply _ _ (0 : Fin 1) (0 : Fin 1)).trans (shapeCast_1a_a_apply _ _ (0 : Fin 1))

/-- The first stored row rounds the feature block itself. -/
theorem row_of_block (v0 : Vec Ideal S6400x128 .f32) (v3 : Vec Ideal S1x128x64 .f32) (v6 : Vec Ideal S1x64 .f32)
    (v8 : Vec Ideal S1x64x1 .f32) (v11 : Vec Ideal S1x1 .f32) (v24 : Vec Ideal S1x6400 .f32) :
    k0_pay3 (F := Ideal) v0 v3 v6 v8 v11 v24 = k0_pay1 (F := Ideal) (k0_pay2 v0) v3 v6 v8 v11 v24 := rfl

/-! ## The loads: a row rectangle of a two-slab operand reads that slab -/

theorem hz2 : (![0, 0] : Fin 2 → Nat) = fun _ => 0 := funext fun a => by fin_cases a <;> rfl

theorem ld_W1 (x : Vec Ideal S2x128x64 .f32) (l : Fin 2) (inb) (j : Fin 128) (k : Fin 64) :
    View.ld x (Rect.unit (s := S2x128x64) ![l.val, 0, 0] S1x128x64.size inb) (ix3 (0 : Fin 1) j k) = x (ix3 l j k) := by
  show x ((Rect.unit (s := S2x128x64) ![l.val, 0, 0] S1x128x64.size inb).idx (ix3 (0 : Fin 1) j k)) = x (ix3 l j k)
  refine congrArg x (funext fun a => Fin.ext ?_)
  match a with
  | ⟨0, _⟩ => show l.val + 1 * 0 = l.val; omega
  | ⟨1, _⟩ => show 0 + 1 * j.val = j.val; omega
  | ⟨2, _⟩ => show 0 + 1 * k.val = k.val; omega

theorem ld_b1 (x : Vec Ideal S2x64 .f32) (l : Fin 2) (inb) (k : Fin 64) :
    View.ld x (Rect.unit (s := S2x64) ![l.val, 0] S1x64.size inb) (ix2 (0 : Fin 1) k) = x (ix2 l k) := by
  show x ((Rect.unit (s := S2x64) ![l.val, 0] S1x64.size inb).idx (ix2 (0 : Fin 1) k)) = x (ix2 l k)
  refine congrArg x (funext fun a => Fin.ext ?_)
  match a with
  | ⟨0, _⟩ => show l.val + 1 * 0 = l.val; omega
  | ⟨1, _⟩ => show 0 + 1 * k.val = k.val; omega

theorem ld_W2 (x : Vec Ideal S2x64x1 .f32) (l : Fin 2) (inb) (k : Fin 64) (u : Fin 1) :
    View.ld x (Rect.unit (s := S2x64x1) ![l.val, 0, 0] S1x64x1.size inb) (ix3 (0 : Fin 1) k u) = x (ix3 l k u) := by
  show x ((Rect.unit (s := S2x64x1) ![l.val, 0, 0] S1x64x1.size inb).idx (ix3 (0 : Fin 1) k u)) = x (ix3 l k u)
  refine congrArg x (funext fun a => Fin.ext ?_)
  match a with
  | ⟨0, _⟩ => show l.val + 1 * 0 = l.val; omega
  | ⟨1, _⟩ => show 0 + 1 * k.val = k.val; omega
  | ⟨2, _⟩ => show 0 + 1 * u.val = u.val; omega

theorem ld_b2 (x : Vec Ideal S2x1 .f32) (l : Fin 2) (inb) (u : Fin 1) :
    View.ld x (Rect.unit (s := S2x1) ![l.val, 0] S1x1.size inb) (ix2 (0 : Fin 1) u) = x (ix2 l u) := by
  show x ((Rect.unit (s := S2x1) ![l.val, 0] S1x1.size inb).idx (ix2 (0 : Fin 1) u)) = x (ix2 l u)
  refine congrArg x (funext fun a => Fin.ext ?_)
  match a with
  | ⟨0, _⟩ => show l.val + 1 * 0 = l.val; omega
  | ⟨1, _⟩ => show 0 + 1 * u.val = u.val; omega

theorem ld_nz (x : Vec Ideal S2x6400 .f32) (l : Fin 2) (inb) (r : Fin 6400) :
    View.ld x (Rect.unit (s := S2x6400) ![l.val, 0] S1x6400.size inb) (ix2 (0 : Fin 1) r) = x (ix2 l r) := by
  show x ((Rect.unit (s := S2x6400) ![l.val, 0] S1x6400.size inb).idx (ix2 (0 : Fin 1) r)) = x (ix2 l r)
  refine congrArg x (funext fun a => Fin.ext ?_)
  match a with
  | ⟨0, _⟩ => show l.val + 1 * 0 = l.val; omega
  | ⟨1, _⟩ => show 0 + 1 * r.val = r.val; omega

/-- Where the row rectangle of layer l puts the entry r of a stored row: at (l, r). -/
theorem emb_row (l : Fin 2) (inb) (r : Fin 6400) :
    (Rect.unit (s := S2x6400) ![l.val, 0] S1x6400.size inb).emb (ix2 (0 : Fin 1) r) = ix2 l r := by
  refine funext fun a => Fin.ext ?_
  match a with
  | ⟨0, _⟩ => show l.val + 1 * 0 = l.val; omega
  | ⟨1, _⟩ => show 0 + 1 * r.val = r.val; omega

/-! ## The block: the edge gates of the block's rows -/

/-- The stored row of layer l, from the whole input blocks: entry r is the gate of (l, r). -/
theorem stored_row (x0 : Vec Ideal S6400x128 .f32) (x1 : Vec Ideal S2x128x64 .f32) (x2 : Vec Ideal S2x64 .f32)
    (x3 : Vec Ideal S2x64x1 .f32) (x4 : Vec Ideal S2x1 .f32) (x5 : Vec Ideal S2x6400 .f32) (l : Fin 2)
    (i1 i2 i3 i4 i5) (r : Fin 6400) :
    k0_pay1 (F := Ideal) (k0_pay2 (View.ld x0 r0_0))
        (View.ld x1 (Rect.unit (s := S2x128x64) ![l.val, 0, 0] S1x128x64.size i1))
        (View.ld x2 (Rect.unit (s := S2x64) ![l.val, 0] S1x64.size i2))
        (View.ld x3 (Rect.unit (s := S2x64x1) ![l.val, 0, 0] S1x64x1.size i3))
        (View.ld x4 (Rect.unit (s := S2x1) ![l.val, 0] S1x1.size i4))
        (View.ld x5 (Rect.unit (s := S2x6400) ![l.val, 0] S1x6400.size i5)) (ix2 (0 : Fin 1) r)
      = edgeGateAt (E := 6400) x0 x1 x2 x3 x4 x5 l r := by
  rw [row_of_rounded]
  unfold edgeGateAt
  exact gate_congr (fun j => (feat_apply _ _).trans (congrFun (View.ld_unit_zero (S := S6400x128) hz2 _ x0) _))
    (fun j k => ld_W1 x1 l i1 j k) (fun k => ld_b1 x2 l i2 k) (fun k => ld_W2 x3 l i3 k (0 : Fin 1))
    (ld_b2 x4 l i4 (0 : Fin 1)) (ld_nz x5 l i5 r)

/-- THE BLOCK the body leaves in the output window: the edge gates of the block's 6400 rows, both layers. -/
theorem block_eq (x0 : Vec Ideal S6400x128 .f32) (x1 : Vec Ideal S2x128x64 .f32) (x2 : Vec Ideal S2x64 .f32)
    (x3 : Vec Ideal S2x64x1 .f32) (x4 : Vec Ideal S2x1 .f32) (x5 : Vec Ideal S2x6400 .f32) :
    out0_6 (F := Ideal) x0 x1 x2 x3 x4 x5 = edgeGates (E := 6400) x0 x1 x2 x3 x4 x5 := by
  funext y
  unfold out0_6
  refine View.canon_apply_of_pieces (Val := Elt Ideal) (S := S2x6400) (e := .f32) (edgeGates (E := 6400) x0 x1 x2 x3 x4 x5) _ ?_ y (cover0_6 _ _ y)
  intro p hp
  rcases List.mem_cons.mp hp with rfl | hp
  · show ∀ x : S1x6400.Idx, _
    intro x
    obtain ⟨u, r, rfl⟩ : ∃ (u : Fin 1) (r : Fin 6400), x = ix2 u r := ⟨x 0, x 1, eq_ix2 x⟩
    obtain rfl : u = 0 := Fin.fin_one_eq_zero u
    show k0_pay1 (F := Ideal) (k0_pay2 (View.ld x0 r0_0)) (View.ld x1 r0_6) (View.ld x2 r0_7) (View.ld x3 r0_8)
        (View.ld x4 r0_9) (View.ld x5 r0_10) (ix2 (0 : Fin 1) r)
      = edgeGates (E := 6400) x0 x1 x2 x3 x4 x5 (r0_10.emb (ix2 (0 : Fin 1) r))
    rw [show r0_10.emb (ix2 (0 : Fin 1) r) = ix2 (1 : Fin 2) r from emb_row 1 _ r, edgeGates_apply]
    exact stored_row x0 x1 x2 x3 x4 x5 1 _ _ _ _ _ r
  · rcases List.mem_cons.mp hp with rfl | hp
    · show ∀ x : S1x6400.Idx, _
      intro x
      obtain ⟨u, r, rfl⟩ : ∃ (u : Fin 1) (r : Fin 6400), x = ix2 u r := ⟨x 0, x 1, eq_ix2 x⟩
      obtain rfl : u = 0 := Fin.fin_one_eq_zero u
      show k0_pay3 (F := Ideal) (View.ld x0 r0_0) (View.ld x1 r0_1) (View.ld x2 r0_2) (View.ld x3 r0_3)
          (View.ld x4 r0_4) (View.ld x5 r0_5) (ix2 (0 : Fin 1) r)
        = edgeGates (E := 6400) x0 x1 x2 x3 x4 x5 (r0_5.emb (ix2 (0 : Fin 1) r))
      rw [show r0_5.emb (ix2 (0 : Fin 1) r) = ix2 (0 : Fin 2) r from emb_row 0 _ r, edgeGates_apply, row_of_block]
      exact stored_row x0 x1 x2 x3 x4 x5 0 _ _ _ _ _ r
    · exact absurd hp List.not_mem_nil

/-! ## From blocks to the array -/

/-- The printed index maps over the 125 grid points: the feature block and the noise and output blocks move with the
    point (block t), every weight block stays at the origin. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

section
variable (V : (c : Dev nD) → (b : Ref sig .tc) → Buf (Elt Ideal) ((c : Thread nD τ).loc b))

/-- Row r of the feature block at point t is row 6400·t + r of the feature matrix. -/
theorem read_feat (c : Dev nD) (t : Fin cfg0.N) (r : Fin 6400) (j : Fin 128) (hr : t.val * 6400 + r.val < 800000) :
    iblk0 V c 0 t (ix2 r j) = V c main_v14 (ix2 (⟨t.val * 6400 + r.val, hr⟩ : Fin 800000) j) := by
  show V c main_v14 (((cfg0.win 0).blk t).view.emb (ix2 r j)) = _
  refine congrArg (V c main_v14) (funext fun a => Fin.ext ?_)
  obtain ⟨e0, e1, -⟩ := idx_facts t
  match a with
  | ⟨0, _⟩ => show win0_0.index t (0 : Fin 2) * 6400 + 1 * r.val = t.val * 6400 + r.val; rw [e0]; omega
  | ⟨1, _⟩ => show win0_0.index t (1 : Fin 2) * 128 + 1 * j.val = j.val; rw [e1]; omega

theorem read_W1 (c : Dev nD) (t : Fin cfg0.N) (l : Fin 2) (j : Fin 128) (k : Fin 64) :
    iblk0 V c 1 t (ix3 l j k) = V c main_arg3 (ix3 l j k) := by
  show V c main_arg3 (((cfg0.win 1).blk t).view.emb (ix3 l j k)) = _
  refine congrArg (V c main_arg3) (funext fun a => Fin.ext ?_)
  obtain ⟨-, -, e0, e1, e2, -⟩ := idx_facts t
  match a with
  | ⟨0, _⟩ => show win0_1.index t (0 : Fin 3) * 2 + 1 * l.val = l.val; rw [e0]; omega
  | ⟨1, _⟩ => show win0_1.index t (1 : Fin 3) * 128 + 1 * j.val = j.val; rw [e1]; omega
  | ⟨2, _⟩ => show win0_1.index t (2 : Fin 3) * 64 + 1 * k.val = k.val; rw [e2]; omega

theorem read_b1 (c : Dev nD) (t : Fin cfg0.N) (l : Fin 2) (k : Fin 64) :
    iblk0 V c 2 t (ix2 l k) = V c main_arg4 (ix2 l k) := by
  show V c main_arg4 (((cfg0.win 2).blk t).view.emb (ix2 l k)) = _
  refine congrArg (V c main_arg4) (funext fun a => Fin.ext ?_)
  obtain ⟨-, -, -, -, -, e0, e1, -⟩ := idx_facts t
  match a with
  | ⟨0, _⟩ => show win0_2.index t (0 : Fin 2) * 2 + 1 * l.val = l.val; rw [e0]; omega
  | ⟨1, _⟩ => show win0_2.index t (1 : Fin 2) * 64 + 1 * k.val = k.val; rw [e1]; omega

theorem read_W2 (c : Dev nD) (t : Fin cfg0.N) (l : Fin 2) (k : Fin 64) (u : Fin 1) :
    iblk0 V c 3 t (ix3 l k u) = V c main_arg5 (ix3 l k u) := by
  show V c main_arg5 (((cfg0.win 3).blk t).view.emb (ix3 l k u)) = _
  refine congrArg (V c main_arg5) (funext fun a => Fin.ext ?_)
  obtain ⟨-, -, -, -, -, -, -, e0, e1, e2, -⟩ := idx_facts t
  match a with
  | ⟨0, _⟩ => show win0_3.index t (0 : Fin 3) * 2 + 1 * l.val = l.val; rw [e0]; omega
  | ⟨1, _⟩ => show win0_3.index t (1 : Fin 3) * 64 + 1 * k.val = k.val; rw [e1]; omega
  | ⟨2, _⟩ => show win0_3.index t (2 : Fin 3) * 1 + 1 * u.val = u.val; rw [e2]; omega

theorem read_b2 (c : Dev nD) (t : Fin cfg0.N) (l : Fin 2) (u : Fin 1) :
    iblk0 V c 4 t (ix2 l u) = V c main_arg6 (ix2 l u) := by
  show V c main_arg6 (((cfg0.win 4).blk t).view.emb (ix2 l u)) = _
  refine congrArg (V c main_arg6) (funext fun a => Fin.ext ?_)
  obtain ⟨-, -, -, -, -, -, -, -, -, -, e0, e1, -⟩ := idx_facts t
  match a with
  | ⟨0, _⟩ => show win0_4.index t (0 : Fin 2) * 2 + 1 * l.val = l.val; rw [e0]; omega
  | ⟨1, _⟩ => show win0_4.index t (1 : Fin 2) * 1 + 1 * u.val = u.val; rw [e1]; omega

/-- Column r of the noise block at point t is column 6400·t + r of the noise. -/
theorem read_nz (c : Dev nD) (t : Fin cfg0.N) (l : Fin 2) (r : Fin 6400) (hr : t.val * 6400 + r.val < 800000) :
    iblk0 V c 5 t (ix2 l r) = V c main_arg11 (ix2 l (⟨t.val * 6400 + r.val, hr⟩ : Fin 800000)) := by
  show V c main_arg11 (((cfg0.win 5).blk t).view.emb (ix2 l r)) = _
  refine congrArg (V c main_arg11) (funext fun a => Fin.ext ?_)
  obtain ⟨-, -, -, -, -, -, -, -, -, -, -, -, e0, e1, -⟩ := idx_facts t
  match a with
  | ⟨0, _⟩ => show win0_5.index t (0 : Fin 2) * 2 + 1 * l.val = l.val; rw [e0]; omega
  | ⟨1, _⟩ => show win0_5.index t (1 : Fin 2) * 6400 + 1 * r.val = t.val * 6400 + r.val; rw [e1]; omega

/-- WHAT POINT t WRITES BACK is block t of the edge gates of the arrays as the region finds them. -/
theorem flushed_eq (c : Dev nD) (t : Fin cfg0.N) :
    (dat0 (F := Ideal) V c).flushed 6 t = ((cfg0.win 6).blk t).view.read (Elt Ideal)
      (edgeGates (E := 800000) (V c main_v14) (V c main_arg3) (V c main_arg4) (V c main_arg5) (V c main_arg6) (V c main_arg11)) := by
  show (cfg0.win 6).cut (grid0.coords t) ((dat0 V c).after 6 t) = _
  rw [after0_6, block_eq]
  funext y
  revert y
  show ∀ y : S2x6400.Idx, _
  intro y
  obtain ⟨l, r, rfl⟩ : ∃ (l : Fin 2) (r : Fin 6400), y = ix2 l r := ⟨y 0, y 1, eq_ix2 y⟩
  have ht : t.val < 125 := lt_of_lt_of_eq t.isLt N_0
  have hr : t.val * 6400 + r.val < 800000 := by have := r.isLt; omega
  have hemb : ((cfg0.win 6).blk t).view.emb (ix2 l r) = ix2 l (⟨t.val * 6400 + r.val, hr⟩ : Fin 800000) := by
    obtain ⟨-, -, -, -, -, -, -, -, -, -, -, -, -, -, e0, e1⟩ := idx_facts t
    refine funext fun a => Fin.ext ?_
    match a with
    | ⟨0, _⟩ => show win0_6.index t (0 : Fin 2) * 2 + 1 * l.val = l.val; rw [e0]; omega
    | ⟨1, _⟩ => show win0_6.index t (1 : Fin 2) * 6400 + 1 * r.val = t.val * 6400 + r.val; rw [e1]; omega
  show edgeGates (E := 6400) (iblk0 V c 0 t) (iblk0 V c 1 t) (iblk0 V c 2 t) (iblk0 V c 3 t) (iblk0 V c 4 t) (iblk0 V c 5 t) (ix2 l r)
    = edgeGates (E := 800000) (V c main_v14) (V c main_arg3) (V c main_arg4) (V c main_arg5) (V c main_arg6) (V c main_arg11)
        (((cfg0.win 6).blk t).view.emb (ix2 l r))
  rw [hemb, edgeGates_apply, edgeGates_apply]
  unfold edgeGateAt
  exact gate_congr (fun j => read_feat V c t r j hr) (fun j k => read_W1 V c t l j k) (fun k => read_b1 V c t l k)
    (fun k => read_W2 V c t l k (0 : Fin 1)) (read_b2 V c t l (0 : Fin 1)) (read_nz V c t l r hr)

/-- An index of the output array is in point t's block iff each coordinate is in the block's range on its axis. -/
theorem mem_blk (t : Fin cfg0.N) (i : S2x800000.Idx) :
    i ∈ ((cfg0.win 6).blk t).view.set ↔ ∀ a : Fin 2, win0_6.index t a * S2x6400.size a ≤ (i a).val
      ∧ (i a).val < win0_6.index t a * S2x6400.size a + S2x6400.size a := by
  show i ∈ ((View.whole main_v15).slice (win0_6.rect t)).set ↔ _
  rw [View.set_slice_whole, Rect.mem_set_unit]
  exact Iff.rfl

/-- The 125 blocks of 6400 columns tile the 800000 columns: column e is in the block of point e / 6400. -/
theorem cover (i : S2x800000.Idx) :
    ∃ t : Fin cfg0.N, (cfg0.win 6).flush t = true ∧ i ∈ ((cfg0.win 6).blk t).view.set := by
  have hi0 : (i 0).val < 2 := (i 0).isLt
  have hi1 : (i 1).val < 800000 := (i 1).isLt
  have hN : cfg0.N = 125 := N_0
  have hlt : (i 1).val / 6400 < cfg0.N := by rw [hN]; omega
  obtain ⟨-, -, -, -, -, -, -, -, -, -, -, -, -, -, e0, e1⟩ := idx_facts ⟨(i 1).val / 6400, hlt⟩
  have e1' : win0_6.index ⟨(i 1).val / 6400, hlt⟩ (1 : Fin 2) = (i 1).val / 6400 := e1
  refine ⟨⟨(i 1).val / 6400, hlt⟩, flush0_6 _, ?_⟩
  rw [mem_blk]
  intro a
  match a with
  | ⟨0, _⟩ =>
    show win0_6.index ⟨(i 1).val / 6400, hlt⟩ (0 : Fin 2) * 2 ≤ (i 0).val
      ∧ (i 0).val < win0_6.index ⟨(i 1).val / 6400, hlt⟩ (0 : Fin 2) * 2 + 2
    rw [e0]; omega
  | ⟨1, _⟩ =>
    show win0_6.index ⟨(i 1).val / 6400, hlt⟩ (1 : Fin 2) * 6400 ≤ (i 1).val
      ∧ (i 1).val < win0_6.index ⟨(i 1).val / 6400, hlt⟩ (1 : Fin 2) * 6400 + 6400
    rw [e1']; omega

/-- THE OUTPUT ARRAY after the region: the edge gates of the arrays as the region finds them. -/
theorem final (c : Dev nD) :
    (dat0 (F := Ideal) V c).arrAt 6 cfg0.N
      = edgeGates (E := 800000) (V c main_v14) (V c main_arg3) (V c main_arg4) (V c main_arg5) (V c main_arg6) (V c main_arg11) :=
  (dat0 (F := Ideal) V c).arrAt_eq_of_cover 6 _ (fun t _ => flushed_eq V c t) cover

end

end Cert.KernelIdeal.EdgeValue

end
-- ==== Proof.NodeValue.lean ====
/-
  What the node-gate region leaves in its output array.

  At a grid point the body reads a block of 5000 rows of each of the two slabs of the node states, the whole
  weights, and the block's 5000 rows of the noise, and stores, for each layer l, the slab l of the [2, 5000, 1]
  output block: the gate of each of the block's rows of slab l under the l-th slab of the weights.  Block t sits at
  rows 5000·t … 5000·t + 4999, the 10 blocks tile the 50000 nodes, and the output array ends as the array of node
  gates of the whole array of node states.
-/
import proofs.«175160_j75557064671961_1_alg».proof.Proof.Gen.KernelIdeal.Frame
import proofs.«175160_j75557064671961_1_alg».proof.Proof.LibGateLayers
import Idealize.ShloMosaic.Lib.ValueLayout
import Idealize.ShloMosaic.Lib.Pipeline.Value

set_option maxRecDepth 16384

noncomputable section

open scoped BigOperators

namespace Cert.KernelIdeal.NodeValue

open Cert.KernelIdeal Cert.KernelIdeal.Gen Cert.Gate
open Idealize.ShloMosaic Idealize.ShloMosaic.ValueIdx Idealize.ShloMosaic.TcCoe

/-! ## One stored slab: the gates of the block's rows under one slab of the weights -/

/-- A stored slab: entry n is the gate of row n of the slab of node states read. -/
theorem slab_apply (v33 : Vec Ideal S1x5000x64 .f32) (v36 : Vec Ideal S1x64x64 .f32) (v39 : Vec Ideal S1x64 .f32)
    (v41 : Vec Ideal S1x64x1 .f32) (v44 : Vec Ideal S1x1 .f32) (v57 : Vec Ideal S1x5000x1 .f32) (n : Fin 5000) :
    k1_pay1 (F := Ideal) v33 v36 v39 v41 v44 v57 (ix3 (0 : Fin 1) n (0 : Fin 1))
      = gate (fun j : Fin 64 => v33 (ix3 (0 : Fin 1) n j)) (fun (j : Fin 64) (k : Fin 64) => v36 (ix3 (0 : Fin 1) j k))
          (fun k : Fin 64 => v39 (ix2 (0 : Fin 1) k)) (fun k : Fin 64 => v41 (ix3 (0 : Fin 1) k (0 : Fin 1)))
          (v44 (ix2 (0 : Fin 1) (0 : Fin 1))) (v57 (ix3 (0 : Fin 1) n (0 : Fin 1))) := by
  unfold k1_pay1
  refine (shapeCast_ab_1ab_apply _ _ (0 : Fin 1) n (0 : Fin 1)).trans ?_
  refine (gate_unit _ _ _ _ _ n).trans ?_
  unfold gate
  refine congrArg Ideal.logistic (congrArg (fun z => Ideal.div z _) ?_)
  refine congrArg₂ (· + ·) ?_ (congrArg₂ (· + ·) (Finset.sum_congr rfl fun k _ => congrArg₂ (· * ·) ?_ ?_) ?_)
  · exact shapeCast_1ab_ab_apply _ _ n (0 : Fin 1)
  · refine (hidden_unit _ _ _ _ n k).trans ?_
    refine congrArg (fun z => max z 0) (congrArg₂ (· + ·) (Finset.sum_congr rfl fun j _ => congrArg₂ (· * ·) ?_ ?_) ?_)
    · exact shapeCast_1ab_ab_apply _ _ n j
    · exact shapeCast_1ab_ab_apply _ _ j k
    · exact (shapeCast_a_1a_apply _ _ (0 : Fin 1) k).trans (shapeCast_1a_a_apply _ _ k)
  · exact shapeCast_1ab_ab_apply _ _ k (0 : Fin 1)
  · exact (shapeCast_a_1a_apply _ _ (0 : Fin 1) (0 : Fin 1)).trans (shapeCast_1a_a_apply _ _ (0 : Fin 1))

/-- The two stores apply one and the same function to the slabs they read. -/
theorem slab0_eq (v0 : Vec Ideal S1x5000x64 .f32) (v3 : Vec Ideal S1x64x64 .f32) (v6 : Vec Ideal S1x64 .f32)
    (v8 : Vec Ideal S1x64x1 .f32) (v11 : Vec Ideal S1x1 .f32) (v24 : Vec Ideal S1x5000x1 .f32) :
    k1_pay2 (F := Ideal) v0 v3 v6 v8 v11 v24 = k1_pay1 (F := Ideal) v0 v3 v6 v8 v11 v24 := rfl

/-! ## The loads: a slab rectangle of a two-slab operand reads that slab -/

theorem ld_X (x : Vec Ideal S2x5000x64 .f32) (l : Fin 2) (inb) (n : Fin 5000) (j : Fin 64) :
    View.ld x (Rect.unit (s := S2x5000x64) ![l.val, 0, 0] S1x5000x64.size inb) (ix3 (0 : Fin 1) n j) = x (ix3 l n j) := by
  show x ((Rect.unit (s := S2x5000x64) ![l.val, 0, 0] S1x5000x64.size inb).idx (ix3 (0 : Fin 1) n j)) = x (ix3 l n j)
  refine congrArg x (funext fun a => Fin.ext ?_)
  match a with
  | ⟨0, _⟩ => show l.val + 1 * 0 = l.val; omega
  | ⟨1, _⟩ => show 0 + 1 * n.val = n.val; omega
  | ⟨2, _⟩ => show 0 + 1 * j.val = j.val; omega

theorem ld_W1 (x : Vec Ideal S2x64x64 .f32) (l : Fin 2) (inb) (j : Fin 64) (k : Fin 64) :
    View.ld x (Rect.unit (s := S2x64x64) ![l.val, 0, 0] S1x64x64.size inb) (ix3 (0 : Fin 1) j k) = x (ix3 l j k) := by
  show x ((Rect.unit (s := S2x64x64) ![l.val, 0, 0] S1x64x64.size inb).idx (ix3 (0 : Fin 1) j k)) = x (ix3 l j k)
  refine congrArg x (funext fun a => Fin.ext ?_)
  match a with
  | ⟨0, _⟩ => show l.val + 1 * 0 = l.val; omega
  | ⟨1, _⟩ => show 0 + 1 * j.val = j.val; omega
  | ⟨2, _⟩ => show 0 + 1 * k.val = k.val; omega

theorem ld_b1 (x : Vec Ideal S2x64 .f32) (l : Fin 2) (inb) (k : Fin 64) :
    View.ld x (Rect.unit (s := S2x64) ![l.val, 0] S1x64.size inb) (ix2 (0 : Fin 1) k) = x (ix2 l k) := by
  show x ((Rect.unit (s := S2x64) ![l.val, 0] S1x64.size inb).idx (ix2 (0 : Fin 1) k)) = x (ix2 l k)
  refine congrArg x (funext fun a => Fin.ext ?_)
  match a with
  | ⟨0, _⟩ => show l.val + 1 * 0 = l.val; omega
  | ⟨1, _⟩ => show 0 + 1 * k.val = k.val; omega

theorem ld_W2 (x : Vec Ideal S2x64x1 .f32) (l : Fin 2) (inb) (k : Fin 64) (u : Fin 1) :
    View.ld x (Rect.unit (s := S2x64x1) ![l.val, 0, 0] S1x64x1.size inb) (ix3 (0 : Fin 1) k u) = x (ix3 l k u) := by
  show x ((Rect.unit (s := S2x64x1) ![l.val, 0, 0] S1x64x1.size inb).idx (ix3 (0 : Fin 1) k u)) = x (ix3 l k u)
  refine congrArg x (funext fun a => Fin.ext ?_)
  match a with
  | ⟨0, _⟩ => show l.val + 1 * 0 = l.val; omega
  | ⟨1, _⟩ => show 0 + 1 * k.val = k.val; omega
  | ⟨2, _⟩ => show 0 + 1 * u.val = u.val; omega

theorem ld_b2 (x : Vec Ideal S2x1 .f32) (l : Fin 2) (inb) (u : Fin 1) :
    View.ld x (Rect.unit (s := S2x1) ![l.val, 0] S1x1.size inb) (ix2 (0 : Fin 1) u) = x (ix2 l u) := by
  show x ((Rect.unit (s := S2x1) ![l.val, 0] S1x1.size inb).idx (ix2 (0 : Fin 1) u)) = x (ix2 l u)
  refine congrArg x (funext fun a => Fin.ext ?_)
  match a with
  | ⟨0, _⟩ => show l.val + 1 * 0 = l.val; omega
  | ⟨1, _⟩ => show 0 + 1 * u.val = u.val; omega

theorem ld_nz (x : Vec Ideal S2x5000x1 .f32) (l : Fin 2) (inb) (n : Fin 5000) (u : Fin 1) :
    View.ld x (Rect.unit (s := S2x5000x1) ![l.val, 0, 0] S1x5000x1.size inb) (ix3 (0 : Fin 1) n u) = x (ix3 l n u) := by
  show x ((Rect.unit (s := S2x5000x1) ![l.val, 0, 0] S1x5000x1.size inb).idx (ix3 (0 : Fin 1) n u)) = x (ix3 l n u)
  refine congrArg x (funext fun a => Fin.ext ?_)
  match a with
  | ⟨0, _⟩ => show l.val + 1 * 0 = l.val; omega
  | ⟨1, _⟩ => show 0 + 1 * n.val = n.val; omega
  | ⟨2, _⟩ => show 0 + 1 * u.val = u.val; omega

/-- Where the slab rectangle of layer l puts the entry n of a stored slab: at (l, n, 0). -/
theorem emb_slab (l : Fin 2) (inb) (n : Fin 5000) (u : Fin 1) :
    (Rect.unit (s := S2x5000x1) ![l.val, 0, 0] S1x5000x1.size inb).emb (ix3 (0 : Fin 1) n u) = ix3 l n u := by
  refine funext fun a => Fin.ext ?_
  match a with
  | ⟨0, _⟩ => show l.val + 1 * 0 = l.val; omega
  | ⟨1, _⟩ => show 0 + 1 * n.val = n.val; omega
  | ⟨2, _⟩ => show 0 + 1 * u.val = u.val; omega

/-! ## The block: the node gates of the block's rows -/

/-- The stored slab of layer l, from the whole input blocks: entry n is the gate of (l, n). -/
theorem stored_slab (x0 : Vec Ideal S2x5000x64 .f32) (x1 : Vec Ideal S2x64x64 .f32) (x2 : Vec Ideal S2x64 .f32)
    (x3 : Vec Ideal S2x64x1 .f32) (x4 : Vec Ideal S2x1 .f32) (x5 : Vec Ideal S2x5000x1 .f32) (l : Fin 2)
    (i0 i1 i2 i3 i4 i5) (n : Fin 5000) :
    k1_pay1 (F := Ideal)
        (View.ld x0 (Rect.unit (s := S2x5000x64) ![l.val, 0, 0] S1x5000x64.size i0))
        (View.ld x1 (Rect.unit (s := S2x64x64) ![l.val, 0, 0] S1x64x64.size i1))
        (View.ld x2 (Rect.unit (s := S2x64) ![l.val, 0] S1x64.size i2))
        (View.ld x3 (Rect.unit (s := S2x64x1) ![l.val, 0, 0] S1x64x1.size i3))
        (View.ld x4 (Rect.unit (s := S2x1) ![l.val, 0] S1x1.size i4))
        (View.ld x5 (Rect.unit (s := S2x5000x1) ![l.val, 0, 0] S1x5000x1.size i5)) (ix3 (0 : Fin 1) n (0 : Fin 1))
      = nodeGateAt (N := 5000) x0 x1 x2 x3 x4 x5 l n := by
  rw [slab_apply]
  unfold nodeGateAt
  exact gate_congr (fun j => ld_X x0 l i0 n j) (fun j k => ld_W1 x1 l i1 j k) (fun k => ld_b1 x2 l i2 k)
    (fun k => ld_W2 x3 l i3 k (0 : Fin 1)) (ld_b2 x4 l i4 (0 : Fin 1)) (ld_nz x5 l i5 n (0 : Fin 1))

/-- THE BLOCK the body leaves in the output window: the node gates of the block's 5000 rows, both layers. -/
theorem block_eq (x0 : Vec Ideal S2x5000x64 .f32) (x1 : Vec Ideal S2x64x64 .f32) (x2 : Vec Ideal S2x64 .f32)
    (x3 : Vec Ideal S2x64x1 .f32) (x4 : Vec Ideal S2x1 .f32) (x5 : Vec Ideal S2x5000x1 .f32) :
    out1_6 (F := Ideal) x0 x1 x2 x3 x4 x5 = nodeGates (N := 5000) x0 x1 x2 x3 x4 x5 := by
  funext y
  unfold out1_6
  refine View.canon_apply_of_pieces (Val := Elt Ideal) (S := S2x5000x1) (e := .f32) (nodeGates (N := 5000) x0 x1 x2 x3 x4 x5) _ ?_ y (cover1_6 _ _ y)
  intro p hp
  rcases List.mem_cons.mp hp with rfl | hp
  · show ∀ x : S1x5000x1.Idx, _
    intro x
    obtain ⟨u, n, v, rfl⟩ : ∃ (u : Fin 1) (n : Fin 5000) (v : Fin 1), x = ix3 u n v := ⟨x 0, x 1, x 2, eq_ix3 x⟩
    obtain rfl : u = 0 := Fin.fin_one_eq_zero u
    obtain rfl : v = 0 := Fin.fin_one_eq_zero v
    show k1_pay1 (F := Ideal) (View.ld x0 r1_6) (View.ld x1 r1_7) (View.ld x2 r1_8) (View.ld x3 r1_9)
        (View.ld x4 r1_10) (View.ld x5 r1_11) (ix3 (0 : Fin 1) n (0 : Fin 1))
      = nodeGates (N := 5000) x0 x1 x2 x3 x4 x5 (r1_11.emb (ix3 (0 : Fin 1) n (0 : Fin 1)))
    rw [show r1_11.emb (ix3 (0 : Fin 1) n (0 : Fin 1)) = ix3 (1 : Fin 2) n (0 : Fin 1) from emb_slab 1 _ n 0, nodeGates_apply]
    exact stored_slab x0 x1 x2 x3 x4 x5 1 _ _ _ _ _ _ n
  · rcases List.mem_cons.mp hp with rfl | hp
    · show ∀ x : S1x5000x1.Idx, _
      intro x
      obtain ⟨u, n, v, rfl⟩ : ∃ (u : Fin 1) (n : Fin 5000) (v : Fin 1), x = ix3 u n v := ⟨x 0, x 1, x 2, eq_ix3 x⟩
      obtain rfl : u = 0 := Fin.fin_one_eq_zero u
      obtain rfl : v = 0 := Fin.fin_one_eq_zero v
      show k1_pay2 (F := Ideal) (View.ld x0 r1_0) (View.ld x1 r1_1) (View.ld x2 r1_2) (View.ld x3 r1_3)
          (View.ld x4 r1_4) (View.ld x5 r1_5) (ix3 (0 : Fin 1) n (0 : Fin 1))
        = nodeGates (N := 5000) x0 x1 x2 x3 x4 x5 (r1_5.emb (ix3 (0 : Fin 1) n (0 : Fin 1)))
      rw [show r1_5.emb (ix3 (0 : Fin 1) n (0 : Fin 1)) = ix3 (0 : Fin 2) n (0 : Fin 1) from emb_slab 0 _ n 0, nodeGates_apply, slab0_eq]
      exact stored_slab x0 x1 x2 x3 x4 x5 0 _ _ _ _ _ _ n
    · exact absurd hp List.not_mem_nil

/-! ## From blocks to the array -/

/-- The printed index maps over the 10 grid points: the node-state block and the noise and output blocks move with
    the point along the rows (block t), every weight block stays at the origin. -/
theorem idx_facts : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (0 : Fin 3) = 0 ∧ win1_5.index t (1 : Fin 3) = t.val ∧ win1_5.index t (2 : Fin 3) = 0
    ∧ win1_6.index t (0 : Fin 3) = 0 ∧ win1_6.index t (1 : Fin 3) = t.val ∧ win1_6.index t (2 : Fin 3) = 0 :=
  (by decide +kernel : ∀ t : Fin grid1.N, _)

section
variable (V : (c : Dev nD) → (b : Ref sig .tc) → Buf (Elt Ideal) ((c : Thread nD τ).loc b))

/-- Row n of slab l of the node-state block at point t is row 5000·t + n of that slab of the node states. -/
theorem read_X (c : Dev nD) (t : Fin cfg1.N) (l : Fin 2) (n : Fin 5000) (j : Fin 64) (hn : t.val * 5000 + n.val < 50000) :
    iblk1 V c 0 t (ix3 l n j) = V c main_v44 (ix3 l (⟨t.val * 5000 + n.val, hn⟩ : Fin 50000) j) := by
  show V c main_v44 (((cfg1.win 0).blk t).view.emb (ix3 l n j)) = _
  refine congrArg (V c main_v44) (funext fun a => Fin.ext ?_)
  obtain ⟨e0, e1, e2, -⟩ := idx_facts t
  match a with
  | ⟨0, _⟩ => show win1_0.index t (0 : Fin 3) * 2 + 1 * l.val = l.val; rw [e0]; omega
  | ⟨1, _⟩ => show win1_0.index t (1 : Fin 3) * 5000 + 1 * n.val = t.val * 5000 + n.val; rw [e1]; omega
  | ⟨2, _⟩ => show win1_0.index t (2 : Fin 3) * 64 + 1 * j.val = j.val; rw [e2]; omega

theorem read_W1 (c : Dev nD) (t : Fin cfg1.N) (l : Fin 2) (j : Fin 64) (k : Fin 64) :
    iblk1 V c 1 t (ix3 l j k) = V c main_arg7 (ix3 l j k) := by
  show V c main_arg7 (((cfg1.win 1).blk t).view.emb (ix3 l j k)) = _
  refine congrArg (V c main_arg7) (funext fun a => Fin.ext ?_)
  obtain ⟨-, -, -, e0, e1, e2, -⟩ := idx_facts t
  match a with
  | ⟨0, _⟩ => show win1_1.index t (0 : Fin 3) * 2 + 1 * l.val = l.val; rw [e0]; omega
  | ⟨1, _⟩ => show win1_1.index t (1 : Fin 3) * 64 + 1 * j.val = j.val; rw [e1]; omega
  | ⟨2, _⟩ => show win1_1.index t (2 : Fin 3) * 64 + 1 * k.val = k.val; rw [e2]; omega

theorem read_b1 (c : Dev nD) (t : Fin cfg1.N) (l : Fin 2) (k : Fin 64) :
    iblk1 V c 2 t (ix2 l k) = V c main_arg8 (ix2 l k) := by
  show V c main_arg8 (((cfg1.win 2).blk t).view.emb (ix2 l k)) = _
  refine congrArg (V c main_arg8) (funext fun a => Fin.ext ?_)
  obtain ⟨-, -, -, -, -, -, e0, e1, -⟩ := idx_facts t
  match a with
  | ⟨0, _⟩ => show win1_2.index t (0 : Fin 2) * 2 + 1 * l.val = l.val; rw [e0]; omega
  | ⟨1, _⟩ => show win1_2.index t (1 : Fin 2) * 64 + 1 * k.val = k.val; rw [e1]; omega

theorem read_W2 (c : Dev nD) (t : Fin cfg1.N) (l : Fin 2) (k : Fin 64) (u : Fin 1) :
    iblk1 V c 3 t (ix3 l k u) = V c main_arg9 (ix3 l k u) := by
  show V c main_arg9 (((cfg1.win 3).blk t).view.emb (ix3 l k u)) = _
  refine congrArg (V c main_arg9) (funext fun a => Fin.ext ?_)
  obtain ⟨-, -, -, -, -, -, -, -, e0, e1, e2, -⟩ := idx_facts t
  match a with
  | ⟨0, _⟩ => show win1_3.index t (0 : Fin 3) * 2 + 1 * l.val = l.val; rw [e0]; omega
  | ⟨1, _⟩ => show win1_3.index t (1 : Fin 3) * 64 + 1 * k.val = k.val; rw [e1]; omega
  | ⟨2, _⟩ => show win1_3.index t (2 : Fin 3) * 1 + 1 * u.val = u.val; rw [e2]; omega

theorem read_b2 (c : Dev nD) (t : Fin cfg1.N) (l : Fin 2) (u : Fin 1) :
    iblk1 V c 4 t (ix2 l u) = V c main_arg10 (ix2 l u) := by
  show V c main_arg10 (((cfg1.win 4).blk t).view.emb (ix2 l u)) = _
  refine congrArg (V c main_arg10) (funext fun a => Fin.ext ?_)
  obtain ⟨-, -, -, -, -, -, -, -, -, -, -, e0, e1, -⟩ := idx_facts t
  match a with
  | ⟨0, _⟩ => show win1_4.index t (0 : Fin 2) * 2 + 1 * l.val = l.val; rw [e0]; omega
  | ⟨1, _⟩ => show win1_4.index t (1 : Fin 2) * 1 + 1 * u.val = u.val; rw [e1]; omega

/-- Row n of slab l of the noise block at point t is row 5000·t + n of that slab of the noise. -/
theorem read_nz (c : Dev nD) (t : Fin cfg1.N) (l : Fin 2) (n : Fin 5000) (u : Fin 1) (hn : t.val * 5000 + n.val < 50000) :
    iblk1 V c 5 t (ix3 l n u) = V c main_arg12 (ix3 l (⟨t.val * 5000 + n.val, hn⟩ : Fin 50000) u) := by
  show V c main_arg12 (((cfg1.win 5).blk t).view.emb (ix3 l n u)) = _
  refine congrArg (V c main_arg12) (funext fun a => Fin.ext ?_)
  obtain ⟨-, -, -, -, -, -, -, -, -, -, -, -, -, e0, e1, e2, -⟩ := idx_facts t
  match a with
  | ⟨0, _⟩ => show win1_5.index t (0 : Fin 3) * 2 + 1 * l.val = l.val; rw [e0]; omega
  | ⟨1, _⟩ => show win1_5.index t (1 : Fin 3) * 5000 + 1 * n.val = t.val * 5000 + n.val; rw [e1]; omega
  | ⟨2, _⟩ => show win1_5.index t (2 : Fin 3) * 1 + 1 * u.val = u.val; rw [e2]; omega

/-- WHAT POINT t WRITES BACK is block t of the node gates of the arrays as the region finds them. -/
theorem flushed_eq (c : Dev nD) (t : Fin cfg1.N) :
    (dat1 (F := Ideal) V c).flushed 6 t = ((cfg1.win 6).blk t).view.read (Elt Ideal)
      (nodeGates (N := 50000) (V c main_v44) (V c main_arg7) (V c main_arg8) (V c main_arg9) (V c main_arg10) (V c main_arg12)) := by
  show (cfg1.win 6).cut (grid1.coords t) ((dat1 V c).after 6 t) = _
  rw [after1_6, block_eq]
  funext y
  revert y
  show ∀ y : S2x5000x1.Idx, _
  intro y
  obtain ⟨l, n, u, rfl⟩ : ∃ (l : Fin 2) (n : Fin 5000) (u : Fin 1), y = ix3 l n u := ⟨y 0, y 1, y 2, eq_ix3 y⟩
  obtain rfl : u = 0 := Fin.fin_one_eq_zero u
  have ht : t.val < 10 := lt_of_lt_of_eq t.isLt N_1
  have hn : t.val * 5000 + n.val < 50000 := by have := n.isLt; omega
  have hemb : ((cfg1.win 6).blk t).view.emb (ix3 l n (0 : Fin 1)) = ix3 l (⟨t.val * 5000 + n.val, hn⟩ : Fin 50000) (0 : Fin 1) := by
    obtain ⟨-, -, -, -, -, -, -, -, -, -, -, -, -, -, -, -, e0, e1, e2⟩ := idx_facts t
    refine funext fun a => Fin.ext ?_
    match a with
    | ⟨0, _⟩ => show win1_6.index t (0 : Fin 3) * 2 + 1 * l.val = l.val; rw [e0]; omega
    | ⟨1, _⟩ => show win1_6.index t (1 : Fin 3) * 5000 + 1 * n.val = t.val * 5000 + n.val; rw [e1]; omega
    | ⟨2, _⟩ => show win1_6.index t (2 : Fin 3) * 1 + 1 * 0 = 0; rw [e2]
  show nodeGates (N := 5000) (iblk1 V c 0 t) (iblk1 V c 1 t) (iblk1 V c 2 t) (iblk1 V c 3 t) (iblk1 V c 4 t) (iblk1 V c 5 t) (ix3 l n (0 : Fin 1))
    = nodeGates (N := 50000) (V c main_v44) (V c main_arg7) (V c main_arg8) (V c main_arg9) (V c main_arg10) (V c main_arg12)
        (((cfg1.win 6).blk t).view.emb (ix3 l n (0 : Fin 1)))
  rw [hemb, nodeGates_apply, nodeGates_apply]
  unfold nodeGateAt
  exact gate_congr (fun j => read_X V c t l n j hn) (fun j k => read_W1 V c t l j k) (fun k => read_b1 V c t l k)
    (fun k => read_W2 V c t l k (0 : Fin 1)) (read_b2 V c t l (0 : Fin 1)) (read_nz V c t l n (0 : Fin 1) hn)

/-- An index of the output array is in point t's block iff each coordinate is in the block's range on its axis. -/
theorem mem_blk (t : Fin cfg1.N) (i : S2x50000x1.Idx) :
    i ∈ ((cfg1.win 6).blk t).view.set ↔ ∀ a : Fin 3, win1_6.index t a * S2x5000x1.size a ≤ (i a).val
      ∧ (i a).val < win1_6.index t a * S2x5000x1.size a + S2x5000x1.size a := by
  show i ∈ ((View.whole main_v45).slice (win1_6.rect t)).set ↔ _
  rw [View.set_slice_whole, Rect.mem_set_unit]
  exact Iff.rfl

/-- The 10 blocks of 5000 rows tile the 50000 rows: row n is in the block of point n / 5000. -/
theorem cover (i : S2x50000x1.Idx) :
    ∃ t : Fin cfg1.N, (cfg1.win 6).flush t = true ∧ i ∈ ((cfg1.win 6).blk t).view.set := by
  have hi0 : (i 0).val < 2 := (i 0).isLt
  have hi1 : (i 1).val < 50000 := (i 1).isLt
  have hi2 : (i 2).val < 1 := (i 2).isLt
  have hN : cfg1.N = 10 := N_1
  have hlt : (i 1).val / 5000 < cfg1.N := by rw [hN]; omega
  obtain ⟨-, -, -, -, -, -, -, -, -, -, -, -, -, -, -, -, e0, e1, e2⟩ := idx_facts ⟨(i 1).val / 5000, hlt⟩
  have e1' : win1_6.index ⟨(i 1).val / 5000, hlt⟩ (1 : Fin 3) = (i 1).val / 5000 := e1
  refine ⟨⟨(i 1).val / 5000, hlt⟩, flush1_6 _, ?_⟩
  rw [mem_blk]
  intro a
  match a with
  | ⟨0, _⟩ =>
    show win1_6.index ⟨(i 1).val / 5000, hlt⟩ (0 : Fin 3) * 2 ≤ (i 0).val
      ∧ (i 0).val < win1_6.index ⟨(i 1).val / 5000, hlt⟩ (0 : Fin 3) * 2 + 2
    rw [e0]; omega
  | ⟨1, _⟩ =>
    show win1_6.index ⟨(i 1).val / 5000, hlt⟩ (1 : Fin 3) * 5000 ≤ (i 1).val
      ∧ (i 1).val < win1_6.index ⟨(i 1).val / 5000, hlt⟩ (1 : Fin 3) * 5000 + 5000
    rw [e1']; omega
  | ⟨2, _⟩ =>
    show win1_6.index ⟨(i 1).val / 5000, hlt⟩ (2 : Fin 3) * 1 ≤ (i 2).val
      ∧ (i 2).val < win1_6.index ⟨(i 1).val / 5000, hlt⟩ (2 : Fin 3) * 1 + 1
    rw [e2]; omega

/-- THE OUTPUT ARRAY after the region: the node gates of the arrays as the region finds them. -/
theorem final (c : Dev nD) :
    (dat1 (F := Ideal) V c).arrAt 6 cfg1.N
      = nodeGates (N := 50000) (V c main_v44) (V c main_arg7) (V c main_arg8) (V c main_arg9) (V c main_arg10) (V c main_arg12) :=
  (dat1 (F := Ideal) V c).arrAt_eq_of_cover 6 _ (fun t _ => flushed_eq V c t) cover

end

end Cert.KernelIdeal.NodeValue

end
-- ==== Proof.KernelLeaves.lean ====
/-
  The buffer contents at the segment boundaries of the idealized kernel, where the later segments read them.

  No host operation and no region writes an argument, so at every boundary an argument's buffer holds what was
  launched. The edge-gate region leaves in its output array the edge gates of the concatenated edge features and the
  arguments; the host operations between the regions do not touch that array, and the node-gate region leaves beside it
  the node gates of the stacked node states and the arguments.
-/
import proofs.«175160_j75557064671961_1_alg».proof.Proof.EdgeValue
import proofs.«175160_j75557064671961_1_alg».proof.Proof.NodeValue

set_option maxRecDepth 16384

noncomputable section

namespace Cert.KernelIdeal.Leaves

open Cert.KernelIdeal Cert.KernelIdeal.Gen Cert.Gate
open Idealize.ShloMosaic Idealize.ShloMosaic.TcCoe Idealize.SL.Sem

variable (m : (ℓ : Loc nD τ sig) → Buf (Elt Ideal) ℓ) (ρ : Dev nD → PrngReg)

/-- No operation of the named stretch writes the buffer: each operation's written buffer is another one. -/
local macro "not_written " ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The arguments at the first region's entry -/

theorem V1_arg3 (c : Dev nD) : V1 m ρ c main_arg3 = m ((c : Thread nD τ).loc main_arg3) :=
  StableHlo.after_of_forall_not_mem (b := Proc.devRef .tc main_arg3) _ _ (by not_written hostOps0)

theorem V1_arg4 (c : Dev nD) : V1 m ρ c main_arg4 = m ((c : Thread nD τ).loc main_arg4) :=
  StableHlo.after_of_forall_not_mem (b := Proc.devRef .tc main_arg4) _ _ (by not_written hostOps0)

theorem V1_arg5 (c : Dev nD) : V1 m ρ c main_arg5 = m ((c : Thread nD τ).loc main_arg5) :=
  StableHlo.after_of_forall_not_mem (b := Proc.devRef .tc main_arg5) _ _ (by not_written hostOps0)

theorem V1_arg6 (c : Dev nD) : V1 m ρ c main_arg6 = m ((c : Thread nD τ).loc main_arg6) :=
  StableHlo.after_of_forall_not_mem (b := Proc.devRef .tc main_arg6) _ _ (by not_written hostOps0)

theorem V1_arg11 (c : Dev nD) : V1 m ρ c main_arg11 = m ((c : Thread nD τ).loc main_arg11) :=
  StableHlo.after_of_forall_not_mem (b := Proc.devRef .tc main_arg11) _ _ (by not_written hostOps0)

/-! ## The arguments at the first region's exit, for the host operations between the regions -/

theorem W2_arg0 (c : Dev nD) : W2 m ρ c (Proc.devRef .tc main_arg0) = m ((c : Thread nD τ).loc main_arg0) :=
  (W2_of_ne m ρ c main_arg0 (by decide)).trans
    (StableHlo.after_of_forall_not_mem (b := Proc.devRef .tc main_arg0) _ _ (by not_written hostOps0))

theorem W2_arg1 (c : Dev nD) : W2 m ρ c (Proc.devRef .tc main_arg1) = m ((c : Thread nD τ).loc main_arg1) :=
  (W2_of_ne m ρ c main_arg1 (by decide)).trans
    (StableHlo.after_of_forall_not_mem (b := Proc.devRef .tc main_arg1) _ _ (by not_written hostOps0))

theorem W2_arg13 (c : Dev nD) : W2 m ρ c (Proc.devRef .tc main_arg13) = m ((c : Thread nD τ).loc main_arg13) :=
  (W2_of_ne m ρ c main_arg13 (by decide)).trans
    (StableHlo.after_of_forall_not_mem (b := Proc.devRef .tc main_arg13) _ _ (by not_written hostOps0))

theorem W2_arg14 (c : Dev nD) : W2 m ρ c (Proc.devRef .tc main_arg14) = m ((c : Thread nD τ).loc main_arg14) :=
  (W2_of_ne m ρ c main_arg14 (by decide)).trans
    (StableHlo.after_of_forall_not_mem (b := Proc.devRef .tc main_arg14) _ _ (by not_written hostOps0))

/-! ## The arguments at the second region's entry -/

theorem V3_arg7 (c : Dev nD) : V3 m ρ c main_arg7 = m ((c : Thread nD τ).loc main_arg7) :=
  (StableHlo.after_of_forall_not_mem (b := Proc.devRef .tc main_arg7) _ _ (by not_written hostOps1)).trans
    ((W2_of_ne m ρ c main_arg7 (by decide)).trans
      (StableHlo.after_of_forall_not_mem (b := Proc.devRef .tc main_arg7) _ _ (by not_written hostOps0)))

theorem V3_arg8 (c : Dev nD) : V3 m ρ c main_arg8 = m ((c : Thread nD τ).loc main_arg8) :=
  (StableHlo.after_of_forall_not_mem (b := Proc.devRef .tc main_arg8) _ _ (by not_written hostOps1)).trans
    ((W2_of_ne m ρ c main_arg8 (by decide)).trans
      (StableHlo.after_of_forall_not_mem (b := Proc.devRef .tc main_arg8) _ _ (by not_written hostOps0)))

theorem V3_arg9 (c : Dev nD) : V3 m ρ c main_arg9 = m ((c : Thread nD τ).loc main_arg9) :=
  (StableHlo.after_of_forall_not_mem (b := Proc.devRef .tc main_arg9) _ _ (by not_written hostOps1)).trans
    ((W2_of_ne m ρ c main_arg9 (by decide)).trans
      (StableHlo.after_of_forall_not_mem (b := Proc.devRef .tc main_arg9) _ _ (by not_written hostOps0)))

theorem V3_arg10 (c : Dev nD) : V3 m ρ c main_arg10 = m ((c : Thread nD τ).loc main_arg10) :=
  (StableHlo.after_of_forall_not_mem (b := Proc.devRef .tc main_arg10) _ _ (by not_written hostOps1)).trans
    ((W2_of_ne m ρ c main_arg10 (by decide)).trans
      (StableHlo.after_of_forall_not_mem (b := Proc.devRef .tc main_arg10) _ _ (by not_written hostOps0)))

theorem V3_arg12 (c : Dev nD) : V3 m ρ c main_arg12 = m ((c : Thread nD τ).loc main_arg12) :=
  (StableHlo.after_of_forall_not_mem (b := Proc.devRef .tc main_arg12) _ _ (by not_written hostOps1)).trans
    ((W2_of_ne m ρ c main_arg12 (by decide)).trans
      (StableHlo.after_of_forall_not_mem (b := Proc.devRef .tc main_arg12) _ _ (by not_written hostOps0)))

/-! ## The arguments at the second region's exit, for the host operations after it -/

theorem W4_arg0 (c : Dev nD) : W4 m ρ c (Proc.devRef .tc main_arg0) = m ((c : Thread nD τ).loc main_arg0) :=
  (W4_of_ne m ρ c main_arg0 (by decide)).trans
    ((StableHlo.after_of_forall_not_mem (b := Proc.devRef .tc main_arg0) _ _ (by not_written hostOps1)).trans
      ((W2_of_ne m ρ c main_arg0 (by decide)).trans
        (StableHlo.after_of_forall_not_mem (b := Proc.devRef .tc main_arg0) _ _ (by not_written hostOps0))))

theorem W4_arg1 (c : Dev nD) : W4 m ρ c (Proc.devRef .tc main_arg1) = m ((c : Thread nD τ).loc main_arg1) :=
  (W4_of_ne m ρ c main_arg1 (by decide)).trans
    ((StableHlo.after_of_forall_not_mem (b := Proc.devRef .tc main_arg1) _ _ (by not_written hostOps1)).trans
      ((W2_of_ne m ρ c main_arg1 (by decide)).trans
        (StableHlo.after_of_forall_not_mem (b := Proc.devRef .tc main_arg1) _ _ (by not_written hostOps0))))

theorem W4_arg2 (c : Dev nD) : W4 m ρ c (Proc.devRef .tc main_arg2) = m ((c : Thread nD τ).loc main_arg2) :=
  (W4_of_ne m ρ c main_arg2 (by decide)).trans
    ((StableHlo.after_of_forall_not_mem (b := Proc.devRef .tc main_arg2) _ _ (by not_written hostOps1)).trans
      ((W2_of_ne m ρ c main_arg2 (by decide)).trans
        (StableHlo.after_of_forall_not_mem (b := Proc.devRef .tc main_arg2) _ _ (by not_written hostOps0))))

theorem W4_arg13 (c : Dev nD) : W4 m ρ c (Proc.devRef .tc main_arg13) = m ((c : Thread nD τ).loc main_arg13) :=
  (W4_of_ne m ρ c main_arg13 (by decide)).trans
    ((StableHlo.after_of_forall_not_mem (b := Proc.devRef .tc main_arg13) _ _ (by not_written hostOps1)).trans
      ((W2_of_ne m ρ c main_arg13 (by decide)).trans
        (StableHlo.after_of_forall_not_mem (b := Proc.devRef .tc main_arg13) _ _ (by not_written hostOps0))))

theorem W4_arg14 (c : Dev nD) : W4 m ρ c (Proc.devRef .tc main_arg14) = m ((c : Thread nD τ).loc main_arg14) :=
  (W4_of_ne m ρ c main_arg14 (by decide)).trans
    ((StableHlo.after_of_forall_not_mem (b := Proc.devRef .tc main_arg14) _ _ (by not_written hostOps1)).trans
      ((W2_of_ne m ρ c main_arg14 (by decide)).trans
        (StableHlo.after_of_forall_not_mem (b := Proc.devRef .tc main_arg14) _ _ (by not_written hostOps0))))

theorem W4_arg15 (c : Dev nD) : W4 m ρ c (Proc.devRef .tc main_arg15) = m ((c : Thread nD τ).loc main_arg15) :=
  (W4_of_ne m ρ c main_arg15 (by decide)).trans
    ((StableHlo.after_of_forall_not_mem (b := Proc.devRef .tc main_arg15) _ _ (by not_written hostOps1)).trans
      ((W2_of_ne m ρ c main_arg15 (by decide)).trans
        (StableHlo.after_of_forall_not_mem (b := Proc.devRef .tc main_arg15) _ _ (by not_written hostOps0))))

theorem W4_arg16 (c : Dev nD) : W4 m ρ c (Proc.devRef .tc main_arg16) = m ((c : Thread nD τ).loc main_arg16) :=
  (W4_of_ne m ρ c main_arg16 (by decide)).trans
    ((StableHlo.after_of_forall_not_mem (b := Proc.devRef .tc main_arg16) _ _ (by not_written hostOps1)).trans
      ((W2_of_ne m ρ c main_arg16 (by decide)).trans
        (StableHlo.after_of_forall_not_mem (b := Proc.devRef .tc main_arg16) _ _ (by not_written hostOps0))))

/-! ## The two regions' outputs at the second region's exit -/

/-- The edge-gate array, as the host operations after the second region find it. -/
theorem W4_edge (c : Dev nD) :
    W4 m ρ c (Proc.devRef .tc main_v15)
      = edgeGates (E := 800000) (V1 m ρ c main_v14) (m ((c : Thread nD τ).loc main_arg3)) (m ((c : Thread nD τ).loc main_arg4))
          (m ((c : Thread nD τ).loc main_arg5)) (m ((c : Thread nD τ).loc main_arg6)) (m ((c : Thread nD τ).loc main_arg11)) := by
  refine (W4_of_ne m ρ c main_v15 (by decide)).trans ?_
  refine (StableHlo.after_of_forall_not_mem (b := Proc.devRef .tc main_v15) _ _ (by not_written hostOps1)).trans ?_
  refine (W2_arr m ρ c 6).trans ?_
  rw [EdgeValue.final (V1 m ρ) c, V1_arg3, V1_arg4, V1_arg5, V1_arg6, V1_arg11]

/-- The node-gate array, as the host operations after the second region find it. -/
theorem W4_node (c : Dev nD) :
    W4 m ρ c (Proc.devRef .tc main_v45)
      = nodeGates (N := 50000) (V3 m ρ c main_v44) (m ((c : Thread nD τ).loc main_arg7)) (m ((c : Thread nD τ).loc main_arg8))
          (m ((c : Thread nD τ).loc main_arg9)) (m ((c : Thread nD τ).loc main_arg10)) (m ((c : Thread nD τ).loc main_arg12)) := by
  refine (W4_arr m ρ c 6).trans ?_
  rw [NodeValue.final (V3 m ρ) c, V3_arg7, V3_arg8, V3_arg9, V3_arg10, V3_arg12]

end Cert.KernelIdeal.Leaves

end
-- ==== Proof.LibStackSlice.lean ====
/-
  Two layout facts read at an index, for arbitrary extents and any element type.

  • A rank-3 array cut along its leading axis from o reads, at (j, a, b), the source at (o + j, a, b).
  • Two [a, b] arrays each given a leading unit axis and joined along it (a stack of two) read, at (0, n, k), the
    first at (n, k) and, at (1, n, k), the second at (n, k).
-/
import Idealize.ShloMosaic.Lib.ValueLayout
import Idealize.ShloMosaic.Lib.Pipeline.Value

namespace Cert.Gate

open Idealize.ShloMosaic Idealize.ShloMosaic.ValueIdx

variable {α : Type}

/-- A rank-3 array cut along its leading axis from `o` reads, at `(j, a, b)`, the source at `(k, a, b)` with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (a : Fin n1) (b : Fin n2) (k : Fin n0) (hk : k.val = o + j.val) :
    extractStridedSlice ⟨3, ![m, n1, n2]⟩ ![o, 0, 0] X h (ix3 j a b) = X (ix3 k a b) :=
  extractStridedSlice_apply _ _ _ _ _ (fun ax => by
    match ax with
    | ⟨0, _⟩ => exact hk
    | ⟨1, _⟩ => exact (Nat.zero_add _).symm
    | ⟨2, _⟩ => exact (Nat.zero_add _).symm)

/-- An [a, b] array given a leading unit axis reads, at (u, n, k), the array at (n, k). -/
theorem lead_apply {a b : ℕ} (X : (⟨2, ![a, b]⟩ : Shape).Idx → α)
    (h : (⟨2, ![a, b]⟩ : Shape).BroadcastsInDim ⟨3, ![1, a, b]⟩ ![1, 2]) (u : Fin 1) (n : Fin a) (k : Fin b) :
    broadcastInDim ⟨3, ![1, a, b]⟩ ![1, 2] h X (ix3 u n k) = X (ix2 n k) := by
  refine broadcastInDim_apply ![1, 2] h X (ix3 u n k) (ix2 n k) fun ax => ?_
  match ax with
  | ⟨0, _⟩ =>
    show n.val = if a = 1 then 0 else n.val
    split
    · have := n.isLt; omega
    · rfl
  | ⟨1, _⟩ =>
    show k.val = if b = 1 then 0 else k.val
    split
    · have := k.isLt; omega
    · rfl

/-- The first slab of a stack of two is the first array. -/
theorem stack_zero {a b : ℕ} (X1 X2 : (⟨2, ![a, b]⟩ : Shape).Idx → α)
    (h : (⟨2, ![a, b]⟩ : Shape).BroadcastsInDim ⟨3, ![1, a, b]⟩ ![1, 2])
    (hc : Shape.Concatenates [(⟨3, ![1, a, b]⟩ : Shape), ⟨3, ![1, a, b]⟩] ⟨3, ![2, a, b]⟩ (0 : Fin 3)) (n : Fin a) (k : Fin b) :
    concatenate ⟨3, ![2, a, b]⟩ (0 : Fin 3) [⟨⟨3, ![1, a, b]⟩, broadcastInDim ⟨3, ![1, a, b]⟩ ![1, 2] h X1⟩,
        ⟨⟨3, ![1, a, b]⟩, broadcastInDim ⟨3, ![1, a, b]⟩ ![1, 2] h X2⟩] hc (ix3 (0 : Fin 2) n k) = X1 (ix2 n k) := by
  refine (concatenate_pair_apply_left (t := ⟨3, ![2, a, b]⟩) (s₁ := ⟨3, ![1, a, b]⟩) (s₂ := ⟨3, ![1, a, b]⟩) (0 : Fin 3)
      (broadcastInDim ⟨3, ![1, a, b]⟩ ![1, 2] h X1) (broadcastInDim ⟨3, ![1, a, b]⟩ ![1, 2] h X2) hc (ix3 (0 : Fin 2) n k) rfl (ix3 (0 : Fin 1) n k) fun ax => ?_).trans
    (lead_apply X1 h 0 n k)
  match ax with
  | ⟨0, _⟩ => rfl
  | ⟨1, _⟩ => rfl
  | ⟨2, _⟩ => rfl

/-- The second slab of a stack of two is the second array. -/
theorem stack_one {a b : ℕ} (X1 X2 : (⟨2, ![a, b]⟩ : Shape).Idx → α)
    (h : (⟨2, ![a, b]⟩ : Shape).BroadcastsInDim ⟨3, ![1, a, b]⟩ ![1, 2])
    (hc : Shape.Concatenates [(⟨3, ![1, a, b]⟩ : Shape), ⟨3, ![1, a, b]⟩] ⟨3, ![2, a, b]⟩ (0 : Fin 3)) (n : Fin a) (k : Fin b) :
    concatenate ⟨3, ![2, a, b]⟩ (0 : Fin 3) [⟨⟨3, ![1, a, b]⟩, broadcastInDim ⟨3, ![1, a, b]⟩ ![1, 2] h X1⟩,
        ⟨⟨3, ![1, a, b]⟩, broadcastInDim ⟨3, ![1, a, b]⟩ ![1, 2] h X2⟩] hc (ix3 (1 : Fin 2) n k) = X2 (ix2 n k) := by
  refine (concatenate_pair_apply_right (t := ⟨3, ![2, a, b]⟩) (s₁ := ⟨3, ![1, a, b]⟩) (s₂ := ⟨3, ![1, a, b]⟩) (0 : Fin 3)
      (broadcastInDim ⟨3, ![1, a, b]⟩ ![1, 2] h X1) (broadcastInDim ⟨3, ![1, a, b]⟩ ![1, 2] h X2) hc (ix3 (1 : Fin 2) n k) rfl rfl (ix3 (0 : Fin 1) n k) (fun ax hne => ?_) rfl).trans
    (lead_apply X2 h 0 n k)
  match ax with
  | ⟨0, _⟩ => exact absurd rfl hne
  | ⟨1, _⟩ => rfl
  | ⟨2, _⟩ => rfl

end Cert.Gate
-- ==== Proof.RefMasks.lean ====
/-
  The reference's four masks, entry by entry.

  The reference computes each mask on the host: the l-th slab of each weight is cut out and reshaped, the hidden layer
  is a matrix product plus a bias under a maximum with zero, the logit a second product plus a bias, and the mask is
  1 / (1 + exp (-((noise + logit) / (1/2)))). Entry by entry that is the gate of the row: of row e of the concatenated
  edge features for the two edge masks, of row n of the node states after one and after two propagations for the two
  node masks.
-/
import proofs.«175160_j75557064671961_1_alg».proof.Proof.RefRead
import proofs.«175160_j75557064671961_1_alg».proof.Proof.LibGateLayers
import proofs.«175160_j75557064671961_1_alg».proof.Proof.LibStackSlice

set_option maxRecDepth 16384

noncomputable section

open scoped BigOperators

namespace Cert.ReferenceIdeal.Masks

open Cert.ReferenceIdeal Cert.ReferenceIdeal.Read Cert.Gate
open Idealize.ShloMosaic Idealize.ShloMosaic.ValueIdx

/-- Layer 0's edge mask, entry e: the gate of edge e under the first slab of the weights. -/
theorem edge0 (x0 : (⟨S50000x64, .f32⟩ : BufTy).Contents (Elt Ideal)) (x3 : (⟨S2x128x64, .f32⟩ : BufTy).Contents (Elt Ideal)) (x4 : (⟨S2x64, .f32⟩ : BufTy).Contents (Elt Ideal)) (x5 : (⟨S2x64x1, .f32⟩ : BufTy).Contents (Elt Ideal)) (x6 : (⟨S2x1, .f32⟩ : BufTy).Contents (Elt Ideal)) (x11 : (⟨S2x800000, .f32⟩ : BufTy).Contents (Elt Ideal)) (x13 x14 : (⟨S800000, .i32⟩ : BufTy).Contents (Elt Ideal)) (e : Fin 800000) :
    val_main_v57 (F := Ideal) x0 x3 x4 x5 x6 x11 x13 x14 (ix1 e)
      = edgeGateAt (E := 800000) (val_main_v14 (F := Ideal) x0 x13 x14) x3 x4 x5 x6 x11 (0 : Fin 2) e := by
  unfold val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_cst_5 val_main_cst_6 val_main_cst_7 val_main_call0_v0 val_main_call0_cst
  refine (shapeCast_a1_a_apply _ _ e).trans ?_
  refine (gate_host _ _ _ _ _ _ _ e).trans ?_
  unfold edgeGateAt gate
  refine congrArg Ideal.logistic (congrArg (fun z => Ideal.div z _) ?_)
  refine congrArg₂ (· + ·) ?_ (congrArg₂ (· + ·) (Finset.sum_congr rfl fun k _ => congrArg₂ (· * ·) ?_ ?_) ?_)
  · exact (bcast_a_a1_apply _ _ e (0 : Fin 1)).trans ((shapeCast_1a_a_apply _ _ e).trans
      (slice2_axis0_apply 0 x11 _ (0 : Fin 1) e (0 : Fin 2) rfl))
  · refine (hidden_host _ _ _ _ _ _ e k).trans ?_
    refine congrArg (fun z => max z 0) (congrArg₂ (· + ·) (Finset.sum_congr rfl fun j _ => congrArg₂ (· * ·) rfl ?_) ?_)
    · exact (shapeCast_1ab_ab_apply _ _ j k).trans (slice3_axis0_apply 0 x3 _ (0 : Fin 1) j k (0 : Fin 2) rfl)
    · exact (shapeCast_1a_a_apply _ _ k).trans (slice2_axis0_apply 0 x4 _ (0 : Fin 1) k (0 : Fin 2) rfl)
  · exact (shapeCast_1ab_ab_apply _ _ k (0 : Fin 1)).trans (slice3_axis0_apply 0 x5 _ (0 : Fin 1) k (0 : Fin 1) (0 : Fin 2) rfl)
  · exact (shapeCast_1a_a_apply _ _ (0 : Fin 1)).trans (slice2_axis0_apply 0 x6 _ (0 : Fin 1) (0 : Fin 1) (0 : Fin 2) rfl)

/-- Layer 1's edge mask, entry e: the gate of edge e under the second slab of the weights. -/
theorem edge1 (x0 : (⟨S50000x64, .f32⟩ : BufTy).Contents (Elt Ideal)) (x3 : (⟨S2x128x64, .f32⟩ : BufTy).Contents (Elt Ideal)) (x4 : (⟨S2x64, .f32⟩ : BufTy).Contents (Elt Ideal)) (x5 : (⟨S2x64x1, .f32⟩ : BufTy).Contents (Elt Ideal)) (x6 : (⟨S2x1, .f32⟩ : BufTy).Contents (Elt Ideal)) (x11 : (⟨S2x800000, .f32⟩ : BufTy).Contents (Elt Ideal)) (x13 x14 : (⟨S800000, .i32⟩ : BufTy).Contents (Elt Ideal)) (e : Fin 800000) :
    val_main_v128 (F := Ideal) x0 x3 x4 x5 x6 x11 x13 x14 (ix1 e)
      = edgeGateAt (E := 800000) (val_main_v14 (F := Ideal) x0 x13 x14) x3 x4 x5 x6 x11 (1 : Fin 2) e := by
  unfold val_main_v128 val_main_v127 val_main_v126 val_main_v125 val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_cst_14 val_main_cst_15 val_main_cst_16 val_main_call2_v0 val_main_call2_cst
  refine (shapeCast_a1_a_apply _ _ e).trans ?_
  refine (gate_host _ _ _ _ _ _ _ e).trans ?_
  unfold edgeGateAt gate
  refine congrArg Ideal.logistic (congrArg (fun z => Ideal.div z _) ?_)
  refine congrArg₂ (· + ·) ?_ (congrArg₂ (· + ·) (Finset.sum_congr rfl fun k _ => congrArg₂ (· * ·) ?_ ?_) ?_)
  · exact (bcast_a_a1_apply _ _ e (0 : Fin 1)).trans ((shapeCast_1a_a_apply _ _ e).trans
      (slice2_axis0_apply 1 x11 _ (0 : Fin 1) e (1 : Fin 2) rfl))
  · refine (hidden_host _ _ _ _ _ _ e k).trans ?_
    refine congrArg (fun z => max z 0) (congrArg₂ (· + ·) (Finset.sum_congr rfl fun j _ => congrArg₂ (· * ·) rfl ?_) ?_)
    · exact (shapeCast_1ab_ab_apply _ _ j k).trans (slice3_axis0_apply 1 x3 _ (0 : Fin 1) j k (1 : Fin 2) rfl)
    · exact (shapeCast_1a_a_apply _ _ k).trans (slice2_axis0_apply 1 x4 _ (0 : Fin 1) k (1 : Fin 2) rfl)
  · exact (shapeCast_1ab_ab_apply _ _ k (0 : Fin 1)).trans (slice3_axis0_apply 1 x5 _ (0 : Fin 1) k (0 : Fin 1) (1 : Fin 2) rfl)
  · exact (shapeCast_1a_a_apply _ _ (0 : Fin 1)).trans (slice2_axis0_apply 1 x6 _ (0 : Fin 1) (0 : Fin 1) (1 : Fin 2) rfl)

/-- Layer 0's node mask, entry (n, 0): the gate of row n of the node states after 1 propagation, under the
    first slab of the weights. -/
theorem node0 (x0 : (⟨S50000x64, .f32⟩ : BufTy).Contents (Elt Ideal)) (x1 : (⟨S800000, .f32⟩ : BufTy).Contents (Elt Ideal)) (x7 : (⟨S2x64x64, .f32⟩ : BufTy).Contents (Elt Ideal)) (x8 : (⟨S2x64, .f32⟩ : BufTy).Contents (Elt Ideal)) (x9 : (⟨S2x64x1, .f32⟩ : BufTy).Contents (Elt Ideal)) (x10 : (⟨S2x1, .f32⟩ : BufTy).Contents (Elt Ideal)) (x12 : (⟨S2x50000x1, .f32⟩ : BufTy).Contents (Elt Ideal)) (x13 x14 : (⟨S800000, .i32⟩ : BufTy).Contents (Elt Ideal)) (n : Fin 50000) :
    val_main_v85 (F := Ideal) x0 x1 x7 x8 x9 x10 x12 x13 x14 (ix2 n (0 : Fin 1))
      = gate (fun j : Fin 64 => val_main_v27 (F := Ideal) x0 x1 x13 x14 (ix2 n j))
          (fun (j : Fin 64) (k : Fin 64) => x7 (ix3 (0 : Fin 2) j k)) (fun k : Fin 64 => x8 (ix2 (0 : Fin 2) k))
          (fun k : Fin 64 => x9 (ix3 (0 : Fin 2) k (0 : Fin 1))) (x10 (ix2 (0 : Fin 2) (0 : Fin 1)))
          (x12 (ix3 (0 : Fin 2) n (0 : Fin 1))) := by
  unfold val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_cst_8 val_main_cst_9 val_main_cst_10 val_main_call1_v0 val_main_call1_cst
  refine (gate_host _ _ _ _ _ _ _ n).trans ?_
  unfold gate
  refine congrArg Ideal.logistic (congrArg (fun z => Ideal.div z _) ?_)
  refine congrArg₂ (· + ·) ?_ (congrArg₂ (· + ·) (Finset.sum_congr rfl fun k _ => congrArg₂ (· * ·) ?_ ?_) ?_)
  · exact (shapeCast_1ab_ab_apply _ _ n (0 : Fin 1)).trans (slice3_axis0_apply 0 x12 _ (0 : Fin 1) n (0 : Fin 1) (0 : Fin 2) rfl)
  · refine (hidden_host _ _ _ _ _ _ n k).trans ?_
    refine congrArg (fun z => max z 0) (congrArg₂ (· + ·) (Finset.sum_congr rfl fun j _ => congrArg₂ (· * ·) rfl ?_) ?_)
    · exact (shapeCast_1ab_ab_apply _ _ j k).trans (slice3_axis0_apply 0 x7 _ (0 : Fin 1) j k (0 : Fin 2) rfl)
    · exact (shapeCast_1a_a_apply _ _ k).trans (slice2_axis0_apply 0 x8 _ (0 : Fin 1) k (0 : Fin 2) rfl)
  · exact (shapeCast_1ab_ab_apply _ _ k (0 : Fin 1)).trans (slice3_axis0_apply 0 x9 _ (0 : Fin 1) k (0 : Fin 1) (0 : Fin 2) rfl)
  · exact (shapeCast_1a_a_apply _ _ (0 : Fin 1)).trans (slice2_axis0_apply 0 x10 _ (0 : Fin 1) (0 : Fin 1) (0 : Fin 2) rfl)

/-- Layer 1's node mask, entry (n, 0): the gate of row n of the node states after 2 propagations, under the
    second slab of the weights. -/
theorem node1 (x0 : (⟨S50000x64, .f32⟩ : BufTy).Contents (Elt Ideal)) (x1 : (⟨S800000, .f32⟩ : BufTy).Contents (Elt Ideal)) (x7 : (⟨S2x64x64, .f32⟩ : BufTy).Contents (Elt Ideal)) (x8 : (⟨S2x64, .f32⟩ : BufTy).Contents (Elt Ideal)) (x9 : (⟨S2x64x1, .f32⟩ : BufTy).Contents (Elt Ideal)) (x10 : (⟨S2x1, .f32⟩ : BufTy).Contents (Elt Ideal)) (x12 : (⟨S2x50000x1, .f32⟩ : BufTy).Contents (Elt Ideal)) (x13 x14 : (⟨S800000, .i32⟩ : BufTy).Contents (Elt Ideal)) (n : Fin 50000) :
    val_main_v156 (F := Ideal) x0 x1 x7 x8 x9 x10 x12 x13 x14 (ix2 n (0 : Fin 1))
      = gate (fun j : Fin 64 => val_main_v98 (F := Ideal) x0 x1 x13 x14 (ix2 n j))
          (fun (j : Fin 64) (k : Fin 64) => x7 (ix3 (1 : Fin 2) j k)) (fun k : Fin 64 => x8 (ix2 (1 : Fin 2) k))
          (fun k : Fin 64 => x9 (ix3 (1 : Fin 2) k (0 : Fin 1))) (x10 (ix2 (1 : Fin 2) (0 : Fin 1)))
          (x12 (ix3 (1 : Fin 2) n (0 : Fin 1))) := by
  unfold val_main_v156 val_main_v155 val_main_v154 val_main_v153 val_main_v152 val_main_v151 val_main_v150 val_main_v149 val_main_v148 val_main_v147 val_main_v146 val_main_v145 val_main_v144 val_main_v143 val_main_v142 val_main_v141 val_main_v140 val_main_v139 val_main_v138 val_main_v137 val_main_v136 val_main_v135 val_main_v134 val_main_v133 val_main_v132 val_main_v131 val_main_v130 val_main_v129 val_main_cst_17 val_main_cst_18 val_main_cst_19 val_main_call3_v0 val_main_call3_cst
  refine (gate_host _ _ _ _ _ _ _ n).trans ?_
  unfold gate
  refine congrArg Ideal.logistic (congrArg (fun z => Ideal.div z _) ?_)
  refine congrArg₂ (· + ·) ?_ (congrArg₂ (· + ·) (Finset.sum_congr rfl fun k _ => congrArg₂ (· * ·) ?_ ?_) ?_)
  · exact (shapeCast_1ab_ab_apply _ _ n (0 : Fin 1)).trans (slice3_axis0_apply 1 x12 _ (0 : Fin 1) n (0 : Fin 1) (1 : Fin 2) rfl)
  · refine (hidden_host _ _ _ _ _ _ n k).trans ?_
    refine congrArg (fun z => max z 0) (congrArg₂ (· + ·) (Finset.sum_congr rfl fun j _ => congrArg₂ (· * ·) rfl ?_) ?_)
    · exact (shapeCast_1ab_ab_apply _ _ j k).trans (slice3_axis0_apply 1 x7 _ (0 : Fin 1) j k (1 : Fin 2) rfl)
    · exact (shapeCast_1a_a_apply _ _ k).trans (slice2_axis0_apply 1 x8 _ (0 : Fin 1) k (1 : Fin 2) rfl)
  · exact (shapeCast_1ab_ab_apply _ _ k (0 : Fin 1)).trans (slice3_axis0_apply 1 x9 _ (0 : Fin 1) k (0 : Fin 1) (1 : Fin 2) rfl)
  · exact (shapeCast_1a_a_apply _ _ (0 : Fin 1)).trans (slice2_axis0_apply 1 x10 _ (0 : Fin 1) (0 : Fin 1) (1 : Fin 2) rfl)

end Cert.ReferenceIdeal.Masks

end
-- ==== Proof.Bridge.lean ====
/-
  The idealized kernel's results are the reference's stages of the same arguments.

  The kernel computes the edge features, the two edge masks (region 0), the node states after one and two
  propagations, the two node masks (region 1), and then the two gated propagations, all on the host but for the two
  regions. The reference computes the same host operations, with the masks computed on the host too. So:
  • the concatenated edge features, and the stack of the node states after one and two propagations, are the same
    host terms in both programs;
  • layer l of the edge-gate array is the reference's l-th edge mask, and slab l of the node-gate array its l-th node
    mask, entry by entry: both are the gate of the same row;
  • after the second region the two programs apply the same host operations to the arguments and these masks.
-/
import proofs.«175160_j75557064671961_1_alg».proof.Proof.KernelLeaves
import proofs.«175160_j75557064671961_1_alg».proof.Proof.RefMasks

set_option maxRecDepth 16384

noncomputable section

namespace Cert.Bridge

open Cert.KernelIdeal Cert.KernelIdeal.Gen Cert.KernelIdeal.Leaves Cert.Gate
open Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg)

/-! ## The operands of the two regions -/

set_option maxHeartbeats 4000000 in
/-- The concatenated edge features, as the first region finds them, are the reference's. -/
theorem feat_eq (c : Dev nD) :
    V1 m ρ c main_v14 = Cert.ReferenceIdeal.Read.val_main_v14 (F := Ideal) (m ((c : Thread nD τ).loc main_arg0)) (m ((c : Thread nD τ).loc main_arg13)) (m ((c : Thread nD τ).loc main_arg14)) := by
  show StableHlo.after hostOps0 (W0 m ρ c) (Proc.devRef .tc main_v14) = _
  after_results_simp
  unfold Cert.ReferenceIdeal.Read.val_main_v14 Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_c_2 Cert.ReferenceIdeal.Read.val_main_v8 Cert.ReferenceIdeal.Read.val_main_v7 Cert.ReferenceIdeal.Read.val_main_c_1 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_c_0 Cert.ReferenceIdeal.Read.val_main_v1 Cert.ReferenceIdeal.Read.val_main_v0 Cert.ReferenceIdeal.Read.val_main_c
  rfl

set_option maxHeartbeats 4000000 in
/-- The node states after one propagation, as the second region's entry holds them, are the reference's. -/
theorem cur1_eq (c : Dev nD) :
    V3 m ρ c main_v28 = Cert.ReferenceIdeal.Read.val_main_v27 (F := Ideal) (m ((c : Thread nD τ).loc main_arg0)) (m ((c : Thread nD τ).loc main_arg1)) (m ((c : Thread nD τ).loc main_arg13)) (m ((c : Thread nD τ).loc main_arg14)) := by
  show StableHlo.after hostOps1 (W2 m ρ c) (Proc.devRef .tc main_v28) = _
  after_results_simp
  rw [W2_arg0, W2_arg1, W2_arg13, W2_arg14]
  unfold Cert.ReferenceIdeal.Read.val_main_v27 Cert.ReferenceIdeal.Read.val_main_v26 Cert.ReferenceIdeal.Read.val_main_v25 Cert.ReferenceIdeal.Read.val_main_cst Cert.ReferenceIdeal.Read.val_main_v24 Cert.ReferenceIdeal.Read.val_main_v23 Cert.ReferenceIdeal.Read.val_main_v22 Cert.ReferenceIdeal.Read.val_main_v21 Cert.ReferenceIdeal.Read.val_main_v20 Cert.ReferenceIdeal.Read.val_main_v19 Cert.ReferenceIdeal.Read.val_main_v18 Cert.ReferenceIdeal.Read.val_main_c_4 Cert.ReferenceIdeal.Read.val_main_v17 Cert.ReferenceIdeal.Read.val_main_v16 Cert.ReferenceIdeal.Read.val_main_c_3 Cert.ReferenceIdeal.Read.val_main_v15
  rfl

set_option maxHeartbeats 4000000 in
/-- The node states after two propagations, as the second region's entry holds them, are the reference's. -/
theorem cur2_eq (c : Dev nD) :
    V3 m ρ c main_v41 = Cert.ReferenceIdeal.Read.val_main_v98 (F := Ideal) (m ((c : Thread nD τ).loc main_arg0)) (m ((c : Thread nD τ).loc main_arg1)) (m ((c : Thread nD τ).loc main_arg13)) (m ((c : Thread nD τ).loc main_arg14)) := by
  show StableHlo.after hostOps1 (W2 m ρ c) (Proc.devRef .tc main_v41) = _
  after_results_simp
  rw [W2_arg0, W2_arg1, W2_arg13, W2_arg14]
  unfold Cert.ReferenceIdeal.Read.val_main_v98 Cert.ReferenceIdeal.Read.val_main_v97 Cert.ReferenceIdeal.Read.val_main_v96 Cert.ReferenceIdeal.Read.val_main_cst_13 Cert.ReferenceIdeal.Read.val_main_v95 Cert.ReferenceIdeal.Read.val_main_v94 Cert.ReferenceIdeal.Read.val_main_v93 Cert.ReferenceIdeal.Read.val_main_v92 Cert.ReferenceIdeal.Read.val_main_v91 Cert.ReferenceIdeal.Read.val_main_v90 Cert.ReferenceIdeal.Read.val_main_v89 Cert.ReferenceIdeal.Read.val_main_c_12 Cert.ReferenceIdeal.Read.val_main_v88 Cert.ReferenceIdeal.Read.val_main_v87 Cert.ReferenceIdeal.Read.val_main_c_11 Cert.ReferenceIdeal.Read.val_main_v86 Cert.ReferenceIdeal.Read.val_main_v27 Cert.ReferenceIdeal.Read.val_main_v26 Cert.ReferenceIdeal.Read.val_main_v25 Cert.ReferenceIdeal.Read.val_main_cst Cert.ReferenceIdeal.Read.val_main_v24 Cert.ReferenceIdeal.Read.val_main_v23 Cert.ReferenceIdeal.Read.val_main_v22 Cert.ReferenceIdeal.Read.val_main_v21 Cert.ReferenceIdeal.Read.val_main_v20 Cert.ReferenceIdeal.Read.val_main_v19 Cert.ReferenceIdeal.Read.val_main_v18 Cert.ReferenceIdeal.Read.val_main_c_4 Cert.ReferenceIdeal.Read.val_main_v17 Cert.ReferenceIdeal.Read.val_main_v16 Cert.ReferenceIdeal.Read.val_main_c_3 Cert.ReferenceIdeal.Read.val_main_v15
  rfl

set_option maxHeartbeats 4000000 in
/-- The stacked node states, as the second region finds them: the states after one propagation over those after two. -/
theorem stack_shape (c : Dev nD) :
    V3 m ρ c main_v44
      = concatenate S2x50000x64 0 [⟨S1x50000x64, broadcastInDim S1x50000x64 ![1, 2] bcast_S50000x64_S1x50000x64_1_2
            (V3 m ρ c main_v28)⟩,
          ⟨S1x50000x64, broadcastInDim S1x50000x64 ![1, 2] bcast_S50000x64_S1x50000x64_1_2
            (V3 m ρ c main_v41)⟩] concatenates_S1x50000x64_S1x50000x64_S2x50000x64_d0 := by
  show StableHlo.after hostOps1 (W2 m ρ c) (Proc.devRef .tc main_v44) = _
  after_results_simp
  rfl

/-- The same with the reference's stages in the two slabs. -/
theorem stack_eq (c : Dev nD) :
    V3 m ρ c main_v44
      = concatenate S2x50000x64 0 [⟨S1x50000x64, broadcastInDim S1x50000x64 ![1, 2] bcast_S50000x64_S1x50000x64_1_2
            (Cert.ReferenceIdeal.Read.val_main_v27 (F := Ideal) (m ((c : Thread nD τ).loc main_arg0)) (m ((c : Thread nD τ).loc main_arg1)) (m ((c : Thread nD τ).loc main_arg13)) (m ((c : Thread nD τ).loc main_arg14)))⟩,
          ⟨S1x50000x64, broadcastInDim S1x50000x64 ![1, 2] bcast_S50000x64_S1x50000x64_1_2
            (Cert.ReferenceIdeal.Read.val_main_v98 (F := Ideal) (m ((c : Thread nD τ).loc main_arg0)) (m ((c : Thread nD τ).loc main_arg1)) (m ((c : Thread nD τ).loc main_arg13)) (m ((c : Thread nD τ).loc main_arg14)))⟩] concatenates_S1x50000x64_S1x50000x64_S2x50000x64_d0 := by
  rw [stack_shape, cur1_eq, cur2_eq]

/-! ## The masks -/

/-- The reference's first edge mask is layer 0 of the edge-gate array. -/
theorem edge_mask0 (c : Dev nD) :
    Cert.ReferenceIdeal.Read.val_main_v57 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg13)) (m ((c : Thread nD τ).loc main_arg14))
      = shapeCast S800000 (extractStridedSlice S1x800000 ![0, 0]
          (edgeGates (E := 800000) (V1 m ρ c main_v14) (m ((c : Thread nD τ).loc main_arg3)) (m ((c : Thread nD τ).loc main_arg4)) (m ((c : Thread nD τ).loc main_arg5)) (m ((c : Thread nD τ).loc main_arg6)) (m ((c : Thread nD τ).loc main_arg11)))
          slices_S2x800000_S1x800000_0_0) shapeCasts_S1x800000_S800000 := by
  funext i
  obtain ⟨e, rfl⟩ : ∃ e : Fin 800000, i = ix1 e := ⟨i 0, eq_ix1 i⟩
  rw [Cert.ReferenceIdeal.Masks.edge0]
  refine Eq.symm ((shapeCast_1a_a_apply _ _ e).trans ((slice2_axis0_apply 0 _ _ (0 : Fin 1) e (0 : Fin 2) rfl).trans ?_))
  rw [edgeGates_apply, feat_eq]

/-- The reference's second edge mask is layer 1 of the edge-gate array. -/
theorem edge_mask1 (c : Dev nD) :
    Cert.ReferenceIdeal.Read.val_main_v128 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg13)) (m ((c : Thread nD τ).loc main_arg14))
      = shapeCast S800000 (extractStridedSlice S1x800000 ![1, 0]
          (edgeGates (E := 800000) (V1 m ρ c main_v14) (m ((c : Thread nD τ).loc main_arg3)) (m ((c : Thread nD τ).loc main_arg4)) (m ((c : Thread nD τ).loc main_arg5)) (m ((c : Thread nD τ).loc main_arg6)) (m ((c : Thread nD τ).loc main_arg11)))
          slices_S2x800000_S1x800000_1_0) shapeCasts_S1x800000_S800000 := by
  funext i
  obtain ⟨e, rfl⟩ : ∃ e : Fin 800000, i = ix1 e := ⟨i 0, eq_ix1 i⟩
  rw [Cert.ReferenceIdeal.Masks.edge1]
  refine Eq.symm ((shapeCast_1a_a_apply _ _ e).trans ((slice2_axis0_apply 1 _ _ (0 : Fin 1) e (1 : Fin 2) rfl).trans ?_))
  rw [edgeGates_apply, feat_eq]

/-- The reference's first node mask is slab 0 of the node-gate array. -/
theorem node_mask0 (c : Dev nD) :
    Cert.ReferenceIdeal.Read.val_main_v85 (F := Ideal) (m ((c : Thread nD τ).loc main_arg0)) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg12)) (m ((c : Thread nD τ).loc main_arg13)) (m ((c : Thread nD τ).loc main_arg14))
      = shapeCast S50000x1 (extractStridedSlice S1x50000x1 ![0, 0, 0]
          (nodeGates (N := 50000) (V3 m ρ c main_v44) (m ((c : Thread nD τ).loc main_arg7)) (m ((c : Thread nD τ).loc main_arg8)) (m ((c : Thread nD τ).loc main_arg9)) (m ((c : Thread nD τ).loc main_arg10)) (m ((c : Thread nD τ).loc main_arg12)))
          slices_S2x50000x1_S1x50000x1_0_0_0) shapeCasts_S1x50000x1_S50000x1 := by
  funext i
  obtain ⟨n, u, rfl⟩ : ∃ (n : Fin 50000) (u : Fin 1), i = ix2 n u := ⟨i 0, i 1, eq_ix2 i⟩
  obtain rfl : u = 0 := Fin.fin_one_eq_zero u
  rw [Cert.ReferenceIdeal.Masks.node0]
  refine Eq.symm ((shapeCast_1ab_ab_apply _ _ n (0 : Fin 1)).trans
    ((slice3_axis0_apply 0 _ _ (0 : Fin 1) n (0 : Fin 1) (0 : Fin 2) rfl).trans ?_))
  rw [nodeGates_apply]
  unfold nodeGateAt
  refine gate_congr (fun j => ?_) (fun _ _ => rfl) (fun _ => rfl) (fun _ => rfl) rfl rfl
  rw [stack_eq]
  exact stack_zero _ _ _ _ n j

/-- The reference's second node mask is slab 1 of the node-gate array. -/
theorem node_mask1 (c : Dev nD) :
    Cert.ReferenceIdeal.Read.val_main_v156 (F := Ideal) (m ((c : Thread nD τ).loc main_arg0)) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg12)) (m ((c : Thread nD τ).loc main_arg13)) (m ((c : Thread nD τ).loc main_arg14))
      = shapeCast S50000x1 (extractStridedSlice S1x50000x1 ![1, 0, 0]
          (nodeGates (N := 50000) (V3 m ρ c main_v44) (m ((c : Thread nD τ).loc main_arg7)) (m ((c : Thread nD τ).loc main_arg8)) (m ((c : Thread nD τ).loc main_arg9)) (m ((c : Thread nD τ).loc main_arg10)) (m ((c : Thread nD τ).loc main_arg12)))
          slices_S2x50000x1_S1x50000x1_1_0_0) shapeCasts_S1x50000x1_S50000x1 := by
  funext i
  obtain ⟨n, u, rfl⟩ : ∃ (n : Fin 50000) (u : Fin 1), i = ix2 n u := ⟨i 0, i 1, eq_ix2 i⟩
  obtain rfl : u = 0 := Fin.fin_one_eq_zero u
  rw [Cert.ReferenceIdeal.Masks.node1]
  refine Eq.symm ((shapeCast_1ab_ab_apply _ _ n (0 : Fin 1)).trans
    ((slice3_axis0_apply 1 _ _ (0 : Fin 1) n (0 : Fin 1) (1 : Fin 2) rfl).trans ?_))
  rw [nodeGates_apply]
  unfold nodeGateAt
  refine gate_congr (fun j => ?_) (fun _ _ => rfl) (fun _ => rfl) (fun _ => rfl) rfl rfl
  rw [stack_eq]
  exact stack_one _ _ _ _ n j

end Cert.Bridge

end
-- ==== Proof.ResMask.lean ====
/-
  The last edge mask as the kernel returns it, and the constant zero it returns for the unused regulariser:
  the second layer of the edge-gate array, which is the reference's second edge mask.
-/
import proofs.«175160_j75557064671961_1_alg».proof.Proof.Bridge

set_option maxRecDepth 16384

noncomputable section

namespace Cert.Bridge

open Cert.KernelIdeal Cert.KernelIdeal.Gen Cert.KernelIdeal.Leaves Cert.Gate
open Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg)

set_option maxHeartbeats 40000000 in
/-- The returned mask: layer 1 of the edge-gate array, the reference's second edge mask. -/
theorem res_mask (c : Dev nD) :
    W5 m ρ c (Proc.devRef .tc main_v164) = Cert.ReferenceIdeal.Read.val_main_v128 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg13)) (m ((c : Thread nD τ).loc main_arg14)) := by
  show StableHlo.after hostOps2 (W4 m ρ c) (Proc.devRef .tc main_v164) = _
  after_results_simp
  rw [W4_edge, edge_mask1]
  rfl

set_option maxHeartbeats 40000000 in
/-- The returned constant zero. -/
theorem res_zero (c : Dev nD) :
    W5 m ρ c (Proc.devRef .tc main_cst_36) = constant (F := Ideal) S_ .f32 0x00000000#32 := by
  show StableHlo.after hostOps2 (W4 m ρ c) (Proc.devRef .tc main_cst_36) = _
  after_results_simp <;> rfl

end Cert.Bridge

end
-- ==== Proof.ResT.lean ====
/-
  The gated propagation's mean embedding as the kernel returns it: the host operations after the second region,
  applied to the arguments and the two layers of the edge-gate array, are the reference's applied to the arguments and
  its two edge masks.
-/
import proofs.«175160_j75557064671961_1_alg».proof.Proof.Bridge

set_option maxRecDepth 16384

noncomputable section

namespace Cert.Bridge

open Cert.KernelIdeal Cert.KernelIdeal.Gen Cert.KernelIdeal.Leaves Cert.Gate
open Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg)

set_option maxHeartbeats 40000000 in
theorem res_t (c : Dev nD) :
    W5 m ρ c (Proc.devRef .tc main_v81) = Cert.ReferenceIdeal.Read.val_main_v188 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg13)) (m ((c : Thread nD τ).loc main_arg14)) := by
  show StableHlo.after hostOps2 (W4 m ρ c) (Proc.devRef .tc main_v81) = _
  after_results_simp
  rw [W4_arg0, W4_arg1, W4_arg13, W4_arg14, W4_edge]
  unfold Cert.ReferenceIdeal.Read.val_main_v188 Cert.ReferenceIdeal.Read.val_main_v187 Cert.ReferenceIdeal.Read.val_main_cst_26 Cert.ReferenceIdeal.Read.val_main_v186 Cert.ReferenceIdeal.Read.val_main_v185 Cert.ReferenceIdeal.Read.val_main_v184 Cert.ReferenceIdeal.Read.val_main_v183 Cert.ReferenceIdeal.Read.val_main_cst_25 Cert.ReferenceIdeal.Read.val_main_v182 Cert.ReferenceIdeal.Read.val_main_v181 Cert.ReferenceIdeal.Read.val_main_v180 Cert.ReferenceIdeal.Read.val_main_v179 Cert.ReferenceIdeal.Read.val_main_v178 Cert.ReferenceIdeal.Read.val_main_v177 Cert.ReferenceIdeal.Read.val_main_v176 Cert.ReferenceIdeal.Read.val_main_c_24 Cert.ReferenceIdeal.Read.val_main_v175 Cert.ReferenceIdeal.Read.val_main_v174 Cert.ReferenceIdeal.Read.val_main_c_23 Cert.ReferenceIdeal.Read.val_main_v173 Cert.ReferenceIdeal.Read.val_main_v172 Cert.ReferenceIdeal.Read.val_main_v171 Cert.ReferenceIdeal.Read.val_main_v170 Cert.ReferenceIdeal.Read.val_main_v169 Cert.ReferenceIdeal.Read.val_main_v168 Cert.ReferenceIdeal.Read.val_main_cst_22 Cert.ReferenceIdeal.Read.val_main_v167 Cert.ReferenceIdeal.Read.val_main_v166 Cert.ReferenceIdeal.Read.val_main_v165 Cert.ReferenceIdeal.Read.val_main_v164 Cert.ReferenceIdeal.Read.val_main_v163 Cert.ReferenceIdeal.Read.val_main_v162 Cert.ReferenceIdeal.Read.val_main_v161 Cert.ReferenceIdeal.Read.val_main_c_21 Cert.ReferenceIdeal.Read.val_main_v160 Cert.ReferenceIdeal.Read.val_main_v159 Cert.ReferenceIdeal.Read.val_main_c_20 Cert.ReferenceIdeal.Read.val_main_v158 Cert.ReferenceIdeal.Read.val_main_v157
  rw [edge_mask0, edge_mask1]
  rfl

end Cert.Bridge

end
-- ==== Proof.ResS.lean ====
/-
  The mixed propagation's mean embedding as the kernel returns it: the host operations after the second region,
  applied to the arguments and the two slabs of the node-gate array, are the reference's applied to the arguments and
  its two node masks.
-/
import proofs.«175160_j75557064671961_1_alg».proof.Proof.Bridge

set_option maxRecDepth 16384

noncomputable section

namespace Cert.Bridge

open Cert.KernelIdeal Cert.KernelIdeal.Gen Cert.KernelIdeal.Leaves Cert.Gate
open Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg)

set_option maxHeartbeats 40000000 in
theorem res_s (c : Dev nD) :
    W5 m ρ c (Proc.devRef .tc main_v161) = Cert.ReferenceIdeal.Read.val_main_v264 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg12)) (m ((c : Thread nD τ).loc main_arg13)) (m ((c : Thread nD τ).loc main_arg14)) (m ((c : Thread nD τ).loc main_arg15)) (m ((c : Thread nD τ).loc main_arg16)) := by
  show StableHlo.after hostOps2 (W4 m ρ c) (Proc.devRef .tc main_v161) = _
  after_results_simp
  rw [W4_arg0, W4_arg1, W4_arg2, W4_arg13, W4_arg14, W4_arg15, W4_arg16, W4_node]
  unfold Cert.ReferenceIdeal.Read.val_main_v264 Cert.ReferenceIdeal.Read.val_main_v263 Cert.ReferenceIdeal.Read.val_main_cst_46 Cert.ReferenceIdeal.Read.val_main_v259 Cert.ReferenceIdeal.Read.val_main_v258 Cert.ReferenceIdeal.Read.val_main_v257 Cert.ReferenceIdeal.Read.val_main_v256 Cert.ReferenceIdeal.Read.val_main_cst_43 Cert.ReferenceIdeal.Read.val_main_v255 Cert.ReferenceIdeal.Read.val_main_v254 Cert.ReferenceIdeal.Read.val_main_v253 Cert.ReferenceIdeal.Read.val_main_v252 Cert.ReferenceIdeal.Read.val_main_v251 Cert.ReferenceIdeal.Read.val_main_v250 Cert.ReferenceIdeal.Read.val_main_v249 Cert.ReferenceIdeal.Read.val_main_c_42 Cert.ReferenceIdeal.Read.val_main_v248 Cert.ReferenceIdeal.Read.val_main_v247 Cert.ReferenceIdeal.Read.val_main_c_41 Cert.ReferenceIdeal.Read.val_main_v246 Cert.ReferenceIdeal.Read.val_main_v245 Cert.ReferenceIdeal.Read.val_main_v244 Cert.ReferenceIdeal.Read.val_main_v243 Cert.ReferenceIdeal.Read.val_main_v242 Cert.ReferenceIdeal.Read.val_main_v241 Cert.ReferenceIdeal.Read.val_main_cst_40 Cert.ReferenceIdeal.Read.val_main_v240 Cert.ReferenceIdeal.Read.val_main_v239 Cert.ReferenceIdeal.Read.val_main_v238 Cert.ReferenceIdeal.Read.val_main_v237 Cert.ReferenceIdeal.Read.val_main_v236 Cert.ReferenceIdeal.Read.val_main_cst_39 Cert.ReferenceIdeal.Read.val_main_v235 Cert.ReferenceIdeal.Read.val_main_v234 Cert.ReferenceIdeal.Read.val_main_v233 Cert.ReferenceIdeal.Read.val_main_v232 Cert.ReferenceIdeal.Read.val_main_v231 Cert.ReferenceIdeal.Read.val_main_v230 Cert.ReferenceIdeal.Read.val_main_v229 Cert.ReferenceIdeal.Read.val_main_c_38 Cert.ReferenceIdeal.Read.val_main_v228 Cert.ReferenceIdeal.Read.val_main_v227 Cert.ReferenceIdeal.Read.val_main_c_37 Cert.ReferenceIdeal.Read.val_main_v226 Cert.ReferenceIdeal.Read.val_main_v222 Cert.ReferenceIdeal.Read.val_main_v221 Cert.ReferenceIdeal.Read.val_main_v220 Cert.ReferenceIdeal.Read.val_main_v219 Cert.ReferenceIdeal.Read.val_main_cst_33 Cert.ReferenceIdeal.Read.val_main_v218 Cert.ReferenceIdeal.Read.val_main_v217 Cert.ReferenceIdeal.Read.val_main_v216 Cert.ReferenceIdeal.Read.val_main_v215 Cert.ReferenceIdeal.Read.val_main_v214 Cert.ReferenceIdeal.Read.val_main_v213 Cert.ReferenceIdeal.Read.val_main_v212 Cert.ReferenceIdeal.Read.val_main_c_32 Cert.ReferenceIdeal.Read.val_main_v211 Cert.ReferenceIdeal.Read.val_main_v210 Cert.ReferenceIdeal.Read.val_main_c_31 Cert.ReferenceIdeal.Read.val_main_v209 Cert.ReferenceIdeal.Read.val_main_v208 Cert.ReferenceIdeal.Read.val_main_v207 Cert.ReferenceIdeal.Read.val_main_v206 Cert.ReferenceIdeal.Read.val_main_v205 Cert.ReferenceIdeal.Read.val_main_v204 Cert.ReferenceIdeal.Read.val_main_cst_30 Cert.ReferenceIdeal.Read.val_main_v203 Cert.ReferenceIdeal.Read.val_main_v202 Cert.ReferenceIdeal.Read.val_main_v201 Cert.ReferenceIdeal.Read.val_main_v200 Cert.ReferenceIdeal.Read.val_main_v199 Cert.ReferenceIdeal.Read.val_main_cst_29 Cert.ReferenceIdeal.Read.val_main_v198 Cert.ReferenceIdeal.Read.val_main_v197 Cert.ReferenceIdeal.Read.val_main_v196 Cert.ReferenceIdeal.Read.val_main_v195 Cert.ReferenceIdeal.Read.val_main_v194 Cert.ReferenceIdeal.Read.val_main_v193 Cert.ReferenceIdeal.Read.val_main_v192 Cert.ReferenceIdeal.Read.val_main_c_28 Cert.ReferenceIdeal.Read.val_main_v191 Cert.ReferenceIdeal.Read.val_main_v190 Cert.ReferenceIdeal.Read.val_main_c_27 Cert.ReferenceIdeal.Read.val_main_v189
  rw [node_mask0, node_mask1]
  rfl

end Cert.Bridge

end
-- ==== Proof.ResReg.lean ====
/-
  The node-mask regulariser as the kernel returns it: the mean of the two slabs' means of the node-gate array, which
  the reference takes of its two node masks.
-/
import proofs.«175160_j75557064671961_1_alg».proof.Proof.Bridge

set_option maxRecDepth 16384

noncomputable section

namespace Cert.Bridge

open Cert.KernelIdeal Cert.KernelIdeal.Gen Cert.KernelIdeal.Leaves Cert.Gate
open Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg)

set_option maxHeartbeats 40000000 in
theorem res_reg (c : Dev nD) :
    W5 m ρ c (Proc.devRef .tc main_v162) = Cert.ReferenceIdeal.Read.val_main_v265 (F := Ideal) (m ((c : Thread nD τ).loc main_arg0)) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg12)) (m ((c : Thread nD τ).loc main_arg13)) (m ((c : Thread nD τ).loc main_arg14)) := by
  show StableHlo.after hostOps2 (W4 m ρ c) (Proc.devRef .tc main_v162) = _
  after_results_simp
  rw [W4_node]
  unfold Cert.ReferenceIdeal.Read.val_main_v265 Cert.ReferenceIdeal.Read.val_main_cst_47 Cert.ReferenceIdeal.Read.val_main_v262 Cert.ReferenceIdeal.Read.val_main_v261 Cert.ReferenceIdeal.Read.val_main_cst_45 Cert.ReferenceIdeal.Read.val_main_v260 Cert.ReferenceIdeal.Read.val_main_cst_44 Cert.ReferenceIdeal.Read.val_main_v225 Cert.ReferenceIdeal.Read.val_main_cst_36 Cert.ReferenceIdeal.Read.val_main_v224 Cert.ReferenceIdeal.Read.val_main_cst_35 Cert.ReferenceIdeal.Read.val_main_v223 Cert.ReferenceIdeal.Read.val_main_cst_34
  rw [node_mask0, node_mask1]
  rfl

end Cert.Bridge

end
-- ==== Proof.Claims.lean ====
/-
  The five claims.

  The frames of the kernel as printed and of its idealization are the generated ones; the reference's is its run with the
  results dropped. The idealization rewrote nothing, so it preserves the kernel trivially. For the equivalence over the
  extended reals the kernel's results are named by its run (the last segment boundary's contents at the result
  buffers), the reference's by its run (the stages of its arguments), the arguments agree, and the kernel's contents
  are the reference's stages of the same arguments: the two edge-gate layers and the two node-gate slabs are the
  reference's four masks, and everything else is the same host operations on both sides.
-/
import proofs.«175160_j75557064671961_1_alg».proof.Defs
import proofs.«175160_j75557064671961_1_alg».proof.Proof.Gen.Kernel.Frame
import proofs.«175160_j75557064671961_1_alg».proof.Proof.Gen.KernelIdeal.Frame
import proofs.«175160_j75557064671961_1_alg».proof.Proof.Gen.Pre_finite_inputs
import proofs.«175160_j75557064671961_1_alg».proof.Proof.KernelRun
import proofs.«175160_j75557064671961_1_alg».proof.Proof.RefRun
import proofs.«175160_j75557064671961_1_alg».proof.Proof.RefReadEq
import proofs.«175160_j75557064671961_1_alg».proof.Proof.ResMask
import proofs.«175160_j75557064671961_1_alg».proof.Proof.ResT
import proofs.«175160_j75557064671961_1_alg».proof.Proof.ResS
import proofs.«175160_j75557064671961_1_alg».proof.Proof.ResReg

set_option maxRecDepth 16384

noncomputable section

namespace Cert.Proof.Claims

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

/-- The reference's run keeps its arguments: the run's post with the five results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

/-- The ideal pass rewrote no operation. -/
theorem preserves : Cert.preserves_Kernel_KernelIdeal := trivial

set_option maxHeartbeats 4000000 in
/-- Run from memories that agree on the arguments, the two idealized programs end with equal results. -/
theorem algebraic : Cert.algebraic_KernelIdeal_ReferenceIdeal := by
  intro m ρ m' ρ' _ hagree
  refine ⟨_, _, _, _, _, Cert.KernelIdeal.RunNamed.run (F := Ideal) m ρ, ?_⟩
  refine (θ_run Cert.ReferenceIdeal.defs _ _).mono (fun r h c => ?_) (Cert.ReferenceIdeal.Value.run (F := Ideal) m' ρ')
  obtain ⟨h0, h1, h2, h3, h4, hargs⟩ := h c
  obtain ⟨a0, a1, a2, a3, a4, a5, a6, a7, a8, a9, a10, a11, a12, a13, a14, a15, a16⟩ := hagree c
  refine ⟨h0.trans ?_, h1.trans ?_, h2.trans ?_, h3.trans ?_, h4.trans ?_, hargs⟩
  · rw [Cert.ReferenceIdeal.Read.val_main_v188_eq, a0, a1, a3, a4, a5, a6, a11, a13, a14]
    exact (Cert.Bridge.res_t m ρ c).symm
  · rw [Cert.ReferenceIdeal.Read.val_main_v264_eq, a0, a1, a2, a7, a8, a9, a10, a12, a13, a14, a15, a16]
    exact (Cert.Bridge.res_s m ρ c).symm
  · exact (Cert.Bridge.res_zero m ρ c).symm
  · rw [Cert.ReferenceIdeal.Read.val_main_v265_eq, a0, a1, a7, a8, a9, a10, a12, a13, a14]
    exact (Cert.Bridge.res_reg m ρ c).symm
  · refine (Cert.ReferenceIdeal.Read.val_main_v128_eq (F := Ideal) _ _ _ _ _ _ _ _).trans ?_
    rw [a0, a3, a4, a5, a6, a11, a13, a14]
    exact (Cert.Bridge.res_mask m ρ c).symm

end Cert.Proof.Claims

end
-- ==== Proof.lean ====
/-
  The certificate: a two-layer graph network whose edge gates and node gates are computed by two kernel regions,
  against the same network computed entirely on the host.

  Both gates are the logistic function of (noise + a two-layer rectified perceptron's logit) / (1/2). Over the extended
  reals the kernel's rounding to bf16 is the identity, its matrix products into a zero accumulator are the host's
  dot products, and its logistic operation is the host's 1 / (1 + exp (-x)); so each gate array the kernel's regions
  leave is, entry by entry, the mask the reference computes, and every other operation is the same host operation
  in both programs. No law of real arithmetic beyond that is used, and the inputs' finiteness is never opened.
  The claims are proved in Proof/Claims.lean; this file assembles them.
-/
import proofs.«175160_j75557064671961_1_alg».proof.Defs
import proofs.«175160_j75557064671961_1_alg».proof.Proof.Gen.Kernel
import proofs.«175160_j75557064671961_1_alg».proof.Proof.Gen.KernelIdeal
import proofs.«175160_j75557064671961_1_alg».proof.Proof.Gen.ReferenceIdeal
import proofs.«175160_j75557064671961_1_alg».proof.Proof.Gen.Pre_finite_inputs
import proofs.«175160_j75557064671961_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
